-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_1)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_1) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192 : Shape := ⟨2, ![512, 8192]⟩
abbrev S8192x8192 : Shape := ⟨2, ![8192, 8192]⟩
abbrev S512x128 : Shape := ⟨2, ![512, 128]⟩
abbrev S_ : Shape := ⟨0, ![]⟩
abbrev S8192 : Shape := ⟨1, ![8192]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x128 : S_.BroadcastsInDim S512x128 (![] : Fin 0 → Fin S512x128.rank)
  reducesTo_S512x128_S_d0_1 : S512x128.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v14 : IVec S8192x8192 32) (main_v15 : IVec S8192x8192 32) (main_v16 : IVec S8192x8192 32) : IVec S_ 1 :=
  let main_v17 : IVec S8192x8192 32 := addi main_v14 main_v16
  let main_v18 : IVec S8192x8192 1 := cmpi .eq main_v17 main_v15
  let main_v19 : FVec F S8192x8192 .f32 := uitofp .f32 main_v18
  let main_v20 : FVec F S8192x8192 .f32 := addf main_arg1 main_v19
  let main_cst_5 : FVec F S_ .f32 := constant S_ .f32 0x00000000#32
  let main_v21 : FVec F S8192 .f32 := (fun x v => Host.reduceAdd x v reducesTo_S8192x8192_S8192_d1 h_S_) main_v20 main_cst_5
  let main_cst_6 : FVec F S_ .f32 := constant S_ .f32 0x00000000#32
  let main_v22 : FVec F S8192 .f32 := broadcastInDim S8192 ![] bcast_S_S8192 main_cst_6
  let main_v23 : IVec S8192 1 := cmpf .ogt main_v21 main_v22
  let main_c_7 : IVec S_ 1 := constantI S_ 1 1#1
  let main_v24 : IVec S_ 1 := (fun x v => Host.reduce IntOp.andi x v reducesTo_S8192_S_d0 h_S_) main_v23 main_c_7
  let main_v25 : IVec S_ 1 := andi main_v13 main_v24
  main_v25

def fn {F : FTy → Type} [FloatOps F] (main_arg0 : FVec F S512x8192 .f32) (main_arg1 : FVec F S8192x8192 .f32) (main_arg2 : FVec F S512x128 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : IVec S8192x8192 32 := iotaInDim S8192x8192 32 0
  let main_v15 : IVec S8192x8192 32 := iotaInDim S8192x8192 32 1
  let main_c_4 : IVec S_ 32 := constantI S_ 32 0#32
  let main_v16 : IVec S8192x8192 32 := broadcastInDim S8192x8192 ![] bcast_S_S8192x8192 main_c_4
  fn_part1 (F := F) main_arg1 main_v13 main_v14 main_v15 main_v16
-- ==== Kernel.lean ====
abbrev S512x8192 : Shape := ⟨2, ![512, 8192]⟩
abbrev S8192x8192 : Shape := ⟨2, ![8192, 8192]⟩
abbrev S512x128 : Shape := ⟨2, ![512, 128]⟩
abbrev S8192x1 : Shape := ⟨2, ![8192, 1]⟩
abbrev S512x1 : Shape := ⟨2, ![512, 1]⟩
abbrev S512 : Shape := ⟨1, ![512]⟩
abbrev S_ : Shape := ⟨0, ![]⟩
abbrev S1x8192 : Shape := ⟨2, ![1, 8192]⟩
abbrev S128x8192 : Shape := ⟨2, ![128, 8192]⟩
abbrev S512x1024 : Shape := ⟨2, ![512, 1024]⟩
abbrev S1x1024 : Shape := ⟨2, ![1, 1024]⟩
abbrev S128x1024 : Shape := ⟨2, ![128, 1024]⟩
abbrev S1024x1024 : Shape := ⟨2, ![1024, 1024]⟩
abbrev S1024x1 : Shape := ⟨2, ![1024, 1]⟩

abbrev nBuf : Space → Nat
  | .hbm => 12
  | .vmem => 24
  | .smem => 0
  | _ => 0

abbrev bufTy : (tb : Table) → Fin (tcTables nBuf tb) → BufTy
  | .hbm, ⟨0, _⟩ => ⟨S512x8192, .f32⟩
  | .hbm, ⟨1, _⟩ => ⟨S8192x8192, .f32⟩
  | .hbm, ⟨2, _⟩ => ⟨S512x128, .f32⟩
  | .hbm, ⟨3, _⟩ => ⟨S8192x1, .f32⟩
  | .hbm, ⟨4, _⟩ => ⟨S_, .f32⟩
  | .hbm, ⟨5, _⟩ => ⟨S8192x1, .f32⟩
  | .hbm, ⟨6, _⟩ => ⟨S8192x1, .f32⟩
  | .hbm, ⟨7, _⟩ => ⟨S8192x1, .f32⟩
  | .hbm, ⟨8, _⟩ => ⟨S1x8192, .f32⟩
  | .hbm, ⟨9, _⟩ => ⟨S128x8192, .f32⟩
  | .hbm, ⟨10, _⟩ => ⟨S8192x8192, .f32⟩
  | .hbm, ⟨11, _⟩ => ⟨S128x8192, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S512x128, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S128x1024, .f32⟩
  | .local _ .vmem, ⟨10, _⟩ => ⟨S128x1024, .f32⟩
  | .local _ .vmem, ⟨11, _⟩ => ⟨S1024x1024, .f32⟩
  | .local _ .vmem, ⟨12, _⟩ => ⟨S1024x1024, .f32⟩
  | .local _ .vmem, ⟨13, _⟩ => ⟨S128x1024, .f32⟩
  | .local _ .vmem, ⟨14, _⟩ => ⟨S128x1024, .f32⟩
  | .local _ .vmem, ⟨15, _⟩ => ⟨S1024x1, .f32⟩
  | .local _ .vmem, ⟨16, _⟩ => ⟨S1024x1, .f32⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_15 : BitVec 32 := 0#32
  let v39 : BitVec 1 := Scalar.cmpi .ne v38 c0_i32_15
  v39

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S128x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  bcast_S_S8192x1 : S_.BroadcastsInDim S8192x1 (![] : Fin 0 → Fin S8192x1.rank)
  transposes_S8192x1_S1x8192_1_0 : S8192x1.Transposes [1, 0] S1x8192
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  dot_S512x128_S512x1024_S128x1024_0_0_1_1_n_n_wf : DotDims.WF S512x128 S512x1024 S128x1024 [0] [0] [1] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S512x128.size a
  hwx1_0 : ∀ i : grid1.Coords, EltTy.bits .f32 = 32 ∨ (Rect.block (s := S512x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x8192.size a
  hwx1_1 : ∀ i : grid1.Coords, EltTy.bits .f32 = 32 ∨ (Rect.block (s := S512x8192) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S128x8192.size a
  hwx1_3 : ∀ i : grid1.Coords, EltTy.bits .f32 = 32 ∨ (Rect.block (s := S128x8192) S128x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1024.size a ≤ S128x8192.size a
  hwx2_1 : ∀ i : grid2.Coords, EltTy.bits .f32 = 32 ∨ (Rect.block (s := S128x8192) S128x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x8192.size a
  hwx2_4 : ∀ i : grid2.Coords, EltTy.bits .f32 = 32 ∨ (Rect.block (s := S8192x8192) S1024x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S128x1024.size a ≤ S128x8192.size a
  hwx2_5 : ∀ i : grid2.Coords, EltTy.bits .f32 = 32 ∨ (Rect.block (s := S128x8192) S128x1024.size (cc2_transform_5 i) (hinb2_5 i)).WholeWords (EltTy.packing .f32)

variable [Facts₀]

def dot_S512x128_S512x1024_S128x1024_0_0_1_1_n_n : DotDims S512x128 S512x1024 S128x1024 where
  lhsContracting := [0]
  rhsContracting := [0]
  lhsNonContracting := [1]
  rhsNonContracting := [1]
  lhsBatch := []
  rhsBatch := []
  wf := dot_S512x128_S512x1024_S128x1024_0_0_1_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg2) S512x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S128x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6_0) S1024x1024.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v6_1) S128x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S512x8192 : Shape := ⟨2, ![512, 8192]⟩
abbrev S8192x8192 : Shape := ⟨2, ![8192, 8192]⟩
abbrev S512x128 : Shape := ⟨2, ![512, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S128x8192 : Shape := ⟨2, ![128, 8192]⟩

abbrev nBuf : Space → Nat
  | .hbm => 25
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S8192x8192, .f32⟩
  | .hbm, ⟨2, _⟩ => ⟨S512x128, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S128x8192, .f32⟩
  | .hbm, ⟨21, _⟩ => ⟨S128x8192, .f32⟩
  | .hbm, ⟨22, _⟩ => ⟨S_, .f32⟩
  | .hbm, ⟨23, _⟩ => ⟨S128x8192, .f32⟩
  | .hbm, ⟨24, _⟩ => ⟨S128x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_cst : Ref sig .tc := ⟨.hbm, 22, rfl⟩
abbrev main_call0_v0 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S128x8192 : S_.BroadcastsInDim S128x8192 (![] : Fin 0 → Fin S128x8192.rank)
  dot_S512x128_S512x8192_S128x8192_0_0_1_1_n_n_wf : DotDims.WF S512x128 S512x8192 S128x8192 [0] [0] [1] [1] [] []
  dot_S128x8192_S8192x8192_S128x8192_1_0_0_1_n_n_wf : DotDims.WF S128x8192 S8192x8192 S128x8192 [1] [0] [0] [1] [] []

variable [Facts₀]

def dot_S512x128_S512x8192_S128x8192_0_0_1_1_n_n : DotDims S512x128 S512x8192 S128x8192 where
  lhsContracting := [0]
  rhsContracting := [0]
  lhsNonContracting := [1]
  rhsNonContracting := [1]
  lhsBatch := []
  rhsBatch := []
  wf := dot_S512x128_S512x8192_S128x8192_0_0_1_1_n_n_wf
def dot_S128x8192_S8192x8192_S128x8192_1_0_0_1_n_n : DotDims S128x8192 S8192x8192 S128x8192 where
  lhsContracting := [1]
  rhsContracting := [0]
  lhsNonContracting := [0]
  rhsNonContracting := [1]
  lhsBatch := []
  rhsBatch := []
  wf := dot_S128x8192_S8192x8192_S128x8192_1_0_0_1_n_n_wf

class Facts : Prop extends Facts₀ where

variable [Facts]
-- ==== Proof.K_R0.lean ====
import proofs.«143146_j43112881717764_2_alg».proof.Proof.Gen.Kernel.Launch
import proofs.«143146_j43112881717764_2_alg».proof.Proof.Gen.Kernel.Skeleton
import proofs.«143146_j43112881717764_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the row sums of the adjacency block, at the entry contents `V`

One grid axis of 16 points. Window 0 is the 512×8192 block of rows of the adjacency matrix at the point; window 1 is
the 512×1 block of the column of row sums. The body reads the whole input block and stores, over the whole output
block, each row's sum. -/

section Region0
-- the buffer contents when the region is entered: a parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512×8192 input block, as the rectangle the body loads through. -/
abbrev rl0_0 : Rect S512x8192 := Rect.unit (s := S512x8192) ![0, 0] S512x8192.size inb_S512x8192_S512x8192_0_0
/-- The whole 512×1 output block, as the rectangle the body stores through. -/
abbrev rs0_1 : Rect S512x1 := Rect.unit (s := S512x1) ![0, 0] S512x1.size inb_S512x1_S512x1_0_0

/-- The output block after the body, from the input block: the one store of the row sums over the whole block. -/
def out0_1 (x0 : Vec F S512x8192 .f32) : Vec F S512x1 .f32 :=
  View.canon [⟨rs0_1, k0_pay1 (View.ld x0 rl0_0)⟩]

/-- The one store is the whole block, so it covers it. -/
theorem cover0_1 (p0 : Vec F S512x1 .f32) (y : S512x1.Idx) :
    ∃ pc ∈ ([⟨rs0_1, p0⟩] : List (View.Piece (Elt F) S512x1 .f32)), y ∈ pc.1.set :=
  View.cover_of_tiled [⟨rs0_1, p0⟩] S512x1.size (by rfl) y

set_option maxHeartbeats 1000000 in
/-- The body on whole staging buffers, the input's reading `x0` and the output's anything, runs to the continuation
    holding the input's as it was and the output's at `out0_1 x0`. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__deg_kernel i arg1 harg1 arg2 harg2) K := by
  simp only [cc0__deg_kernel_eq_skeleton]; unfold cc0__deg_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of region 0 on core `c`: the arrays as the region finds them; after the body at point `t` the
    input's buffer at its block and the output's at `out0_1` of the input block; the invariant untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so `sound_kernel0` applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K_R1.lean ====
import proofs.«143146_j43112881717764_2_alg».proof.Proof.Gen.Kernel.Launch
import proofs.«143146_j43112881717764_2_alg».proof.Proof.Gen.Kernel.Skeleton
import proofs.«143146_j43112881717764_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the projected features, scaled per column, at the entry contents `V`

One grid axis of 8 points. Window 0 is the whole 512×128 weight (its block index never moves); window 1 is the
512×1024 block of columns of the features at the point; window 2 is the 1×1024 block of the row of scale factors;
window 3 is the 128×1024 block of the output. The body reads the three input blocks whole and stores, over the whole
output block, the contraction of the weight with the feature block over the 512 axis, times the scale factor of the
column. -/

section Region1
-- the buffer contents when the region is entered: a parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not (its block index never
    moves), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 512×128 weight block, the whole 512×1024 feature block and the whole 1×1024 scale block, as the
    rectangles the body loads through, -/
abbrev rl1_0 : Rect S512x128 := Rect.unit (s := S512x128) ![0, 0] S512x128.size inb_S512x128_S512x128_0_0
abbrev rl1_1 : Rect S512x1024 := Rect.unit (s := S512x1024) ![0, 0] S512x1024.size inb_S512x1024_S512x1024_0_0
abbrev rl1_2 : Rect S1x1024 := Rect.unit (s := S1x1024) ![0, 0] S1x1024.size inb_S1x1024_S1x1024_0_0
/-- and the whole 128×1024 output block, as the rectangle it stores through. -/
abbrev rs1_3 : Rect S128x1024 := Rect.unit (s := S128x1024) ![0, 0] S128x1024.size inb_S128x1024_S128x1024_0_0

/-- The output block after the body, from the input blocks: the one store of the scaled contraction over the whole block. -/
def out1_3 (x0 : Vec F S512x128 .f32) (x1 : Vec F S512x1024 .f32) (x2 : Vec F S1x1024 .f32) : Vec F S128x1024 .f32 :=
  View.canon [⟨rs1_3, k1_pay1 (View.ld x0 rl1_0) (View.ld x1 rl1_1) (View.ld x2 rl1_2)⟩]

/-- The one store is the whole block, so it covers it. -/
theorem cover1_3 (p0 : Vec F S128x1024 .f32) (y : S128x1024.Idx) :
    ∃ pc ∈ ([⟨rs1_3, p0⟩] : List (View.Piece (Elt F) S128x1024 .f32)), y ∈ pc.1.set :=
  View.cover_of_tiled [⟨rs1_3, p0⟩] S128x1024.size (by rfl) y

set_option maxHeartbeats 1000000 in
/-- The body on whole staging buffers, the inputs' reading `x0`, `x1`, `x2` and the output's anything, runs to the
    continuation holding the inputs' as they were and the output's at `out1_3 x0 x1 x2`. -/
theorem sound_kernel1 (c : Dev nD) (E : Set ℕ) (i : grid1.Coords) (arg1 : Memref sig .tc .vmem S512x128 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S128x1024 .f32) (harg4 : arg4.IsWhole)
    (x0 : Vec F S512x128 .f32) (x1 : Vec F S512x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gemm1_kernel i arg1 harg1 arg2 harg2 arg3 harg3 arg4 harg4) K := by
  simp only [cc1__gemm1_kernel_eq_skeleton]; unfold cc1__gemm1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of region 1 on core `c`: the arrays as the region finds them; after the body at point `t` each
    input's buffer at its block and the output's at `out1_3` of the input blocks; the invariant untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and what
    is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K_R2Runs.lean ====
import proofs.«143146_j43112881717764_2_alg».proof.Proof.Gen.Kernel.Launch
import proofs.«143146_j43112881717764_2_alg».proof.Proof.Gen.Kernel.Skeleton
import proofs.«143146_j43112881717764_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 2 (the main kernel, grid 8 × 8), at the entry contents `V`: what its three control cases share

The point `t` has coordinates `(j, i) = (t / 8, t % 8)`. The body zeroes the carried accumulator when `i = 0`,
adds `x_blk · (adj_blk + I_blk)` to it at every point, and when `i = 7` stores `max (acc * drow, 0)` into the
second output's block; the first output's block is stored at every point. -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- The first condition (`i = 0`: the accumulator is zeroed), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The second condition (`i = 7`: the second output's block is stored), from the grid coordinates. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where `i ≠ 7` the second output (window 5) is idle and its block is not written back. -/
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- Where `i = 7` it is live. -/
theorem liveAt2_5_C : ∀ t : Fin cfg2.N, ¬cond2_0 (grid2.coords t) → cond2_1 (grid2.coords t) → cfg2.idle 5 (grid2.coords t) = false := by decide +kernel

/-! ## The staging and scratch memrefs -/

/-- One staging buffer of each output window, through which its contents are stated (the choice does not matter). -/
abbrev VO2_4 : View sig .tc .vmem S1024x1024 .f32 := (Memref.whole cc2_stg4_0 : Memref sig .tc .vmem S1024x1024 .f32).view
abbrev VO2_5 : View sig .tc .vmem S128x1024 .f32 := (Memref.whole cc2_stg5_0 : Memref sig .tc .vmem S128x1024 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x1024 .f32 := win2_5.stage (cfg2.slots t 5)
abbrev hs2_5 (t : Fin cfg2.N) : (ms2_5 t).IsWhole := hstage2_5 ((cfg2.slots t 5).cast nbuf2_5)
/-- The scratch operand: a whole scoped buffer of the kernel's own, passed beside the windows. -/
abbrev scM2_0 : Memref sig .tc .vmem S128x1024 .f32 := Memref.whole cc2_scratch0
/-- The accumulator the kernel carries between points, as a view: what it holds is stated through it. -/
abbrev VS2_0 : View sig .tc .vmem S128x1024 .f32 := scM2_0.view

/-- The core's scoped buffers that are no staging buffer of this region — the other two regions' staging buffers, each
    at some contents — beside a statement `X` about the scratch. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ X)

/-- The region's entry invariant with the scratch operand as a memref owned at some contents. -/
theorem PhiA2_eq (c : Dev nD) :
    (Pipeline.ΦA spec2 c : sProp 𝕄)
      = iprop(restWith (F := F) c (iprop(∃ d, owns (c : Thread nD τ) scM2_0 fullShare d)) ∗ (∃ r, prngReg c r)) := by
  unfold Pipeline.ΦA restWith; rw [scopedRest2_eq]; simp only [scM2_0, owns_whole]; try rfl

end Cert.Kernel.Hand

end
-- ==== Proof.K_R2A.lean ====
import proofs.«143146_j43112881717764_2_alg».proof.Proof.K_R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
-- (the run's proof term is large)
set_option maxHeartbeats 4000000 in
/-- CASE A (`i = 0`, not `i = 7`): what the body's stores leave, as pieces (last first), in output 4's staging
    memref and in the scratch, with the proof that on whole memrefs — the inputs' at their contents, output 4's at
    anything, output 5's (no store: the window is idle here) at contents handed back untouched, the scratch at
    anything — the body runs to the continuation holding the inputs' as they were and each stored buffer with its
    pieces written. The accumulator is zeroed, then `x_blk · (adj_blk + I_blk)` is added. -/
noncomputable def kernelRun2_A (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) :
    Σ' (L4 : List (View.Piece (Elt F) S1024x1024 .f32)) (L5 : List (View.Piece (Elt F) S128x1024 .f32)), { LS0 : List (View.Piece (Elt F) S128x1024 .f32) //
      ∀ (xi5 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8) K } := by
  refine ⟨?_, [], ?_, fun xi5 E K => ?run⟩
  case run =>
    simp only [cc2__main_kernel_eq_skeleton]; unfold cc2__main_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Hand

end
-- ==== Proof.K_R2B.lean ====
import proofs.«143146_j43112881717764_2_alg».proof.Proof.K_R2A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
-- (the run's proof term is large)
set_option maxHeartbeats 4000000 in
/-- CASE B (neither `i = 0` nor `i = 7`): as case A, but the scratch is handed over at the contents `xs0` the point
    before left; `x_blk · (adj_blk + I_blk)` is added to it. -/
noncomputable def kernelRun2_B (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) :
    Σ' (L4 : List (View.Piece (Elt F) S1024x1024 .f32)) (L5 : List (View.Piece (Elt F) S128x1024 .f32)), { LS0 : List (View.Piece (Elt F) S128x1024 .f32) //
      ∀ (xi5 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8) K } := by
  refine ⟨?_, [], ?_, fun xi5 E K => ?run⟩
  case run =>
    simp only [cc2__main_kernel_eq_skeleton]; unfold cc2__main_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Hand

end
-- ==== Proof.K_R2C.lean ====
import proofs.«143146_j43112881717764_2_alg».proof.Proof.K_R2B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
-- (the run's proof term is large)
set_option maxHeartbeats 4000000 in
/-- CASE C (`i = 7`, not `i = 0`): the scratch is handed over at `xs0`; `x_blk · (adj_blk + I_blk)` is added to it,
    and output 5's block (handed over at anything) is stored: `max (acc * drow, 0)`. -/
noncomputable def kernelRun2_C (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) :
    Σ' (L4 : List (View.Piece (Elt F) S1024x1024 .f32)) (L5 : List (View.Piece (Elt F) S128x1024 .f32)), { LS0 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8) K } := by
  refine ⟨?_, ?_, ?_, fun E K => ?run⟩
  case run =>
    simp only [cc2__main_kernel_eq_skeleton]; unfold cc2__main_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Hand

end
-- ==== Proof.K_R2.lean ====
import proofs.«143146_j43112881717764_2_alg».proof.Proof.K_R2C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 2 at the entry contents `V`: what each case leaves, the accumulation over the points, the proof data and
the body obligation -/

/-- Case A's one store into output 4 covers its block. -/
theorem cover2_A_4 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) (y : S1024x1024.Idx) :
    ∃ pc ∈ (kernelRun2_A c i arg2 harg2 arg3 harg3 arg4 harg4 arg5 harg5 arg6 harg6 arg7 harg7 arg8 harg8 hc0 hc1 x0 x1 x2 x3).1, y ∈ pc.1.set :=
  View.cover_of_tiledL (kernelRun2_A c i arg2 harg2 arg3 harg3 arg4 harg4 arg5 harg5 arg6 harg6 arg7 harg7 arg8 harg8 hc0 hc1 x0 x1 x2 x3).1 S1024x1024.size (by sl_kernel_rfl) y

/-- What case A leaves in output 4's staging buffer: its pieces read back over junk. -/
def out2_A_4 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) : Vec F S1024x1024 .f32 :=
  VO2_4.read (Elt F) (VO2_4.writes (Elt F) VO2_4.junk (kernelRun2_A c i arg2 harg2 arg3 harg3 arg4 harg4 arg5 harg5 arg6 harg6 arg7 harg7 arg8 harg8 hc0 hc1 x0 x1 x2 x3).1)

/-- Case A stores nothing into output 5 (the window is idle at its points and not written back there): a
    placeholder that nothing consults. -/
def out2_A_5 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) : Vec F S128x1024 .f32 :=
  VO2_5.read (Elt F) (VO2_5.writes (Elt F) VO2_5.junk (kernelRun2_A c i arg2 harg2 arg3 harg3 arg4 harg4 arg5 harg5 arg6 harg6 arg7 harg7 arg8 harg8 hc0 hc1 x0 x1 x2 x3).2.1)

/-- Case A's stores into the scratch cover it. -/
theorem scover2_A_0 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) (y : S128x1024.Idx) :
    ∃ pc ∈ (kernelRun2_A c i arg2 harg2 arg3 harg3 arg4 harg4 arg5 harg5 arg6 harg6 arg7 harg7 arg8 harg8 hc0 hc1 x0 x1 x2 x3).2.2.1, y ∈ pc.1.set :=
  View.cover_of_tiledL (kernelRun2_A c i arg2 harg2 arg3 harg3 arg4 harg4 arg5 harg5 arg6 harg6 arg7 harg7 arg8 harg8 hc0 hc1 x0 x1 x2 x3).2.2.1 S128x1024.size (by sl_kernel_rfl) y

/-- What case A leaves in the scratch: its pieces read back over junk. -/
def sout2_A_0 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) : Vec F S128x1024 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3).2.2.1)

/-- Case B's one store into output 4 covers its block. -/
theorem cover2_B_4 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) (y : S1024x1024.Idx) :
    ∃ pc ∈ (kernelRun2_B c i arg2 harg2 arg3 harg3 arg4 harg4 arg5 harg5 arg6 harg6 arg7 harg7 arg8 harg8 hc0 hc1 x0 x1 x2 x3 xs0).1, y ∈ pc.1.set :=
  View.cover_of_tiledL (kernelRun2_B c i arg2 harg2 arg3 harg3 arg4 harg4 arg5 harg5 arg6 harg6 arg7 harg7 arg8 harg8 hc0 hc1 x0 x1 x2 x3 xs0).1 S1024x1024.size (by sl_kernel_rfl) y

/-- What case B leaves in output 4's staging buffer: its pieces read back over junk. -/
def out2_B_4 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) : Vec F S1024x1024 .f32 :=
  VO2_4.read (Elt F) (VO2_4.writes (Elt F) VO2_4.junk (kernelRun2_B c i arg2 harg2 arg3 harg3 arg4 harg4 arg5 harg5 arg6 harg6 arg7 harg7 arg8 harg8 hc0 hc1 x0 x1 x2 x3 xs0).1)

/-- Case B stores nothing into output 5 (the window is idle at its points and not written back there): a
    placeholder that nothing consults. -/
def out2_B_5 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) : Vec F S128x1024 .f32 :=
  VO2_5.read (Elt F) (VO2_5.writes (Elt F) VO2_5.junk (kernelRun2_B c i arg2 harg2 arg3 harg3 arg4 harg4 arg5 harg5 arg6 harg6 arg7 harg7 arg8 harg8 hc0 hc1 x0 x1 x2 x3 xs0).2.1)

/-- Case B's stores into the scratch cover it. -/
theorem scover2_B_0 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) (y : S128x1024.Idx) :
    ∃ pc ∈ (kernelRun2_B c i arg2 harg2 arg3 harg3 arg4 harg4 arg5 harg5 arg6 harg6 arg7 harg7 arg8 harg8 hc0 hc1 x0 x1 x2 x3 xs0).2.2.1, y ∈ pc.1.set :=
  View.cover_of_tiledL (kernelRun2_B c i arg2 harg2 arg3 harg3 arg4 harg4 arg5 harg5 arg6 harg6 arg7 harg7 arg8 harg8 hc0 hc1 x0 x1 x2 x3 xs0).2.2.1 S128x1024.size (by sl_kernel_rfl) y

/-- What case B leaves in the scratch: its pieces read back over junk. -/
def sout2_B_0 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) : Vec F S128x1024 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 xs0).2.2.1)

/-- Case C's one store into output 4 covers its block. -/
theorem cover2_C_4 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) (y : S1024x1024.Idx) :
    ∃ pc ∈ (kernelRun2_C c i arg2 harg2 arg3 harg3 arg4 harg4 arg5 harg5 arg6 harg6 arg7 harg7 arg8 harg8 hc0 hc1 x0 x1 x2 x3 xs0).1, y ∈ pc.1.set :=
  View.cover_of_tiledL (kernelRun2_C c i arg2 harg2 arg3 harg3 arg4 harg4 arg5 harg5 arg6 harg6 arg7 harg7 arg8 harg8 hc0 hc1 x0 x1 x2 x3 xs0).1 S1024x1024.size (by sl_kernel_rfl) y

/-- What case C leaves in output 4's staging buffer: its pieces read back over junk. -/
def out2_C_4 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) : Vec F S1024x1024 .f32 :=
  VO2_4.read (Elt F) (VO2_4.writes (Elt F) VO2_4.junk (kernelRun2_C c i arg2 harg2 arg3 harg3 arg4 harg4 arg5 harg5 arg6 harg6 arg7 harg7 arg8 harg8 hc0 hc1 x0 x1 x2 x3 xs0).1)

/-- Case C's one store into output 5 covers its block. -/
theorem cover2_C_5 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) (y : S128x1024.Idx) :
    ∃ pc ∈ (kernelRun2_C c i arg2 harg2 arg3 harg3 arg4 harg4 arg5 harg5 arg6 harg6 arg7 harg7 arg8 harg8 hc0 hc1 x0 x1 x2 x3 xs0).2.1, y ∈ pc.1.set :=
  View.cover_of_tiledL (kernelRun2_C c i arg2 harg2 arg3 harg3 arg4 harg4 arg5 harg5 arg6 harg6 arg7 harg7 arg8 harg8 hc0 hc1 x0 x1 x2 x3 xs0).2.1 S128x1024.size (by sl_kernel_rfl) y

/-- What case C leaves in output 5's staging buffer: its pieces read back over junk. -/
def out2_C_5 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) : Vec F S128x1024 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 xs0).2.1)

/-- Case C's stores into the scratch cover it. -/
theorem scover2_C_0 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) (y : S128x1024.Idx) :
    ∃ pc ∈ (kernelRun2_C c i arg2 harg2 arg3 harg3 arg4 harg4 arg5 harg5 arg6 harg6 arg7 harg7 arg8 harg8 hc0 hc1 x0 x1 x2 x3 xs0).2.2.1, y ∈ pc.1.set :=
  View.cover_of_tiledL (kernelRun2_C c i arg2 harg2 arg3 harg3 arg4 harg4 arg5 harg5 arg6 harg6 arg7 harg7 arg8 harg8 hc0 hc1 x0 x1 x2 x3 xs0).2.2.1 S128x1024.size (by sl_kernel_rfl) y

/-- What case C leaves in the scratch: its pieces read back over junk. -/
def sout2_C_0 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) : Vec F S128x1024 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 xs0).2.2.1)

/-! ## What the outputs and the scratch hold after each point -/

/-- THE ACCUMULATION. What output 4's staging buffer, output 5's staging buffer and the scratch hold after the body at
    position `n` (a triple, in that order): the case the closed forms select at `n`, run at the point's memrefs and
    input blocks, the scratch in cases B and C at what this leaves at `n - 1`. -/
def outsAt2 (c : Dev nD) : (n : ℕ) → n < cfg2.N → Vec F S1024x1024 .f32 × Vec F S128x1024 .f32 × Vec F S128x1024 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 8 = 0 then
      if h1 : (n + 1) % 8 = 7 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 8 = 7 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2)

/-- `outsAt2` at a point of case A: that case's contents. -/
theorem outsAt2_A (c : Dev nD) (t : Fin cfg2.N) (h0 : t.val % 8 = 0) (h1 : ¬t.val % 8 = 7) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at a point of case B: that case's contents, over what the point before left in the scratch. -/
theorem outsAt2_B (c : Dev nD) (t : Fin cfg2.N) (h0 : ¬t.val % 8 = 0) (h1 : ¬t.val % 8 = 7) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left in the scratch. -/
theorem outsAt2_C (c : Dev nD) (t : Fin cfg2.N) (h0 : ¬t.val % 8 = 0) (h1 : t.val % 8 = 7) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch carried between points -/

/-- The other two regions' staging buffers, each at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The scoped rest splits into the other regions' staging buffers and the statement about the scratch, -/
theorem restWith_split (c : Dev nD) (X : sProp 𝕄) : restWith (F := F) c X ⊢ iprop(others2 (F := F) c ∗ X) := by
  unfold restWith others2
  iintro ⟨R0, R1, R2, R3, R4, R5, R6, R7, R8, R9, R10, HX⟩
  isplitr [HX]
  swap; · iexact HX
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

/-- and is put together from them. -/
theorem restWith_join (c : Dev nD) (X : sProp 𝕄) : iprop(others2 (F := F) c ∗ X) ⊢ restWith (F := F) c X := by
  unfold restWith others2
  iintro ⟨⟨R0, R1, R2, R3, R4, R5, R6, R7, R8, R9, R10⟩, HX⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HX

/-- The region invariant before position `n`: before the first point the entry invariant (the scratch at anything);
    afterwards the scoped rest with the scratch at what the point before left in it (`outsAt2`'s third component), and the
    generator register at some state. -/
def PhiS (c : Dev nD) : (n : ℕ) → n ≤ cfg2.N → sProp 𝕄
  | 0, _ => Pipeline.ΦA spec2 c
  | n + 1, hn => iprop(restWith (F := F) c (owns (c : Thread nD τ) scM2_0 fullShare ((outsAt2 V c n hn).2.2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(restWith (F := F) c (owns (c : Thread nD τ) scM2_0 fullShare ((outsAt2 V c n hn).2.2)) ∗ (∃ r, prngReg c r)) := rfl

theorem PhiS_pos (c : Dev nD) (n : ℕ) (h : n ≤ cfg2.N) (hz : n ≠ 0) :
    PhiS V c n h = iprop(restWith (F := F) c (owns (c : Thread nD τ) scM2_0 fullShare ((outsAt2 V c (n - 1) (by omega)).2.2)) ∗ (∃ r, prngReg c r)) := by
  cases n with
  | zero => exact absurd rfl hz
  | succ n => rfl

/-! ## The pipeline's proof data -/

/-- The proof data of region 2 on core `c`: the arrays as the region finds them (`V`); after the body at point `t`
    each input's buffer at its block and the outputs' at `outsAt2`'s components; the invariant `PhiS`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS_castSucc (c : Dev nD) (t : Fin cfg2.N) :
    (dat2 V c).Φ t.castSucc = PhiS V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which case the point is in; the
    invariant hands the body the scratch at what the point before left (at anything at the first point) and takes it back
    at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  have hN : t.val < 64 := lt_of_lt_of_eq t.isLt (show cfg2.N = 64 from N_2)
  by_cases h0 : t.val % 8 = 0
  · by_cases h1 : t.val % 8 = 7
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold out2_A_4 sout2_A_0; (try dsimp only)
      by_cases hz : t.val = 0
      ·
        rw [PhiS_castSucc V c t, PhiS_zero V c _ _ hz, PhiA2_eq]
        iintro ⟨⟨HR, Hg⟩, Ho, ⟨%d0, H0⟩, ⟨%d1, H1⟩, ⟨%d2, H2⟩, ⟨%d3, H3⟩, ⟨%d4, H4⟩, ⟨%d5, H5⟩⟩
        ihave HR' := (restWith_split (F := F) c _) $$ HR
        icases HR' with ⟨HRo, HS0⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HRo HS0 Hg]
        · isplitl [HRo HS0]
          · iapply (restWith_join (F := F) c _)
            isplitl [HRo]; · iexact HRo
            unfold owns; iexists _; isplitr
            swap; · iexact HS0
            ipureintro; exact View.read_writes_of_cover _ _ _ _ _ (scover2_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_A_4 c _ _ _ _ _ _ _ _ _ _ _ _ _ _ _ _ _ _ _ _ _)
        iexists _; iexact H5
      ·
        rw [PhiS_castSucc V c t, PhiS_pos V c _ _ hz]
        iintro ⟨⟨HR, Hg⟩, Ho, ⟨%d0, H0⟩, ⟨%d1, H1⟩, ⟨%d2, H2⟩, ⟨%d3, H3⟩, ⟨%d4, H4⟩, ⟨%d5, H5⟩⟩
        ihave HR' := (restWith_split (F := F) c _) $$ HR
        icases HR' with ⟨HRo, HS0⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        iintro ⟨H0, H1, H2, H3, ⟨%e4, H4⟩, H5, ⟨%es0, HS0⟩⟩
        isplitl [HRo HS0 Hg]
        · isplitl [HRo HS0]
          · iapply (restWith_join (F := F) c _)
            isplitl [HRo]; · iexact HRo
            unfold owns; iexists _; isplitr
            swap; · iexact HS0
            ipureintro; exact View.read_writes_of_cover _ _ _ _ _ (scover2_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_A_4 c _ _ _ _ _ _ _ _ _ _ _ _ _ _ _ _ _ _ _ _ _)
        iexists _; iexact H5
  · by_cases h1 : t.val % 8 = 7
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_4 out2_C_5 sout2_C_0; (try dsimp only)
      by_cases hz : t.val = 0
      · exfalso; omega
      ·
        rw [PhiS_castSucc V c t, PhiS_pos V c _ _ hz]
        iintro ⟨⟨HR, Hg⟩, Ho, ⟨%d0, H0⟩, ⟨%d1, H1⟩, ⟨%d2, H2⟩, ⟨%d3, H3⟩, ⟨%d4, H4⟩, ⟨%d5, H5⟩⟩
        ihave HR' := (restWith_split (F := F) c _) $$ HR
        icases HR' with ⟨HRo, HS0⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HRo HS0 Hg]
        · isplitl [HRo HS0]
          · iapply (restWith_join (F := F) c _)
            isplitl [HRo]; · iexact HRo
            unfold owns; iexists _; isplitr
            swap; · iexact HS0
            ipureintro; exact View.read_writes_of_cover _ _ _ _ _ (scover2_C_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_C_4 c _ _ _ _ _ _ _ _ _ _ _ _ _ _ _ _ _ _ _ _ _ _)
        unfold owns; iexists _; isplitr
        swap; · iexact H5
        ipureintro; exact View.read_writes_of_cover _ _ _ _ _ (cover2_C_5 c _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold out2_B_4 sout2_B_0; (try dsimp only)
      by_cases hz : t.val = 0
      · exfalso; omega
      ·
        rw [PhiS_castSucc V c t, PhiS_pos V c _ _ hz]
        iintro ⟨⟨HR, Hg⟩, Ho, ⟨%d0, H0⟩, ⟨%d1, H1⟩, ⟨%d2, H2⟩, ⟨%d3, H3⟩, ⟨%d4, H4⟩, ⟨%d5, H5⟩⟩
        ihave HR' := (restWith_split (F := F) c _) $$ HR
        icases HR' with ⟨HRo, HS0⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HRo HS0 Hg]
        · isplitl [HRo HS0]
          · iapply (restWith_join (F := F) c _)
            isplitl [HRo]; · iexact HRo
            unfold owns; iexists _; isplitr
            swap; · iexact HS0
            ipureintro; exact View.read_writes_of_cover _ _ _ _ _ (scover2_B_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_B_4 c _ _ _ _ _ _ _ _ _ _ _ _ _ _ _ _ _ _ _ _ _ _)
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the entry invariant back: the scratch's contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨HR, Hg⟩
  ihave HR' := (restWith_split (F := F) c _) $$ HR
  icases HR' with ⟨HRo, HS0⟩
  isplitl [HRo HS0]
  · iapply (restWith_join (F := F) c _)
    isplitl [HRo]; · iexact HRo
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.K_Run.lean ====
import proofs.«143146_j43112881717764_2_alg».proof.Proof.K_R0
import proofs.«143146_j43112881717764_2_alg».proof.Proof.K_R1
import proofs.«143146_j43112881717764_2_alg».proof.Proof.K_R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: a region, a stretch of five host operations, two more regions

The buffer contents at each boundary are a fold from the launch memory: a region leaves each of its arrays at what
its write-backs fold to and every other buffer as it found it; the host stretch applies its operations. -/

variable (m : (ℓ : Loc nD τ sig) → Buf (Elt F) ℓ) (ρ : Dev nD → PrngReg)

/-- Core `c`'s buffers at launch (the first region's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After the first region: its arrays at what the pipeline leaves, the rest as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the third region (what the launch reads at the end). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W2` (after the host stretch), left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region: entered from `W3`, left at `W4`; its invariant carries the accumulator between points and is
    the plain one (every scoped buffer at anything, the generator register) before the first point and after the last. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1
        ∗ Pipeline.scopedRest (Pipeline.pin (pcfgs (F := F)) adm 2).spec c) ⊢ (Pipeline.ΦA spec2 c : sProp 𝕄) := by
      unfold Pipeline.ΦA
      iintro ⟨Hp, -, Hr⟩
      isplitl [Hr]; · iexact Hr
      iexact Hp
    exact h.trans (hin2 (V3 m ρ) c)
  hout c := by
    rw [Pipeline.ownSems0_none]
    have h : (Pipeline.ΦA spec2 c : sProp 𝕄) ⊢ iprop((∃ r, prngReg c r) ∗ BI.emp
        ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (V3 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates without a fault, and
    in every final state each unscoped buffer of each core holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## Reading the last boundary's contents back through the fold -/

/-- The features' array is never written: the third region does not name it, the second reads it through an input
    window, the host stretch and the first region do not touch it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := (W3_arr m ρ c 1).trans (((dat1 (V2 m ρ) c).arrAt_in 1 rfl _).trans (A_eq1 (V2 m ρ) c 1))
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

/-- The adjacency is read by the first and the third region through input windows and never written. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- The weight is read by the second region through an input window and never written. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (W3_arr m ρ c 0).trans (((dat1 (V2 m ρ) c).arrAt_in 0 rfl _).trans (A_eq1 (V2 m ρ) c 0))
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- THE FRAME, at any float instance: @main runs to the end without a fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-! ## What each region is handed, and what the results are -/

/-- The two results are the third region's output arrays as its write-backs leave them. -/
theorem W4_main_v6_0 (c : Dev nD) : W4 m ρ c (Proc.devRef .tc main_v6_0) = (dat2 (V3 m ρ) c).arrAt 4 cfg2.N := W4_arr m ρ c 4
theorem W4_main_v6_1 (c : Dev nD) : W4 m ρ c (Proc.devRef .tc main_v6_1) = (dat2 (V3 m ρ) c).arrAt 5 cfg2.N := W4_arr m ρ c 5

/-- The third region finds the adjacency as launched, -/
theorem V3_main_arg1 (c : Dev nD) : V3 m ρ c main_arg1 = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
/-- the scaled features as the second region's write-backs leave them, -/
theorem V3_main_v5 (c : Dev nD) : V3 m ρ c main_v5 = (dat1 (V2 m ρ) c).arrAt 3 cfg1.N := W3_arr m ρ c 3
/-- and the column and the row of inverse square roots as the host stretch left them. -/
theorem V3_main_v3 (c : Dev nD) : V3 m ρ c main_v3 = V2 m ρ c main_v3 := W3_of_ne m ρ c main_v3 (by decide)
theorem V3_main_v4 (c : Dev nD) : V3 m ρ c main_v4 = V2 m ρ c main_v4 :=
  (W3_arr m ρ c 2).trans (((dat1 (V2 m ρ) c).arrAt_in 2 rfl _).trans (A_eq1 (V2 m ρ) c 2))
/-- The second region finds the weight and the features as launched. -/
theorem V2_main_arg2 (c : Dev nD) : V2 m ρ c main_arg2 = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
theorem V2_main_arg0 (c : Dev nD) : V2 m ρ c main_arg0 = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl
/-- The row sums are the first region's output array as its write-backs leave it. -/
theorem V1_main_v0 (c : Dev nD) : V1 m ρ c main_v0 = (dat0 (V0 m ρ) c).arrAt 1 cfg0.N := W1_arr m ρ c 1

/-- The host stretch: the column is the inverse square root of "row sums plus the constant", the row its transpose. -/
theorem V2_main_v3 (c : Dev nD) : (V2 m ρ c main_v3 : FVec F S8192x1 .f32)
    = Host.rsqrt (addf (V1 m ρ c main_v0 : FVec F S8192x1 .f32) (broadcastInDim S8192x1 ![] bcast_S_S8192x1 (constant (F := F) S_ .f32 0x3F800000#32))) := by
  show StableHlo.after hostOps1 (W1 m ρ c) (Proc.devRef .tc main_v3) = _
  after_results
theorem V2_main_v4 (c : Dev nD) : (V2 m ρ c main_v4 : FVec F S1x8192 .f32)
    = transpose S1x8192 [1, 0] (V2 m ρ c main_v3 : FVec F S8192x1 .f32) transposes_S8192x1_S1x8192_1_0 := by
  show StableHlo.after hostOps1 (W1 m ρ c) (Proc.devRef .tc main_v4) = transpose S1x8192 [1, 0] (StableHlo.after hostOps1 (W1 m ρ c) (Proc.devRef .tc main_v3)) _
  after_results

end Cert.Kernel.Hand

end
-- ==== Proof.KI_R0.lean ====
import proofs.«143146_j43112881717764_2_alg».proof.Proof.Gen.KernelIdeal.Launch
import proofs.«143146_j43112881717764_2_alg».proof.Proof.Gen.KernelIdeal.Skeleton
import proofs.«143146_j43112881717764_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the row sums of the adjacency block, at the entry contents `V`

One grid axis of 16 points. Window 0 is the 512×8192 block of rows of the adjacency matrix at the point; window 1 is
the 512×1 block of the column of row sums. The body reads the whole input block and stores, over the whole output
block, each row's sum. -/

section Region0
-- the buffer contents when the region is entered: a parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512×8192 input block, as the rectangle the body loads through. -/
abbrev rl0_0 : Rect S512x8192 := Rect.unit (s := S512x8192) ![0, 0] S512x8192.size inb_S512x8192_S512x8192_0_0
/-- The whole 512×1 output block, as the rectangle the body stores through. -/
abbrev rs0_1 : Rect S512x1 := Rect.unit (s := S512x1) ![0, 0] S512x1.size inb_S512x1_S512x1_0_0

/-- The output block after the body, from the input block: the one store of the row sums over the whole block. -/
def out0_1 (x0 : Vec F S512x8192 .f32) : Vec F S512x1 .f32 :=
  View.canon [⟨rs0_1, k0_pay1 (View.ld x0 rl0_0)⟩]

/-- The one store is the whole block, so it covers it. -/
theorem cover0_1 (p0 : Vec F S512x1 .f32) (y : S512x1.Idx) :
    ∃ pc ∈ ([⟨rs0_1, p0⟩] : List (View.Piece (Elt F) S512x1 .f32)), y ∈ pc.1.set :=
  View.cover_of_tiled [⟨rs0_1, p0⟩] S512x1.size (by rfl) y

set_option maxHeartbeats 1000000 in
/-- The body on whole staging buffers, the input's reading `x0` and the output's anything, runs to the continuation
    holding the input's as it was and the output's at `out0_1 x0`. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__deg_kernel i arg1 harg1 arg2 harg2) K := by
  simp only [cc0__deg_kernel_eq_skeleton]; unfold cc0__deg_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of region 0 on core `c`: the arrays as the region finds them; after the body at point `t` the
    input's buffer at its block and the output's at `out0_1` of the input block; the invariant untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so `sound_kernel0` applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI_R1.lean ====
import proofs.«143146_j43112881717764_2_alg».proof.Proof.Gen.KernelIdeal.Launch
import proofs.«143146_j43112881717764_2_alg».proof.Proof.Gen.KernelIdeal.Skeleton
import proofs.«143146_j43112881717764_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the projected features, scaled per column, at the entry contents `V`

One grid axis of 8 points. Window 0 is the whole 512×128 weight (its block index never moves); window 1 is the
512×1024 block of columns of the features at the point; window 2 is the 1×1024 block of the row of scale factors;
window 3 is the 128×1024 block of the output. The body reads the three input blocks whole and stores, over the whole
output block, the contraction of the weight with the feature block over the 512 axis, times the scale factor of the
column. -/

section Region1
-- the buffer contents when the region is entered: a parameter
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not (its block index never
    moves), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 512×128 weight block, the whole 512×1024 feature block and the whole 1×1024 scale block, as the
    rectangles the body loads through, -/
abbrev rl1_0 : Rect S512x128 := Rect.unit (s := S512x128) ![0, 0] S512x128.size inb_S512x128_S512x128_0_0
abbrev rl1_1 : Rect S512x1024 := Rect.unit (s := S512x1024) ![0, 0] S512x1024.size inb_S512x1024_S512x1024_0_0
abbrev rl1_2 : Rect S1x1024 := Rect.unit (s := S1x1024) ![0, 0] S1x1024.size inb_S1x1024_S1x1024_0_0
/-- and the whole 128×1024 output block, as the rectangle it stores through. -/
abbrev rs1_3 : Rect S128x1024 := Rect.unit (s := S128x1024) ![0, 0] S128x1024.size inb_S128x1024_S128x1024_0_0

/-- The output block after the body, from the input blocks: the one store of the scaled contraction over the whole block. -/
def out1_3 (x0 : Vec F S512x128 .f32) (x1 : Vec F S512x1024 .f32) (x2 : Vec F S1x1024 .f32) : Vec F S128x1024 .f32 :=
  View.canon [⟨rs1_3, k1_pay1 (View.ld x0 rl1_0) (View.ld x1 rl1_1) (View.ld x2 rl1_2)⟩]

/-- The one store is the whole block, so it covers it. -/
theorem cover1_3 (p0 : Vec F S128x1024 .f32) (y : S128x1024.Idx) :
    ∃ pc ∈ ([⟨rs1_3, p0⟩] : List (View.Piece (Elt F) S128x1024 .f32)), y ∈ pc.1.set :=
  View.cover_of_tiled [⟨rs1_3, p0⟩] S128x1024.size (by rfl) y

set_option maxHeartbeats 1000000 in
/-- The body on whole staging buffers, the inputs' reading `x0`, `x1`, `x2` and the output's anything, runs to the
    continuation holding the inputs' as they were and the output's at `out1_3 x0 x1 x2`. -/
theorem sound_kernel1 (c : Dev nD) (E : Set ℕ) (i : grid1.Coords) (arg1 : Memref sig .tc .vmem S512x128 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S128x1024 .f32) (harg4 : arg4.IsWhole)
    (x0 : Vec F S512x128 .f32) (x1 : Vec F S512x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gemm1_kernel i arg1 harg1 arg2 harg2 arg3 harg3 arg4 harg4) K := by
  simp only [cc1__gemm1_kernel_eq_skeleton]; unfold cc1__gemm1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of region 1 on core `c`: the arrays as the region finds them; after the body at point `t` each
    input's buffer at its block and the output's at `out1_3` of the input blocks; the invariant untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and what
    is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI_R2Runs.lean ====
import proofs.«143146_j43112881717764_2_alg».proof.Proof.Gen.KernelIdeal.Launch
import proofs.«143146_j43112881717764_2_alg».proof.Proof.Gen.KernelIdeal.Skeleton
import proofs.«143146_j43112881717764_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 2 (the main kernel, grid 8 × 8), at the entry contents `V`: what its three control cases share

The point `t` has coordinates `(j, i) = (t / 8, t % 8)`. The body zeroes the carried accumulator when `i = 0`,
adds `x_blk · (adj_blk + I_blk)` to it at every point, and when `i = 7` stores `max (acc * drow, 0)` into the
second output's block; the first output's block is stored at every point. -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- The first condition (`i = 0`: the accumulator is zeroed), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The second condition (`i = 7`: the second output's block is stored), from the grid coordinates. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where `i ≠ 7` the second output (window 5) is idle and its block is not written back. -/
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- Where `i = 7` it is live. -/
theorem liveAt2_5_C : ∀ t : Fin cfg2.N, ¬cond2_0 (grid2.coords t) → cond2_1 (grid2.coords t) → cfg2.idle 5 (grid2.coords t) = false := by decide +kernel

/-! ## The staging and scratch memrefs -/

/-- One staging buffer of each output window, through which its contents are stated (the choice does not matter). -/
abbrev VO2_4 : View sig .tc .vmem S1024x1024 .f32 := (Memref.whole cc2_stg4_0 : Memref sig .tc .vmem S1024x1024 .f32).view
abbrev VO2_5 : View sig .tc .vmem S128x1024 .f32 := (Memref.whole cc2_stg5_0 : Memref sig .tc .vmem S128x1024 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x1024 .f32 := win2_5.stage (cfg2.slots t 5)
abbrev hs2_5 (t : Fin cfg2.N) : (ms2_5 t).IsWhole := hstage2_5 ((cfg2.slots t 5).cast nbuf2_5)
/-- The scratch operand: a whole scoped buffer of the kernel's own, passed beside the windows. -/
abbrev scM2_0 : Memref sig .tc .vmem S128x1024 .f32 := Memref.whole cc2_scratch0
/-- The accumulator the kernel carries between points, as a view: what it holds is stated through it. -/
abbrev VS2_0 : View sig .tc .vmem S128x1024 .f32 := scM2_0.view

/-- The core's scoped buffers that are no staging buffer of this region — the other two regions' staging buffers, each
    at some contents — beside a statement `X` about the scratch. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ X)

/-- The region's entry invariant with the scratch operand as a memref owned at some contents. -/
theorem PhiA2_eq (c : Dev nD) :
    (Pipeline.ΦA spec2 c : sProp 𝕄)
      = iprop(restWith (F := F) c (iprop(∃ d, owns (c : Thread nD τ) scM2_0 fullShare d)) ∗ (∃ r, prngReg c r)) := by
  unfold Pipeline.ΦA restWith; rw [scopedRest2_eq]; simp only [scM2_0, owns_whole]; try rfl

end Cert.KernelIdeal.Hand

end
-- ==== Proof.KI_R2A.lean ====
import proofs.«143146_j43112881717764_2_alg».proof.Proof.KI_R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
-- (the run's proof term is large)
set_option maxHeartbeats 4000000 in
/-- CASE A (`i = 0`, not `i = 7`): what the body's stores leave, as pieces (last first), in output 4's staging
    memref and in the scratch, with the proof that on whole memrefs — the inputs' at their contents, output 4's at
    anything, output 5's (no store: the window is idle here) at contents handed back untouched, the scratch at
    anything — the body runs to the continuation holding the inputs' as they were and each stored buffer with its
    pieces written. The accumulator is zeroed, then `x_blk · (adj_blk + I_blk)` is added. -/
noncomputable def kernelRun2_A (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) :
    Σ' (L4 : List (View.Piece (Elt F) S1024x1024 .f32)) (L5 : List (View.Piece (Elt F) S128x1024 .f32)), { LS0 : List (View.Piece (Elt F) S128x1024 .f32) //
      ∀ (xi5 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8) K } := by
  refine ⟨?_, [], ?_, fun xi5 E K => ?run⟩
  case run =>
    simp only [cc2__main_kernel_eq_skeleton]; unfold cc2__main_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Hand

end
-- ==== Proof.KI_R2B.lean ====
import proofs.«143146_j43112881717764_2_alg».proof.Proof.KI_R2A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
-- (the run's proof term is large)
set_option maxHeartbeats 4000000 in
/-- CASE B (neither `i = 0` nor `i = 7`): as case A, but the scratch is handed over at the contents `xs0` the point
    before left; `x_blk · (adj_blk + I_blk)` is added to it. -/
noncomputable def kernelRun2_B (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) :
    Σ' (L4 : List (View.Piece (Elt F) S1024x1024 .f32)) (L5 : List (View.Piece (Elt F) S128x1024 .f32)), { LS0 : List (View.Piece (Elt F) S128x1024 .f32) //
      ∀ (xi5 : Vec F S128x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8) K } := by
  refine ⟨?_, [], ?_, fun xi5 E K => ?run⟩
  case run =>
    simp only [cc2__main_kernel_eq_skeleton]; unfold cc2__main_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Hand

end
-- ==== Proof.KI_R2C.lean ====
import proofs.«143146_j43112881717764_2_alg».proof.Proof.KI_R2B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
-- (the run's proof term is large)
set_option maxHeartbeats 4000000 in
/-- CASE C (`i = 7`, not `i = 0`): the scratch is handed over at `xs0`; `x_blk · (adj_blk + I_blk)` is added to it,
    and output 5's block (handed over at anything) is stored: `max (acc * drow, 0)`. -/
noncomputable def kernelRun2_C (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) :
    Σ' (L4 : List (View.Piece (Elt F) S1024x1024 .f32)) (L5 : List (View.Piece (Elt F) S128x1024 .f32)), { LS0 : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__main_kernel i arg2 harg2 arg3 harg3 arg4 harg4 arg5 harg5 arg6 harg6 arg7 harg7 arg8 harg8) K } := by
  refine ⟨?_, ?_, ?_, fun E K => ?run⟩
  case run =>
    simp only [cc2__main_kernel_eq_skeleton]; unfold cc2__main_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Hand

end
-- ==== Proof.KI_R2.lean ====
import proofs.«143146_j43112881717764_2_alg».proof.Proof.KI_R2C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 2 at the entry contents `V`: what each case leaves, the accumulation over the points, the proof data and
the body obligation -/

/-- Case A's one store into output 4 covers its block. -/
theorem cover2_A_4 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) (y : S1024x1024.Idx) :
    ∃ pc ∈ (kernelRun2_A c i arg2 harg2 arg3 harg3 arg4 harg4 arg5 harg5 arg6 harg6 arg7 harg7 arg8 harg8 hc0 hc1 x0 x1 x2 x3).1, y ∈ pc.1.set :=
  View.cover_of_tiledL (kernelRun2_A c i arg2 harg2 arg3 harg3 arg4 harg4 arg5 harg5 arg6 harg6 arg7 harg7 arg8 harg8 hc0 hc1 x0 x1 x2 x3).1 S1024x1024.size (by sl_kernel_rfl) y

/-- What case A leaves in output 4's staging buffer: its pieces read back over junk. -/
def out2_A_4 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) : Vec F S1024x1024 .f32 :=
  VO2_4.read (Elt F) (VO2_4.writes (Elt F) VO2_4.junk (kernelRun2_A c i arg2 harg2 arg3 harg3 arg4 harg4 arg5 harg5 arg6 harg6 arg7 harg7 arg8 harg8 hc0 hc1 x0 x1 x2 x3).1)

/-- Case A stores nothing into output 5 (the window is idle at its points and not written back there): a
    placeholder that nothing consults. -/
def out2_A_5 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) : Vec F S128x1024 .f32 :=
  VO2_5.read (Elt F) (VO2_5.writes (Elt F) VO2_5.junk (kernelRun2_A c i arg2 harg2 arg3 harg3 arg4 harg4 arg5 harg5 arg6 harg6 arg7 harg7 arg8 harg8 hc0 hc1 x0 x1 x2 x3).2.1)

/-- Case A's stores into the scratch cover it. -/
theorem scover2_A_0 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) (y : S128x1024.Idx) :
    ∃ pc ∈ (kernelRun2_A c i arg2 harg2 arg3 harg3 arg4 harg4 arg5 harg5 arg6 harg6 arg7 harg7 arg8 harg8 hc0 hc1 x0 x1 x2 x3).2.2.1, y ∈ pc.1.set :=
  View.cover_of_tiledL (kernelRun2_A c i arg2 harg2 arg3 harg3 arg4 harg4 arg5 harg5 arg6 harg6 arg7 harg7 arg8 harg8 hc0 hc1 x0 x1 x2 x3).2.2.1 S128x1024.size (by sl_kernel_rfl) y

/-- What case A leaves in the scratch: its pieces read back over junk. -/
def sout2_A_0 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) : Vec F S128x1024 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3).2.2.1)

/-- Case B's one store into output 4 covers its block. -/
theorem cover2_B_4 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) (y : S1024x1024.Idx) :
    ∃ pc ∈ (kernelRun2_B c i arg2 harg2 arg3 harg3 arg4 harg4 arg5 harg5 arg6 harg6 arg7 harg7 arg8 harg8 hc0 hc1 x0 x1 x2 x3 xs0).1, y ∈ pc.1.set :=
  View.cover_of_tiledL (kernelRun2_B c i arg2 harg2 arg3 harg3 arg4 harg4 arg5 harg5 arg6 harg6 arg7 harg7 arg8 harg8 hc0 hc1 x0 x1 x2 x3 xs0).1 S1024x1024.size (by sl_kernel_rfl) y

/-- What case B leaves in output 4's staging buffer: its pieces read back over junk. -/
def out2_B_4 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) : Vec F S1024x1024 .f32 :=
  VO2_4.read (Elt F) (VO2_4.writes (Elt F) VO2_4.junk (kernelRun2_B c i arg2 harg2 arg3 harg3 arg4 harg4 arg5 harg5 arg6 harg6 arg7 harg7 arg8 harg8 hc0 hc1 x0 x1 x2 x3 xs0).1)

/-- Case B stores nothing into output 5 (the window is idle at its points and not written back there): a
    placeholder that nothing consults. -/
def out2_B_5 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) : Vec F S128x1024 .f32 :=
  VO2_5.read (Elt F) (VO2_5.writes (Elt F) VO2_5.junk (kernelRun2_B c i arg2 harg2 arg3 harg3 arg4 harg4 arg5 harg5 arg6 harg6 arg7 harg7 arg8 harg8 hc0 hc1 x0 x1 x2 x3 xs0).2.1)

/-- Case B's stores into the scratch cover it. -/
theorem scover2_B_0 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) (y : S128x1024.Idx) :
    ∃ pc ∈ (kernelRun2_B c i arg2 harg2 arg3 harg3 arg4 harg4 arg5 harg5 arg6 harg6 arg7 harg7 arg8 harg8 hc0 hc1 x0 x1 x2 x3 xs0).2.2.1, y ∈ pc.1.set :=
  View.cover_of_tiledL (kernelRun2_B c i arg2 harg2 arg3 harg3 arg4 harg4 arg5 harg5 arg6 harg6 arg7 harg7 arg8 harg8 hc0 hc1 x0 x1 x2 x3 xs0).2.2.1 S128x1024.size (by sl_kernel_rfl) y

/-- What case B leaves in the scratch: its pieces read back over junk. -/
def sout2_B_0 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) : Vec F S128x1024 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 xs0).2.2.1)

/-- Case C's one store into output 4 covers its block. -/
theorem cover2_C_4 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) (y : S1024x1024.Idx) :
    ∃ pc ∈ (kernelRun2_C c i arg2 harg2 arg3 harg3 arg4 harg4 arg5 harg5 arg6 harg6 arg7 harg7 arg8 harg8 hc0 hc1 x0 x1 x2 x3 xs0).1, y ∈ pc.1.set :=
  View.cover_of_tiledL (kernelRun2_C c i arg2 harg2 arg3 harg3 arg4 harg4 arg5 harg5 arg6 harg6 arg7 harg7 arg8 harg8 hc0 hc1 x0 x1 x2 x3 xs0).1 S1024x1024.size (by sl_kernel_rfl) y

/-- What case C leaves in output 4's staging buffer: its pieces read back over junk. -/
def out2_C_4 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) : Vec F S1024x1024 .f32 :=
  VO2_4.read (Elt F) (VO2_4.writes (Elt F) VO2_4.junk (kernelRun2_C c i arg2 harg2 arg3 harg3 arg4 harg4 arg5 harg5 arg6 harg6 arg7 harg7 arg8 harg8 hc0 hc1 x0 x1 x2 x3 xs0).1)

/-- Case C's one store into output 5 covers its block. -/
theorem cover2_C_5 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) (y : S128x1024.Idx) :
    ∃ pc ∈ (kernelRun2_C c i arg2 harg2 arg3 harg3 arg4 harg4 arg5 harg5 arg6 harg6 arg7 harg7 arg8 harg8 hc0 hc1 x0 x1 x2 x3 xs0).2.1, y ∈ pc.1.set :=
  View.cover_of_tiledL (kernelRun2_C c i arg2 harg2 arg3 harg3 arg4 harg4 arg5 harg5 arg6 harg6 arg7 harg7 arg8 harg8 hc0 hc1 x0 x1 x2 x3 xs0).2.1 S128x1024.size (by sl_kernel_rfl) y

/-- What case C leaves in output 5's staging buffer: its pieces read back over junk. -/
def out2_C_5 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) : Vec F S128x1024 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 xs0).2.1)

/-- Case C's stores into the scratch cover it. -/
theorem scover2_C_0 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) (y : S128x1024.Idx) :
    ∃ pc ∈ (kernelRun2_C c i arg2 harg2 arg3 harg3 arg4 harg4 arg5 harg5 arg6 harg6 arg7 harg7 arg8 harg8 hc0 hc1 x0 x1 x2 x3 xs0).2.2.1, y ∈ pc.1.set :=
  View.cover_of_tiledL (kernelRun2_C c i arg2 harg2 arg3 harg3 arg4 harg4 arg5 harg5 arg6 harg6 arg7 harg7 arg8 harg8 hc0 hc1 x0 x1 x2 x3 xs0).2.2.1 S128x1024.size (by sl_kernel_rfl) y

/-- What case C leaves in the scratch: its pieces read back over junk. -/
def sout2_C_0 (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) : Vec F S128x1024 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 xs0).2.2.1)

/-! ## What the outputs and the scratch hold after each point -/

/-- THE ACCUMULATION. What output 4's staging buffer, output 5's staging buffer and the scratch hold after the body at
    position `n` (a triple, in that order): the case the closed forms select at `n`, run at the point's memrefs and
    input blocks, the scratch in cases B and C at what this leaves at `n - 1`. -/
def outsAt2 (c : Dev nD) : (n : ℕ) → n < cfg2.N → Vec F S1024x1024 .f32 × Vec F S128x1024 .f32 × Vec F S128x1024 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 8 = 0 then
      if h1 : (n + 1) % 8 = 7 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 8 = 7 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2)

/-- `outsAt2` at a point of case A: that case's contents. -/
theorem outsAt2_A (c : Dev nD) (t : Fin cfg2.N) (h0 : t.val % 8 = 0) (h1 : ¬t.val % 8 = 7) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at a point of case B: that case's contents, over what the point before left in the scratch. -/
theorem outsAt2_B (c : Dev nD) (t : Fin cfg2.N) (h0 : ¬t.val % 8 = 0) (h1 : ¬t.val % 8 = 7) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left in the scratch. -/
theorem outsAt2_C (c : Dev nD) (t : Fin cfg2.N) (h0 : ¬t.val % 8 = 0) (h1 : t.val % 8 = 7) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch carried between points -/

/-- The other two regions' staging buffers, each at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The scoped rest splits into the other regions' staging buffers and the statement about the scratch, -/
theorem restWith_split (c : Dev nD) (X : sProp 𝕄) : restWith (F := F) c X ⊢ iprop(others2 (F := F) c ∗ X) := by
  unfold restWith others2
  iintro ⟨R0, R1, R2, R3, R4, R5, R6, R7, R8, R9, R10, HX⟩
  isplitr [HX]
  swap; · iexact HX
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

/-- and is put together from them. -/
theorem restWith_join (c : Dev nD) (X : sProp 𝕄) : iprop(others2 (F := F) c ∗ X) ⊢ restWith (F := F) c X := by
  unfold restWith others2
  iintro ⟨⟨R0, R1, R2, R3, R4, R5, R6, R7, R8, R9, R10⟩, HX⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HX

/-- The region invariant before position `n`: before the first point the entry invariant (the scratch at anything);
    afterwards the scoped rest with the scratch at what the point before left in it (`outsAt2`'s third component), and the
    generator register at some state. -/
def PhiS (c : Dev nD) : (n : ℕ) → n ≤ cfg2.N → sProp 𝕄
  | 0, _ => Pipeline.ΦA spec2 c
  | n + 1, hn => iprop(restWith (F := F) c (owns (c : Thread nD τ) scM2_0 fullShare ((outsAt2 V c n hn).2.2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(restWith (F := F) c (owns (c : Thread nD τ) scM2_0 fullShare ((outsAt2 V c n hn).2.2)) ∗ (∃ r, prngReg c r)) := rfl

theorem PhiS_pos (c : Dev nD) (n : ℕ) (h : n ≤ cfg2.N) (hz : n ≠ 0) :
    PhiS V c n h = iprop(restWith (F := F) c (owns (c : Thread nD τ) scM2_0 fullShare ((outsAt2 V c (n - 1) (by omega)).2.2)) ∗ (∃ r, prngReg c r)) := by
  cases n with
  | zero => exact absurd rfl hz
  | succ n => rfl

/-! ## The pipeline's proof data -/

/-- The proof data of region 2 on core `c`: the arrays as the region finds them (`V`); after the body at point `t`
    each input's buffer at its block and the outputs' at `outsAt2`'s components; the invariant `PhiS`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS_castSucc (c : Dev nD) (t : Fin cfg2.N) :
    (dat2 V c).Φ t.castSucc = PhiS V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which case the point is in; the
    invariant hands the body the scratch at what the point before left (at anything at the first point) and takes it back
    at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  have hN : t.val < 64 := lt_of_lt_of_eq t.isLt (show cfg2.N = 64 from N_2)
  by_cases h0 : t.val % 8 = 0
  · by_cases h1 : t.val % 8 = 7
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold out2_A_4 sout2_A_0; (try dsimp only)
      by_cases hz : t.val = 0
      ·
        rw [PhiS_castSucc V c t, PhiS_zero V c _ _ hz, PhiA2_eq]
        iintro ⟨⟨HR, Hg⟩, Ho, ⟨%d0, H0⟩, ⟨%d1, H1⟩, ⟨%d2, H2⟩, ⟨%d3, H3⟩, ⟨%d4, H4⟩, ⟨%d5, H5⟩⟩
        ihave HR' := (restWith_split (F := F) c _) $$ HR
        icases HR' with ⟨HRo, HS0⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HRo HS0 Hg]
        · isplitl [HRo HS0]
          · iapply (restWith_join (F := F) c _)
            isplitl [HRo]; · iexact HRo
            unfold owns; iexists _; isplitr
            swap; · iexact HS0
            ipureintro; exact View.read_writes_of_cover _ _ _ _ _ (scover2_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_A_4 c _ _ _ _ _ _ _ _ _ _ _ _ _ _ _ _ _ _ _ _ _)
        iexists _; iexact H5
      ·
        rw [PhiS_castSucc V c t, PhiS_pos V c _ _ hz]
        iintro ⟨⟨HR, Hg⟩, Ho, ⟨%d0, H0⟩, ⟨%d1, H1⟩, ⟨%d2, H2⟩, ⟨%d3, H3⟩, ⟨%d4, H4⟩, ⟨%d5, H5⟩⟩
        ihave HR' := (restWith_split (F := F) c _) $$ HR
        icases HR' with ⟨HRo, HS0⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        iintro ⟨H0, H1, H2, H3, ⟨%e4, H4⟩, H5, ⟨%es0, HS0⟩⟩
        isplitl [HRo HS0 Hg]
        · isplitl [HRo HS0]
          · iapply (restWith_join (F := F) c _)
            isplitl [HRo]; · iexact HRo
            unfold owns; iexists _; isplitr
            swap; · iexact HS0
            ipureintro; exact View.read_writes_of_cover _ _ _ _ _ (scover2_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_A_4 c _ _ _ _ _ _ _ _ _ _ _ _ _ _ _ _ _ _ _ _ _)
        iexists _; iexact H5
  · by_cases h1 : t.val % 8 = 7
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_4 out2_C_5 sout2_C_0; (try dsimp only)
      by_cases hz : t.val = 0
      · exfalso; omega
      ·
        rw [PhiS_castSucc V c t, PhiS_pos V c _ _ hz]
        iintro ⟨⟨HR, Hg⟩, Ho, ⟨%d0, H0⟩, ⟨%d1, H1⟩, ⟨%d2, H2⟩, ⟨%d3, H3⟩, ⟨%d4, H4⟩, ⟨%d5, H5⟩⟩
        ihave HR' := (restWith_split (F := F) c _) $$ HR
        icases HR' with ⟨HRo, HS0⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HRo HS0 Hg]
        · isplitl [HRo HS0]
          · iapply (restWith_join (F := F) c _)
            isplitl [HRo]; · iexact HRo
            unfold owns; iexists _; isplitr
            swap; · iexact HS0
            ipureintro; exact View.read_writes_of_cover _ _ _ _ _ (scover2_C_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_C_4 c _ _ _ _ _ _ _ _ _ _ _ _ _ _ _ _ _ _ _ _ _ _)
        unfold owns; iexists _; isplitr
        swap; · iexact H5
        ipureintro; exact View.read_writes_of_cover _ _ _ _ _ (cover2_C_5 c _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold out2_B_4 sout2_B_0; (try dsimp only)
      by_cases hz : t.val = 0
      · exfalso; omega
      ·
        rw [PhiS_castSucc V c t, PhiS_pos V c _ _ hz]
        iintro ⟨⟨HR, Hg⟩, Ho, ⟨%d0, H0⟩, ⟨%d1, H1⟩, ⟨%d2, H2⟩, ⟨%d3, H3⟩, ⟨%d4, H4⟩, ⟨%d5, H5⟩⟩
        ihave HR' := (restWith_split (F := F) c _) $$ HR
        icases HR' with ⟨HRo, HS0⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HRo HS0 Hg]
        · isplitl [HRo HS0]
          · iapply (restWith_join (F := F) c _)
            isplitl [HRo]; · iexact HRo
            unfold owns; iexists _; isplitr
            swap; · iexact HS0
            ipureintro; exact View.read_writes_of_cover _ _ _ _ _ (scover2_B_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_B_4 c _ _ _ _ _ _ _ _ _ _ _ _ _ _ _ _ _ _ _ _ _ _)
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the entry invariant back: the scratch's contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨HR, Hg⟩
  ihave HR' := (restWith_split (F := F) c _) $$ HR
  icases HR' with ⟨HRo, HS0⟩
  isplitl [HRo HS0]
  · iapply (restWith_join (F := F) c _)
    isplitl [HRo]; · iexact HRo
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.KI_Run.lean ====
import proofs.«143146_j43112881717764_2_alg».proof.Proof.KI_R0
import proofs.«143146_j43112881717764_2_alg».proof.Proof.KI_R1
import proofs.«143146_j43112881717764_2_alg».proof.Proof.KI_R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: a region, a stretch of five host operations, two more regions

The buffer contents at each boundary are a fold from the launch memory: a region leaves each of its arrays at what
its write-backs fold to and every other buffer as it found it; the host stretch applies its operations. -/

variable (m : (ℓ : Loc nD τ sig) → Buf (Elt F) ℓ) (ρ : Dev nD → PrngReg)

/-- Core `c`'s buffers at launch (the first region's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After the first region: its arrays at what the pipeline leaves, the rest as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the third region (what the launch reads at the end). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W2` (after the host stretch), left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region: entered from `W3`, left at `W4`; its invariant carries the accumulator between points and is
    the plain one (every scoped buffer at anything, the generator register) before the first point and after the last. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1
        ∗ Pipeline.scopedRest (Pipeline.pin (pcfgs (F := F)) adm 2).spec c) ⊢ (Pipeline.ΦA spec2 c : sProp 𝕄) := by
      unfold Pipeline.ΦA
      iintro ⟨Hp, -, Hr⟩
      isplitl [Hr]; · iexact Hr
      iexact Hp
    exact h.trans (hin2 (V3 m ρ) c)
  hout c := by
    rw [Pipeline.ownSems0_none]
    have h : (Pipeline.ΦA spec2 c : sProp 𝕄) ⊢ iprop((∃ r, prngReg c r) ∗ BI.emp
        ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (V3 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates without a fault, and
    in every final state each unscoped buffer of each core holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## Reading the last boundary's contents back through the fold -/

/-- The features' array is never written: the third region does not name it, the second reads it through an input
    window, the host stretch and the first region do not touch it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := (W3_arr m ρ c 1).trans (((dat1 (V2 m ρ) c).arrAt_in 1 rfl _).trans (A_eq1 (V2 m ρ) c 1))
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

/-- The adjacency is read by the first and the third region through input windows and never written. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- The weight is read by the second region through an input window and never written. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (W3_arr m ρ c 0).trans (((dat1 (V2 m ρ) c).arrAt_in 0 rfl _).trans (A_eq1 (V2 m ρ) c 0))
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- THE FRAME, at any float instance: @main runs to the end without a fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-! ## What each region is handed, and what the results are -/

/-- The two results are the third region's output arrays as its write-backs leave them. -/
theorem W4_main_v6_0 (c : Dev nD) : W4 m ρ c (Proc.devRef .tc main_v6_0) = (dat2 (V3 m ρ) c).arrAt 4 cfg2.N := W4_arr m ρ c 4
theorem W4_main_v6_1 (c : Dev nD) : W4 m ρ c (Proc.devRef .tc main_v6_1) = (dat2 (V3 m ρ) c).arrAt 5 cfg2.N := W4_arr m ρ c 5

/-- The third region finds the adjacency as launched, -/
theorem V3_main_arg1 (c : Dev nD) : V3 m ρ c main_arg1 = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
/-- the scaled features as the second region's write-backs leave them, -/
theorem V3_main_v5 (c : Dev nD) : V3 m ρ c main_v5 = (dat1 (V2 m ρ) c).arrAt 3 cfg1.N := W3_arr m ρ c 3
/-- and the column and the row of inverse square roots as the host stretch left them. -/
theorem V3_main_v3 (c : Dev nD) : V3 m ρ c main_v3 = V2 m ρ c main_v3 := W3_of_ne m ρ c main_v3 (by decide)
theorem V3_main_v4 (c : Dev nD) : V3 m ρ c main_v4 = V2 m ρ c main_v4 :=
  (W3_arr m ρ c 2).trans (((dat1 (V2 m ρ) c).arrAt_in 2 rfl _).trans (A_eq1 (V2 m ρ) c 2))
/-- The second region finds the weight and the features as launched. -/
theorem V2_main_arg2 (c : Dev nD) : V2 m ρ c main_arg2 = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
theorem V2_main_arg0 (c : Dev nD) : V2 m ρ c main_arg0 = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl
/-- The row sums are the first region's output array as its write-backs leave it. -/
theorem V1_main_v0 (c : Dev nD) : V1 m ρ c main_v0 = (dat0 (V0 m ρ) c).arrAt 1 cfg0.N := W1_arr m ρ c 1

/-- The host stretch: the column is the inverse square root of "row sums plus the constant", the row its transpose. -/
theorem V2_main_v3 (c : Dev nD) : (V2 m ρ c main_v3 : FVec F S8192x1 .f32)
    = Host.rsqrt (addf (V1 m ρ c main_v0 : FVec F S8192x1 .f32) (broadcastInDim S8192x1 ![] bcast_S_S8192x1 (constant (F := F) S_ .f32 0x3F800000#32))) := by
  show StableHlo.after hostOps1 (W1 m ρ c) (Proc.devRef .tc main_v3) = _
  after_results
theorem V2_main_v4 (c : Dev nD) : (V2 m ρ c main_v4 : FVec F S1x8192 .f32)
    = transpose S1x8192 [1, 0] (V2 m ρ c main_v3 : FVec F S8192x1 .f32) transposes_S8192x1_S1x8192_1_0 := by
  show StableHlo.after hostOps1 (W1 m ρ c) (Proc.devRef .tc main_v4) = transpose S1x8192 [1, 0] (StableHlo.after hostOps1 (W1 m ρ c) (Proc.devRef .tc main_v3)) _
  after_results

end Cert.KernelIdeal.Hand

end
-- ==== Proof.Spec.lean ====
/-
  The mathematics of the graph-convolution layer, as plain functions of the three argument arrays over the
  extended reals: the adjacency with self loops, its row degrees, the inverse square roots of the degrees, the
  symmetrically normalised adjacency, the projected features, and the rectified propagated features — once in the
  arrangement the reference computes and once in the arrangement the kernel computes (the degree as "row sum plus
  one", the row scale folded into the features before the product and the column scale applied after it).
  No program is mentioned here.
-/
import Idealize.ShloMosaic.PureOps.Ideal
import Idealize.ShloMosaic.Lib.ValueIdx

noncomputable section

namespace Cert.Spec

open Idealize.ShloMosaic Idealize.ShloMosaic.ValueIdx

/-- The adjacency's shape, the features', the weight's and the result's. -/
abbrev SAdj : Shape := ⟨2, ![8192, 8192]⟩
abbrev SInp : Shape := ⟨2, ![512, 8192]⟩
abbrev SW : Shape := ⟨2, ![512, 128]⟩
abbrev SOut : Shape := ⟨2, ![128, 8192]⟩

/-- The identity matrix. -/
def eye (i j : Fin 8192) : EReal := if i = j then 1 else 0

/-- The adjacency with self loops: `adj + I`. -/
def aP (adj : FVec Ideal SAdj .f32) (i j : Fin 8192) : EReal := adj (ix2 i j) + eye i j

/-- Row `i`'s degree as the reference sums it: the row sum of `adj + I`. -/
def degR (adj : FVec Ideal SAdj .f32) (i : Fin 8192) : EReal := ∑ j : Fin 8192, aP adj i j

/-- Row `i`'s degree as the kernel sums it: the row sum of `adj`, plus one. -/
def degK (adj : FVec Ideal SAdj .f32) (i : Fin 8192) : EReal := (∑ j : Fin 8192, adj (ix2 i j)) + 1

/-- The inverse square root of the degree, in each arrangement. -/
def dR (adj : FVec Ideal SAdj .f32) (i : Fin 8192) : EReal := Ideal.rsqrt (degR adj i)
def dK (adj : FVec Ideal SAdj .f32) (i : Fin 8192) : EReal := Ideal.rsqrt (degK adj i)

/-- The normalised adjacency `(adj + I)[i, j] · d[i] · d[j]`, in each arrangement of the degree. -/
def adjR (adj : FVec Ideal SAdj .f32) (i j : Fin 8192) : EReal := aP adj i j * dR adj i * dR adj j
def adjK (adj : FVec Ideal SAdj .f32) (i j : Fin 8192) : EReal := aP adj i j * dK adj i * dK adj j

/-- The projected features `(Wᵀ · inputs)[o, n]`. -/
def xw (w : FVec Ideal SW .f32) (inp : FVec Ideal SInp .f32) (o : Fin 128) (n : Fin 8192) : EReal :=
  ∑ k : Fin 512, w (ix2 k o) * inp (ix2 k n)

/-- The reference's result: `relu (∑ i, x[o, i] · adjnorm[i, j])`. -/
def outR (inp : FVec Ideal SInp .f32) (adj : FVec Ideal SAdj .f32) (w : FVec Ideal SW .f32) (o : Fin 128) (j : Fin 8192) : EReal :=
  max (∑ i : Fin 8192, xw w inp o i * adjR adj i j) 0

/-- The kernel's result: the features scaled by `d[i]` first, multiplied into `adj + I`, the sum scaled by
    `d[j]` afterwards, rectified. -/
def outK (inp : FVec Ideal SInp .f32) (adj : FVec Ideal SAdj .f32) (w : FVec Ideal SW .f32) (o : Fin 128) (j : Fin 8192) : EReal :=
  max ((∑ i : Fin 8192, (xw w inp o i * dK adj i) * aP adj i j) * dK adj j) 0

/-- The two result arrays in each arrangement, as whole-array functions of the arguments. -/
def arrAdjR (adj : FVec Ideal SAdj .f32) : FVec Ideal SAdj .f32 := fun idx => adjR adj (idx 0) (idx 1)
def arrAdjK (adj : FVec Ideal SAdj .f32) : FVec Ideal SAdj .f32 := fun idx => adjK adj (idx 0) (idx 1)
def arrOutR (inp : FVec Ideal SInp .f32) (adj : FVec Ideal SAdj .f32) (w : FVec Ideal SW .f32) : FVec Ideal SOut .f32 :=
  fun idx => outR inp adj w (idx 0) (idx 1)
def arrOutK (inp : FVec Ideal SInp .f32) (adj : FVec Ideal SAdj .f32) (w : FVec Ideal SW .f32) : FVec Ideal SOut .f32 :=
  fun idx => outK inp adj w (idx 0) (idx 1)

/-! ## What each of the kernel's three launches computes, as a function of the arrays it is handed -/

abbrev SCol : Shape := ⟨2, ![8192, 1]⟩
abbrev SRow : Shape := ⟨2, ![1, 8192]⟩

/-- The first launch: the row sums of the adjacency, as a column. -/
def rowSum (adj : FVec Ideal SAdj .f32) : FVec Ideal SCol .f32 := fun idx => ∑ j : Fin 8192, adj (ix2 (idx 0) j)

/-- The second launch: the projected features, column `n` scaled by the row vector's entry `n`. -/
def xScaled (w : FVec Ideal SW .f32) (inp : FVec Ideal SInp .f32) (drow : FVec Ideal SRow .f32) : FVec Ideal SOut .f32 :=
  fun idx => xw w inp (idx 0) (idx 1) * drow (ix2 0 (idx 1))

/-- The third launch's first result: `(adj + I)[i, j] · dcol[i] · drow[j]`. -/
def adjScaled (adj : FVec Ideal SAdj .f32) (dcol : FVec Ideal SCol .f32) (drow : FVec Ideal SRow .f32) : FVec Ideal SAdj .f32 :=
  fun idx => (adj (ix2 (idx 0) (idx 1)) + eye (idx 0) (idx 1)) * dcol (ix2 (idx 0) 0) * drow (ix2 0 (idx 1))

/-- The third launch's second result: `relu ((∑ i, xs[o, i] · (adj + I)[i, j]) · drow[j])`. -/
def outScaled (adj : FVec Ideal SAdj .f32) (xs : FVec Ideal SOut .f32) (drow : FVec Ideal SRow .f32) : FVec Ideal SOut .f32 :=
  fun idx => max ((∑ i : Fin 8192, xs (ix2 (idx 0) i) * (adj (ix2 i (idx 1)) + eye i (idx 1))) * drow (ix2 0 (idx 1))) 0

/-- Every entry of the three arguments is a real number. -/
def Finite (inp : FVec Ideal SInp .f32) (adj : FVec Ideal SAdj .f32) (w : FVec Ideal SW .f32) : Prop :=
  (∀ i, ∃ r : ℝ, inp i = (r : EReal)) ∧ (∀ i, ∃ r : ℝ, adj i = (r : EReal)) ∧ (∀ i, ∃ r : ℝ, w i = (r : EReal))

/-- Every row degree (of `adj + I`) is positive: the reference's inverse square root is inside its domain. -/
def DegPos (adj : FVec Ideal SAdj .f32) : Prop := ∀ i : Fin 8192, 0 < degR adj i

end Cert.Spec

end
-- ==== Proof.KI_Pay.lean ====
/-
  The kernel's stored values read one element at a time, over the extended reals: the row sum of the first launch,
  the scaled projection of the second, and for the third launch the adjacency block with its part of the identity,
  its two-sided scaling, the accumulated product and the rectified scaled result. Each statement is over variables
  of the literal vector types and explicit coordinates. With them: the sum over 8192 indices cut into 8 runs of 1024,
  and the word of the float one.
-/
import proofs.«143146_j43112881717764_2_alg».proof.Proof.Gen.KernelIdeal.Skeleton
import proofs.«143146_j43112881717764_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandVal

open Cert.KernelIdeal Cert.KernelIdeal.Gen Idealize.ShloMosaic Idealize.ShloMosaic.ValueIdx

/-! ## The first launch: a row's sum -/

/-- The row sum kept as a column: entry `(r, 0)` is the sum of row `r`. -/
theorem pay0 (v0 : Vec Ideal S512x8192 .f32) (r : Fin 512) :
    k0_pay1 (F := Ideal) v0 (ix2 r (0 : Fin 1)) = ∑ j : Fin 8192, v0 (ix2 r j) := by
  unfold k0_pay1
  refine (shapeCast_apply _ _ (ix2 r (0 : Fin 1)) (ix1 r) ?_).trans ?_
  · rw [Shape.rowMajor_val_one, Shape.rowMajor_val_two]
    show r.val = r.val * 1 + 0
    omega
  · refine (Ideal.multiReduction_add_single v0 0x00000000#32 reduces_S512x8192_S512 _ _ (ix1 r)).trans ?_
    refine Finset.sum_congr rfl fun k _ => congrArg v0 ?_
    funext a
    refine Fin.ext ?_
    match a with
    | ⟨0, _⟩ => rfl
    | ⟨1, _⟩ => rfl

/-! ## The second launch: the projection, scaled column by column -/

/-- The first product's operand indices: it contracts axis 0 of both operands, so at output `(o, n)` and
    contraction coordinate `k` the left operand is read at `(k, o)` and the right one at `(k, n)`. -/
theorem mm1_lhs_0 (j : S128x1024.Idx) (q : dot_S512x128_S512x1024_S128x1024_0_0_1_1_n_n.contr.Idx) :
    (dot_S512x128_S512x1024_S128x1024_0_0_1_1_n_n.lhsIdx j q 0).val = (q ⟨0, by decide⟩).val :=
  dot_S512x128_S512x1024_S128x1024_0_0_1_1_n_n.lhsIdx_val_of_single rfl j q
theorem mm1_lhs_1 (j : S128x1024.Idx) (q : dot_S512x128_S512x1024_S128x1024_0_0_1_1_n_n.contr.Idx) :
    (dot_S512x128_S512x1024_S128x1024_0_0_1_1_n_n.lhsIdx j q 1).val = (j 0).val := by
  unfold DotDims.lhsIdx
  rw [dif_neg (show ¬(1 : Fin S512x128.rank) ∈ dot_S512x128_S512x1024_S128x1024_0_0_1_1_n_n.lhsBatch by decide),
    dif_pos (show (1 : Fin S512x128.rank) ∈ dot_S512x128_S512x1024_S128x1024_0_0_1_1_n_n.lhsNonContracting by decide)]
  rfl
theorem mm1_rhs_0 (j : S128x1024.Idx) (q : dot_S512x128_S512x1024_S128x1024_0_0_1_1_n_n.contr.Idx) :
    (dot_S512x128_S512x1024_S128x1024_0_0_1_1_n_n.rhsIdx j q 0).val = (q ⟨0, by decide⟩).val :=
  dot_S512x128_S512x1024_S128x1024_0_0_1_1_n_n.rhsIdx_val_of_single rfl j q
theorem mm1_rhs_1 (j : S128x1024.Idx) (q : dot_S512x128_S512x1024_S128x1024_0_0_1_1_n_n.contr.Idx) :
    (dot_S512x128_S512x1024_S128x1024_0_0_1_1_n_n.rhsIdx j q 1).val = (j 1).val := by
  unfold DotDims.rhsIdx
  rw [dif_neg (show ¬(1 : Fin S512x1024.rank) ∈ dot_S512x128_S512x1024_S128x1024_0_0_1_1_n_n.rhsBatch by decide),
    dif_pos (show (1 : Fin S512x1024.rank) ∈ dot_S512x128_S512x1024_S128x1024_0_0_1_1_n_n.rhsNonContracting by decide)]
  rfl

/-- The first product into the zero accumulator, at `(o, n)`: the sum over the 512 shared rows. -/
theorem mm1_apply (a : FVec Ideal S512x128 .bf16) (b : FVec Ideal S512x1024 .bf16) (o : Fin 128) (n : Fin 1024) :
    matmul dot_S512x128_S512x1024_S128x1024_0_0_1_1_n_n none a b (constant (F := Ideal) S128x1024 .f32 0x00000000#32) (ix2 o n)
      = ∑ k : Fin 512, a (ix2 k o) * b (ix2 k n) := by
  simp only [matmul]
  rw [Ideal.matmul_constant_zero_apply, ← Equiv.sum_comp (contrEquiv1 dot_S512x128_S512x1024_S128x1024_0_0_1_1_n_n 512 rfl rfl).symm]
  refine Finset.sum_congr rfl fun k _ => ?_
  have hk := contrEquiv1_symm_val dot_S512x128_S512x1024_S128x1024_0_0_1_1_n_n 512 rfl rfl k
  have el : dot_S512x128_S512x1024_S128x1024_0_0_1_1_n_n.lhsIdx (ix2 o n) ((contrEquiv1 dot_S512x128_S512x1024_S128x1024_0_0_1_1_n_n 512 rfl rfl).symm k) = ix2 k o :=
    funext fun x => Fin.ext (by
      match x with
      | ⟨0, _⟩ => exact (mm1_lhs_0 _ _).trans hk
      | ⟨1, _⟩ => exact mm1_lhs_1 _ _)
  have er : dot_S512x128_S512x1024_S128x1024_0_0_1_1_n_n.rhsIdx (ix2 o n) ((contrEquiv1 dot_S512x128_S512x1024_S128x1024_0_0_1_1_n_n 512 rfl rfl).symm k) = ix2 k n :=
    funext fun x => Fin.ext (by
      match x with
      | ⟨0, _⟩ => exact (mm1_rhs_0 _ _).trans hk
      | ⟨1, _⟩ => exact mm1_rhs_1 _ _)
  rw [el, er]

/-- The projected features at `(o, n)`, times the row vector's entry `n`. -/
theorem pay1 (v0 : Vec Ideal S512x128 .f32) (v2 : Vec Ideal S512x1024 .f32) (v5 : Vec Ideal S1x1024 .f32)
    (o : Fin 128) (n : Fin 1024) :
    k1_pay1 (F := Ideal) v0 v2 v5 (ix2 o n)
      = (∑ k : Fin 512, v0 (ix2 k o) * v2 (ix2 k n)) * v5 (ix2 (0 : Fin 1) n) := by
  unfold k1_pay1
  refine (mulf_apply _ _ _).trans ?_
  rw [mm1_apply, broadcastTo_1b_ab_apply, shapeCast_self]
  rfl

/-! ## The third launch -/

/-- A `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The accumulator's initial value is zero everywhere. -/
theorem pay2 (o : Fin 128) (n : Fin 1024) : k2_pay2 (F := Ideal) (ix2 o n) = 0 := by
  unfold k2_pay2
  rw [shapeCast_self]
  exact Ideal.ofBits_zero_f32

/-- The row vector passes through unchanged. -/
theorem pay3 (v5 : Vec Ideal S1x1024 .f32) : k2_pay3 (F := Ideal) v5 = v5 := by
  unfold k2_pay3
  exact shapeCast_self _ _

/-- Two global positions, each a block number below 8 times 1024 plus an offset below 1024, are equal as 32-bit
    words exactly when they are equal as numbers. -/
theorem pos_word_eq_iff (a b c d : ℕ) (ha : a < 8) (hb : b < 1024) (hc : c < 8) (hd : d < 1024) :
    BitVec.ofNat 32 b + BitVec.ofNat 32 a * 1024#32 = BitVec.ofNat 32 d + BitVec.ofNat 32 c * 1024#32
      ↔ a * 1024 + b = c * 1024 + d := by
  rw [← BitVec.toNat_inj]
  simp only [BitVec.toNat_add, BitVec.toNat_mul, BitVec.toNat_ofNat]
  norm_num
  omega

/-- The comparison bit of two words, widened and converted, is one where they are equal and zero elsewhere. -/
theorem eqBit_toIdeal (x y : BitVec 32) :
    (FloatOps.sitofp (F := Ideal) .f32 ((IntOp.cmpi .eq x y).setWidth 32) : EReal) = if x = y then 1 else 0 := by
  show ((((BitVec.ofBool (x == y)).setWidth 32).toInt : ℝ) : EReal) = _
  by_cases h : x = y
  · rw [if_pos h, beq_iff_eq.mpr h]
    show (((1 : ℤ) : ℝ) : EReal) = 1
    simp
  · rw [if_neg h, beq_eq_false_iff_ne.mpr h]
    show (((0 : ℤ) : ℝ) : EReal) = 0
    simp

/-- The adjacency block plus its part of the identity: at `(r, n)` of block `(i 1, i 0)` the added term is one
    exactly where the global row `i 1 · 1024 + r` is the global column `i 0 · 1024 + n`. -/
theorem pay4 (i : grid2.Coords) (v20 : Vec Ideal S1024x1024 .f32) (r n : Fin 1024) :
    k2_pay4 (F := Ideal) i v20 (ix2 r n)
      = v20 (ix2 r n) + (if (i 1).val * 1024 + r.val = (i 0).val * 1024 + n.val then 1 else 0) := by
  unfold k2_pay4
  refine (addf_apply _ _ _).trans ?_
  refine congrArg (v20 (ix2 r n) + ·) ?_
  refine (sitofp_apply _ _).trans ?_
  rw [extui_apply]
  show FloatOps.sitofp (F := Ideal) .f32 ((IntOp.cmpi .eq
      (broadcastTo S1024x1024 (addi (iota .tc S1024x1 32 [0] iota_S1024x1_d0_w32)
        (broadcast S1024x1 (Scalar.muli (BitVec.ofNat 32 (i 1).val) 1024#32))) broadcasts_S1024x1_S1024x1024 (ix2 r n))
      (broadcastTo S1024x1024 (addi (iota .tc S1x1024 32 [1] iota_S1x1024_d1_w32)
        (broadcast S1x1024 (Scalar.muli (BitVec.ofNat 32 (i 0).val) 1024#32))) broadcasts_S1x1024_S1024x1024 (ix2 r n))).setWidth 32) = _
  rw [broadcastTo_a1_ab_apply, broadcastTo_1b_ab_apply, eqBit_toIdeal]
  show (if IntOp.addi (iota .tc S1024x1 32 [0] iota_S1024x1_d0_w32 (ix2 r (0 : Fin 1))) (Scalar.muli (BitVec.ofNat 32 (i 1).val) 1024#32)
      = IntOp.addi (iota .tc S1x1024 32 [1] iota_S1x1024_d1_w32 (ix2 (0 : Fin 1) n)) (Scalar.muli (BitVec.ofNat 32 (i 0).val) 1024#32)
      then (1 : EReal) else 0) = _
  rw [iota_single_apply, iota_single_apply]
  exact if_congr (pos_word_eq_iff (i 1).val r.val (i 0).val n.val (i 1).isLt r.isLt (i 0).isLt n.isLt) rfl rfl

/-- The first result's block: that sum scaled by the column vector's entry `r` and the row vector's entry `n`. -/
theorem pay5 (i : grid2.Coords) (v3 : Vec Ideal S1024x1 .f32) (v5 : Vec Ideal S1x1024 .f32)
    (v20 : Vec Ideal S1024x1024 .f32) (r n : Fin 1024) :
    k2_pay5 (F := Ideal) i v3 v5 v20 (ix2 r n)
      = k2_pay4 (F := Ideal) i v20 (ix2 r n) * v3 (ix2 r (0 : Fin 1)) * v5 (ix2 (0 : Fin 1) n) := by
  unfold k2_pay5
  refine (mulf_apply _ _ _).trans ?_
  rw [broadcastTo_1b_ab_apply, pay3]
  refine congrArg (· * v5 (ix2 (0 : Fin 1) n)) ?_
  refine (mulf_apply _ _ _).trans ?_
  rw [broadcastTo_a1_ab_apply, shapeCast_self]

/-- The second product's operand indices: it contracts axis 1 of the left operand with axis 0 of the right one, so
    at output `(o, n)` and contraction coordinate `k` the operands are read at `(o, k)` and `(k, n)`. -/
theorem mm2_lhs_0 (j : S128x1024.Idx) (q : dot_S128x1024_S1024x1024_S128x1024_1_0_0_1_n_n.contr.Idx) :
    (dot_S128x1024_S1024x1024_S128x1024_1_0_0_1_n_n.lhsIdx j q 0).val = (j 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl
theorem mm2_lhs_1 (j : S128x1024.Idx) (q : dot_S128x1024_S1024x1024_S128x1024_1_0_0_1_n_n.contr.Idx) :
    (dot_S128x1024_S1024x1024_S128x1024_1_0_0_1_n_n.lhsIdx j q 1).val = (q ⟨0, by decide⟩).val :=
  dot_S128x1024_S1024x1024_S128x1024_1_0_0_1_n_n.lhsIdx_val_of_single rfl j q
theorem mm2_rhs_0 (j : S128x1024.Idx) (q : dot_S128x1024_S1024x1024_S128x1024_1_0_0_1_n_n.contr.Idx) :
    (dot_S128x1024_S1024x1024_S128x1024_1_0_0_1_n_n.rhsIdx j q 0).val = (q ⟨0, by decide⟩).val :=
  dot_S128x1024_S1024x1024_S128x1024_1_0_0_1_n_n.rhsIdx_val_of_single rfl j q
theorem mm2_rhs_1 (j : S128x1024.Idx) (q : dot_S128x1024_S1024x1024_S128x1024_1_0_0_1_n_n.contr.Idx) :
    (dot_S128x1024_S1024x1024_S128x1024_1_0_0_1_n_n.rhsIdx j q 1).val = (j 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

/-- The second product into the zero accumulator, at `(o, n)`: the sum over the 1024 shared coordinates. -/
theorem mm2_apply (a : FVec Ideal S128x1024 .bf16) (b : FVec Ideal S1024x1024 .bf16) (o : Fin 128) (n : Fin 1024) :
    matmul dot_S128x1024_S1024x1024_S128x1024_1_0_0_1_n_n none a b (constant (F := Ideal) S128x1024 .f32 0x00000000#32) (ix2 o n)
      = ∑ k : Fin 1024, a (ix2 o k) * b (ix2 k n) := by
  simp only [matmul]
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 o n) ((contrEquiv1 dot_S128x1024_S1024x1024_S128x1024_1_0_0_1_n_n 1024 rfl rfl).symm k) = ix2 o k :=
    funext fun x => Fin.ext (by
      match x with
      | ⟨0, _⟩ => exact mm2_lhs_0 _ _
      | ⟨1, _⟩ => exact (mm2_lhs_1 _ _).trans hk)
  have er : dot_S128x1024_S1024x1024_S128x1024_1_0_0_1_n_n.rhsIdx (ix2 o n) ((contrEquiv1 dot_S128x1024_S1024x1024_S128x1024_1_0_0_1_n_n 1024 rfl rfl).symm k) = ix2 k n :=
    funext fun x => Fin.ext (by
      match x with
      | ⟨0, _⟩ => exact (mm2_rhs_0 _ _).trans hk
      | ⟨1, _⟩ => exact mm2_rhs_1 _ _)
  rw [el, er]

/-- The accumulator after a point: its value before, plus the feature block times the adjacency block with its part
    of the identity. -/
theorem pay6 (i : grid2.Coords) (v20 : Vec Ideal S1024x1024 .f32) (v27 v32 : Vec Ideal S128x1024 .f32)
    (o : Fin 128) (n : Fin 1024) :
    k2_pay6 (F := Ideal) i v20 v27 v32 (ix2 o n)
      = v32 (ix2 o n) + ∑ r : Fin 1024, v27 (ix2 o r) * k2_pay4 (F := Ideal) i v20 (ix2 r n) := by
  unfold k2_pay6
  rw [shapeCast_self, shapeCast_self]
  refine (addf_apply _ _ _).trans ?_
  rw [mm2_apply]
  rfl

/-- The second result's block: the accumulator scaled by the row vector's entry `n`, rectified. -/
theorem pay1' (v6 : FVec Ideal S1x1024 .f32) (v40 : Vec Ideal S128x1024 .f32) (o : Fin 128) (n : Fin 1024) :
    k2_pay1 (F := Ideal) v6 v40 (ix2 o n) = max (v40 (ix2 o n) * v6 (ix2 (0 : Fin 1) n)) 0 := by
  unfold k2_pay1
  refine (maximumf_apply _ _ _).trans ?_
  rw [mulf_apply, broadcastTo_1b_ab_apply, broadcast_apply]
  show max _ (Ideal.ofBits .f32 0x00000000#32) = _
  rw [Ideal.ofBits_zero_f32]

/-! ## A sum over 8192 indices as 8 runs of 1024, and the float one's word -/

/-- A position below 8192 is a run number below 8 and an offset below 1024. -/
def runEquiv : Fin 8 × Fin 1024 ≃ Fin 8192 where
  toFun p := ⟨p.1.val * 1024 + p.2.val, by have := p.1.isLt; have := p.2.isLt; omega⟩
  invFun i := (⟨i.val / 1024, by have := i.isLt; omega⟩, ⟨i.val % 1024, Nat.mod_lt _ (by norm_num)⟩)
  left_inv p := by
    have h1 := p.1.isLt
    have h2 := p.2.isLt
    refine Prod.ext (Fin.ext ?_) (Fin.ext ?_)
    · show (p.1.val * 1024 + p.2.val) / 1024 = p.1.val
      omega
    · show (p.1.val * 1024 + p.2.val) % 1024 = p.2.val
      omega
  right_inv i := Fin.ext (by
    show i.val / 1024 * 1024 + i.val % 1024 = i.val
    omega)

/-- The sum over 8192 indices, run by run. -/
theorem sum_8192_runs {M : Type*} [AddCommMonoid M] (f : Fin 8192 → M) :
    ∑ i : Fin 8192, f i
      = ∑ b : Fin 8, ∑ r : Fin 1024, f ⟨b.val * 1024 + r.val, by have := b.isLt; have := r.isLt; omega⟩ := by
  rw [← Equiv.sum_comp runEquiv f, Fintype.sum_prod_type]
  rfl

/-- The word `0x3F800000` is the float one. -/
theorem ofBits_one_f32 : Ideal.ofBits .f32 0x3F800000#32 = (1 : EReal) := by
  simp [Ideal.ofBits, Ideal.ieee, -EReal.coe_mul]
  norm_num

end Cert.KernelIdeal.HandVal

end
-- ==== Proof.KI_Val0.lean ====
/-
  The first launch read as a whole array: after its sixteen points the column it writes holds, at every row, the
  sum of that row of the adjacency matrix as the launch found it. Each point writes one block of 512 rows, which is
  the row sums of the block of rows it read; the sixteen blocks tile the 8192 rows.
-/
import proofs.«143146_j43112881717764_2_alg».proof.Proof.KI_R0
import proofs.«143146_j43112881717764_2_alg».proof.Proof.KI_Pay
import proofs.«143146_j43112881717764_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- Both windows of the first launch sit at block row `t`, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A block of 512 rows whose row `r` is row `i` of `A` has, as its row-sum payload at `r`, the row sum of `A` at `i`. -/
theorem pay0_rowSum (A : FVec Ideal Cert.Spec.SAdj .f32) (x0 : Vec Ideal S512x8192 .f32) (r : Fin 512) (i : Fin 8192)
    (hx : ∀ j : Fin 8192, x0 (ix2 r j) = A (ix2 i j)) :
    k0_pay1 (F := Ideal) x0 (ix2 r 0) = ∑ j : Fin 8192, A (ix2 i j) :=
  (pay0 x0 r).trans (Finset.sum_congr rfl fun j _ => hx j)

/-- The column of row sums at row `i`. -/
theorem rowSum_apply (A : FVec Ideal Cert.Spec.SAdj .f32) (i : Fin 8192) :
    Cert.Spec.rowSum A (ix2 i (0 : Fin 1)) = ∑ j : Fin 8192, A (ix2 i j) := rfl

/-- The input block at point `t`, at row `r` and column `j`, is the adjacency at row `512 t + r`, column `j`. -/
theorem iblk0_0_apply (c : Dev nD) (t : Fin cfg0.N) (r : Fin 512) (j : Fin 8192) (i : Fin 8192) (hi : i.val = t.val * 512 + r.val) :
    (iblk0 V c 0 t : Vec Ideal S512x8192 .f32) (ix2 r j) = (V c main_arg1 : FVec Ideal Cert.Spec.SAdj .f32) (ix2 i j) := by
  obtain ⟨e0, e1, -, -⟩ := idx_facts0 t
  unfold iblk0
  rw [View.read_apply]
  show V c main_arg1 (((cfg0.win 0).blk t).view.emb (ix2 r j)) = V c main_arg1 (ix2 i j)
  congr 1
  funext a
  apply Fin.ext
  match a with
  | ⟨0, _⟩ => show win0_0.index t (0 : Fin 2) * 512 + 1 * r.val = i.val; rw [e0, hi]; omega
  | ⟨1, _⟩ => show win0_0.index t (1 : Fin 2) * 8192 + 1 * j.val = j.val; rw [e1]; omega

/-- What point `t` writes back is block `t` of the column of row sums of the adjacency as the launch finds it. -/
theorem flushed0_eq (c : Dev nD) (t : Fin cfg0.N) :
    (dat0 V c).flushed 1 t = ((cfg0.win 1).blk t).view.read (Elt Ideal) (Cert.Spec.rowSum (V c main_arg1)) := by
  show (cfg0.win 1).cut (grid0.coords t) ((dat0 V c).after 1 t) = _
  rw [after0_1]
  unfold out0_1
  rw [View.canon_unit_zero hz2]
  simp only [View.ld_unit_zero (S := S512x8192) hz2]
  obtain ⟨-, -, e2, e3⟩ := idx_facts0 t
  funext y
  obtain ⟨r, q, rfl⟩ : ∃ (r : Fin 512) (q : Fin 1), y = ix2 r q := ⟨y 0, y 1, eq_ix2 y⟩
  obtain rfl : q = 0 := Subsingleton.elim _ _
  rw [View.read_apply]
  have hN : t.val < 16 := t.isLt
  have hr : r.val < 512 := r.isLt
  have hemb : ((cfg0.win 1).blk t).view.emb (ix2 r (0 : Fin 1)) = (ix2 (⟨t.val * 512 + r.val, by omega⟩ : Fin 8192) (0 : Fin 1) : Cert.Spec.SCol.Idx) := by
    funext a
    apply Fin.ext
    match a with
    | ⟨0, _⟩ => show win0_1.index t (0 : Fin 2) * 512 + 1 * r.val = t.val * 512 + r.val; rw [e2]; omega
    | ⟨1, _⟩ => show win0_1.index t (1 : Fin 2) * 1 + 1 * 0 = 0; rw [e3]
  rw [hemb]
  exact (pay0_rowSum (V c main_arg1) _ r _ fun j => iblk0_0_apply V c t r j _ rfl).trans (rowSum_apply _ _).symm

/-- An index of the column is in point `t`'s block iff each coordinate is in the block's range on its axis. -/
theorem mem_blk0_1 (t : Fin cfg0.N) (i : Cert.Spec.SCol.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- The column of row sums after the first launch: the sixteen blocks of 512 rows tile the 8192 rows. -/
theorem final0 (c : Dev nD) : (dat0 (F := Ideal) V c).arrAt 1 cfg0.N = Cert.Spec.rowSum (V c main_arg1) :=
  (dat0 V c).arrAt_eq_of_cover 1 (Cert.Spec.rowSum (V c main_arg1)) (fun t _ => flushed0_eq V c t) fun i => by
    have hi0 : (i 0).val < 8192 := (i 0).isLt
    have hi1 : (i 1).val < 1 := (i 1).isLt
    have hN : cfg0.N = 16 := rfl
    refine ⟨⟨(i 0).val / 512, by rw [hN]; omega⟩, flush0_1 _, ?_⟩
    rw [mem_blk0_1]
    obtain ⟨-, -, e2, e3⟩ := idx_facts0 ⟨(i 0).val / 512, by rw [hN]; omega⟩
    intro a
    match a with
    | ⟨0, _⟩ => show win0_1.index _ (0 : Fin 2) * 512 ≤ (i 0).val ∧ (i 0).val < win0_1.index _ (0 : Fin 2) * 512 + 512; rw [e2]; show (i 0).val / 512 * 512 ≤ (i 0).val ∧ (i 0).val < (i 0).val / 512 * 512 + 512; omega
    | ⟨1, _⟩ => show win0_1.index _ (1 : Fin 2) * 1 ≤ (i 1).val ∧ (i 1).val < win0_1.index _ (1 : Fin 2) * 1 + 1; rw [e3]; omega

end Cert.KernelIdeal.HandVal
end
-- ==== Proof.KI_Val1.lean ====
/-
  The second launch read as a whole array: after its eight points the array it writes holds, at row `o` and column
  `n`, the weight's column `o` contracted with the features' column `n` over the 512 shared rows, times entry `n`
  of the row of scale factors — all three as the launch found them. Each point writes one block of 1024 columns,
  computed from the whole weight and the same 1024 columns of the features and of the scale row; the eight blocks
  tile the 8192 columns.
-/
import proofs.«143146_j43112881717764_2_alg».proof.Proof.KI_R1
import proofs.«143146_j43112881717764_2_alg».proof.Proof.KI_Pay
import proofs.«143146_j43112881717764_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2' : (![0, 0] : Fin 2 → Nat) = fun _ => 0 := funext fun a => by fin_cases a <;> rfl

/-- The weight's window never moves; the other three sit at block row 0, block column `t`. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- Blocks that are the whole weight, columns `i` of the features and entry `i` of the scale row have, as the
    payload at output row `o` and the block's column `n`, the scaled projected feature at `(o, i)`. -/
theorem pay1_xScaled (W : FVec Ideal Cert.Spec.SW .f32) (X : FVec Ideal Cert.Spec.SInp .f32) (D : FVec Ideal Cert.Spec.SRow .f32)
    (x0 : Vec Ideal S512x128 .f32) (x1 : Vec Ideal S512x1024 .f32) (x2 : Vec Ideal S1x1024 .f32)
    (o : Fin 128) (n : Fin 1024) (i : Fin 8192)
    (h0 : ∀ k : Fin 512, x0 (ix2 k o) = W (ix2 k o)) (h1 : ∀ k : Fin 512, x1 (ix2 k n) = X (ix2 k i))
    (h2 : x2 (ix2 0 n) = D (ix2 0 i)) :
    k1_pay1 (F := Ideal) x0 x1 x2 (ix2 o n) = (∑ k : Fin 512, W (ix2 k o) * X (ix2 k i)) * D (ix2 0 i) := by
  rw [pay1, h2]
  congr 1
  exact Finset.sum_congr rfl fun k _ => by rw [h0 k, h1 k]

/-- The scaled projected features at row `o`, column `i`. -/
theorem xScaled_apply (W : FVec Ideal Cert.Spec.SW .f32) (X : FVec Ideal Cert.Spec.SInp .f32) (D : FVec Ideal Cert.Spec.SRow .f32)
    (o : Fin 128) (i : Fin 8192) :
    Cert.Spec.xScaled W X D (ix2 o i) = (∑ k : Fin 512, W (ix2 k o) * X (ix2 k i)) * D (ix2 (0 : Fin 1) i) := rfl

/-- The weight's block at any point is the weight. -/
theorem iblk1_0_apply (c : Dev nD) (t : Fin cfg1.N) (k : Fin 512) (o : Fin 128) :
    (iblk1 V c 0 t : Vec Ideal S512x128 .f32) (ix2 k o) = (V c main_arg2 : FVec Ideal Cert.Spec.SW .f32) (ix2 k o) := by
  obtain ⟨e0, e1, -⟩ := idx_facts1 t
  unfold iblk1
  rw [View.read_apply]
  show V c main_arg2 (((cfg1.win 0).blk t).view.emb (ix2 k o)) = V c main_arg2 (ix2 k o)
  congr 1
  funext a
  apply Fin.ext
  match a with
  | ⟨0, _⟩ => show win1_0.index t (0 : Fin 2) * 512 + 1 * k.val = k.val; rw [e0]; omega
  | ⟨1, _⟩ => show win1_0.index t (1 : Fin 2) * 128 + 1 * o.val = o.val; rw [e1]; omega

/-- The feature block at point `t`, at row `k` and column `n`, is the features at row `k`, column `1024 t + n`. -/
theorem iblk1_1_apply (c : Dev nD) (t : Fin cfg1.N) (k : Fin 512) (n : Fin 1024) (i : Fin 8192) (hi : i.val = t.val * 1024 + n.val) :
    (iblk1 V c 1 t : Vec Ideal S512x1024 .f32) (ix2 k n) = (V c main_arg0 : FVec Ideal Cert.Spec.SInp .f32) (ix2 k i) := by
  obtain ⟨-, -, e2, e3, -⟩ := idx_facts1 t
  unfold iblk1
  rw [View.read_apply]
  show V c main_arg0 (((cfg1.win 1).blk t).view.emb (ix2 k n)) = V c main_arg0 (ix2 k i)
  congr 1
  funext a
  apply Fin.ext
  match a with
  | ⟨0, _⟩ => show win1_1.index t (0 : Fin 2) * 512 + 1 * k.val = k.val; rw [e2]; omega
  | ⟨1, _⟩ => show win1_1.index t (1 : Fin 2) * 1024 + 1 * n.val = i.val; rw [e3, hi]; omega

/-- The scale block at point `t`, at column `n`, is the scale row at column `1024 t + n`. -/
theorem iblk1_2_apply (c : Dev nD) (t : Fin cfg1.N) (n : Fin 1024) (i : Fin 8192) (hi : i.val = t.val * 1024 + n.val) :
    (iblk1 V c 2 t : Vec Ideal S1x1024 .f32) (ix2 (0 : Fin 1) n) = (V c main_v4 : FVec Ideal Cert.Spec.SRow .f32) (ix2 (0 : Fin 1) i) := by
  obtain ⟨-, -, -, -, e4, e5, -⟩ := idx_facts1 t
  unfold iblk1
  rw [View.read_apply]
  show V c main_v4 (((cfg1.win 2).blk t).view.emb (ix2 (0 : Fin 1) n)) = V c main_v4 (ix2 (0 : Fin 1) i)
  congr 1
  funext a
  apply Fin.ext
  match a with
  | ⟨0, _⟩ => show win1_2.index t (0 : Fin 2) * 1 + 1 * 0 = 0; rw [e4]
  | ⟨1, _⟩ => show win1_2.index t (1 : Fin 2) * 1024 + 1 * n.val = i.val; rw [e5, hi]; omega

/-- What point `t` writes back is block `t` of the scaled projected features of the arrays as the launch finds them. -/
theorem flushed1_eq (c : Dev nD) (t : Fin cfg1.N) :
    (dat1 V c).flushed 3 t = ((cfg1.win 3).blk t).view.read (Elt Ideal) (Cert.Spec.xScaled (V c main_arg2) (V c main_arg0) (V c main_v4)) := by
  show (cfg1.win 3).cut (grid1.coords t) ((dat1 V c).after 3 t) = _
  rw [after1_3]
  unfold out1_3
  rw [View.canon_unit_zero hz2']
  simp only [View.ld_unit_zero (S := S512x128) hz2', View.ld_unit_zero (S := S512x1024) hz2', View.ld_unit_zero (S := S1x1024) hz2']
  obtain ⟨-, -, -, -, -, -, e6, e7⟩ := idx_facts1 t
  funext y
  obtain ⟨o, n, rfl⟩ : ∃ (o : Fin 128) (n : Fin 1024), y = ix2 o n := ⟨y 0, y 1, eq_ix2 y⟩
  rw [View.read_apply]
  have hN : t.val < 8 := t.isLt
  have hn : n.val < 1024 := n.isLt
  have hemb : ((cfg1.win 3).blk t).view.emb (ix2 o n) = (ix2 o (⟨t.val * 1024 + n.val, by omega⟩ : Fin 8192) : Cert.Spec.SOut.Idx) := by
    funext a
    apply Fin.ext
    match a with
    | ⟨0, _⟩ => show win1_3.index t (0 : Fin 2) * 128 + 1 * o.val = o.val; rw [e6]; omega
    | ⟨1, _⟩ => show win1_3.index t (1 : Fin 2) * 1024 + 1 * n.val = t.val * 1024 + n.val; rw [e7]; omega
  rw [hemb]
  exact (pay1_xScaled (V c main_arg2) (V c main_arg0) (V c main_v4) _ _ _ o n _ (fun k => iblk1_0_apply V c t k o)
    (fun k => iblk1_1_apply V c t k n _ rfl) (iblk1_2_apply V c t n _ rfl)).trans (xScaled_apply _ _ _ _ _).symm

/-- An index of the output is in point `t`'s block iff each coordinate is in the block's range on its axis. -/
theorem mem_blk1_3 (t : Fin cfg1.N) (i : Cert.Spec.SOut.Idx) :
    i ∈ ((cfg1.win 3).blk t).view.set ↔ ∀ a : Fin 2, win1_3.index t a * S128x1024.size a ≤ (i a).val ∧ (i a).val < win1_3.index t a * S128x1024.size a + S128x1024.size a := by
  show i ∈ ((View.whole main_v5).slice (win1_3.rect t)).set ↔ _
  rw [View.set_slice_whole, Rect.mem_set_unit]
  exact Iff.rfl

/-- The scaled projected features after the second launch: the eight blocks of 1024 columns tile the 8192 columns. -/
theorem final1 (c : Dev nD) : (dat1 (F := Ideal) V c).arrAt 3 cfg1.N = Cert.Spec.xScaled (V c main_arg2) (V c main_arg0) (V c main_v4) :=
  (dat1 V c).arrAt_eq_of_cover 3 (Cert.Spec.xScaled (V c main_arg2) (V c main_arg0) (V c main_v4)) (fun t _ => flushed1_eq V c t) fun i => by
    have hi0 : (i 0).val < 128 := (i 0).isLt
    have hi1 : (i 1).val < 8192 := (i 1).isLt
    have hN : cfg1.N = 8 := rfl
    refine ⟨⟨(i 1).val / 1024, by rw [hN]; omega⟩, flush1_3 _, ?_⟩
    rw [mem_blk1_3]
    obtain ⟨-, -, -, -, -, -, e6, e7⟩ := idx_facts1 ⟨(i 1).val / 1024, by rw [hN]; omega⟩
    intro a
    match a with
    | ⟨0, _⟩ => show win1_3.index _ (0 : Fin 2) * 128 ≤ (i 0).val ∧ (i 0).val < win1_3.index _ (0 : Fin 2) * 128 + 128; rw [e6]; omega
    | ⟨1, _⟩ => show win1_3.index _ (1 : Fin 2) * 1024 ≤ (i 1).val ∧ (i 1).val < win1_3.index _ (1 : Fin 2) * 1024 + 1024; rw [e7]; show (i 1).val / 1024 * 1024 ≤ (i 1).val ∧ (i 1).val < (i 1).val / 1024 * 1024 + 1024; omega

end Cert.KernelIdeal.HandVal
end
-- ==== Proof.KI_R2Pieces.lean ====
import proofs.«143146_j43112881717764_2_alg».proof.Proof.KI_R2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 2: what each case's found pieces are, as the payloads of the input blocks

Every store of the body writes its whole buffer, so what a case leaves in a buffer is the payload of its last store
into it, and every load reads the whole contents. -/

theorem hz2 : (![0, 0] : Fin 2 → Nat) = fun _ => 0 := funext fun a => by fin_cases a <;> rfl

/-- Output 4 after case A: the scaled block `(adj_blk + I_blk) * dcol * drow`. -/
theorem out2_A_4_eq (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) :
    out2_A_4 c i arg2 harg2 arg3 harg3 arg4 harg4 arg5 harg5 arg6 harg6 arg7 harg7 arg8 harg8 hc0 hc1 x0 x1 x2 x3 = k2_pay5 i x2 x3 x0 := by
  unfold out2_A_4
  rw [View.read_writes_eq_canon _ _ _ (cover2_A_4 c i arg2 harg2 arg3 harg3 arg4 harg4 arg5 harg5 arg6 harg6 arg7 harg7 arg8 harg8 hc0 hc1 x0 x1 x2 x3)]
  unfold kernelRun2_A
  dsimp only
  sl_unfold_words
  rw [View.canon_unit_zero (S := S1024x1024) hz2]
  simp only [View.readAt_eq_ld, harg2.read_unread, harg3.read_unread, harg4.read_unread, harg5.read_unread, harg8.read_unread, View.ld_unit_zero (S := S1024x1024) hz2, View.ld_unit_zero (S := S128x1024) hz2, View.ld_unit_zero (S := S1024x1) hz2, View.ld_unit_zero (S := S1x1024) hz2]

/-- Output 4 after case B: the scaled block `(adj_blk + I_blk) * dcol * drow`. -/
theorem out2_B_4_eq (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) :
    out2_B_4 c i arg2 harg2 arg3 harg3 arg4 harg4 arg5 harg5 arg6 harg6 arg7 harg7 arg8 harg8 hc0 hc1 x0 x1 x2 x3 xs0 = k2_pay5 i x2 x3 x0 := by
  unfold out2_B_4
  rw [View.read_writes_eq_canon _ _ _ (cover2_B_4 c i arg2 harg2 arg3 harg3 arg4 harg4 arg5 harg5 arg6 harg6 arg7 harg7 arg8 harg8 hc0 hc1 x0 x1 x2 x3 xs0)]
  unfold kernelRun2_B
  dsimp only
  sl_unfold_words
  rw [View.canon_unit_zero (S := S1024x1024) hz2]
  simp only [View.readAt_eq_ld, harg2.read_unread, harg3.read_unread, harg4.read_unread, harg5.read_unread, harg8.read_unread, View.ld_unit_zero (S := S1024x1024) hz2, View.ld_unit_zero (S := S128x1024) hz2, View.ld_unit_zero (S := S1024x1) hz2, View.ld_unit_zero (S := S1x1024) hz2]

/-- Output 4 after case C: the scaled block `(adj_blk + I_blk) * dcol * drow`. -/
theorem out2_C_4_eq (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) :
    out2_C_4 c i arg2 harg2 arg3 harg3 arg4 harg4 arg5 harg5 arg6 harg6 arg7 harg7 arg8 harg8 hc0 hc1 x0 x1 x2 x3 xs0 = k2_pay5 i x2 x3 x0 := by
  unfold out2_C_4
  rw [View.read_writes_eq_canon _ _ _ (cover2_C_4 c i arg2 harg2 arg3 harg3 arg4 harg4 arg5 harg5 arg6 harg6 arg7 harg7 arg8 harg8 hc0 hc1 x0 x1 x2 x3 xs0)]
  unfold kernelRun2_C
  dsimp only
  sl_unfold_words
  rw [View.canon_unit_zero (S := S1024x1024) hz2]
  simp only [View.readAt_eq_ld, harg2.read_unread, harg3.read_unread, harg4.read_unread, harg5.read_unread, harg8.read_unread, View.ld_unit_zero (S := S1024x1024) hz2, View.ld_unit_zero (S := S128x1024) hz2, View.ld_unit_zero (S := S1024x1) hz2, View.ld_unit_zero (S := S1x1024) hz2]

/-- The scratch after case A: the zero block plus `x_blk · (adj_blk + I_blk)`. -/
theorem sout2_A_0_eq (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : cond2_0 i) (hc1 : ¬cond2_1 i)
    (x0 : Vec F S1024x1024 .f32) (x1 : Vec F S128x1024 .f32) (x2 : Vec F S1024x1 .f32) (x3 : Vec F S1x1024 .f32) :
    sout2_A_0 c i arg2 harg2 arg3 harg3 arg4 harg4 arg5 harg5 arg6 harg6 arg7 harg7 arg8 harg8 hc0 hc1 x0 x1 x2 x3 = k2_pay6 i x0 x1 (k2_pay2 (F := F)) := by
  unfold sout2_A_0
  rw [View.read_writes_eq_canon _ _ _ (scover2_A_0 c i arg2 harg2 arg3 harg3 arg4 harg4 arg5 harg5 arg6 harg6 arg7 harg7 arg8 harg8 hc0 hc1 x0 x1 x2 x3)]
  unfold kernelRun2_A
  dsimp only
  sl_unfold_words
  rw [View.canon_cons_unit_zero (S := S128x1024) hz2, View.readCov_unit_zero (S := S128x1024) _ hz2]
  simp only [View.readAt_eq_ld, harg2.read_unread, harg3.read_unread, harg4.read_unread, harg5.read_unread, harg8.read_unread, View.ld_unit_zero (S := S1024x1024) hz2, View.ld_unit_zero (S := S128x1024) hz2, View.ld_unit_zero (S := S1024x1) hz2, View.ld_unit_zero (S := S1x1024) hz2]

/-- The scratch after case B: what the point before left plus `x_blk · (adj_blk + I_blk)`. -/
theorem sout2_B_0_eq (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : ¬cond2_1 i)
    (x0 : Vec F S1024x1024 .f32) (x1 : Vec F S128x1024 .f32) (x2 : Vec F S1024x1 .f32) (x3 : Vec F S1x1024 .f32) (xs0 : Vec F S128x1024 .f32) :
    sout2_B_0 c i arg2 harg2 arg3 harg3 arg4 harg4 arg5 harg5 arg6 harg6 arg7 harg7 arg8 harg8 hc0 hc1 x0 x1 x2 x3 xs0 = k2_pay6 i x0 x1 xs0 := by
  unfold sout2_B_0
  rw [View.read_writes_eq_canon _ _ _ (scover2_B_0 c i arg2 harg2 arg3 harg3 arg4 harg4 arg5 harg5 arg6 harg6 arg7 harg7 arg8 harg8 hc0 hc1 x0 x1 x2 x3 xs0)]
  unfold kernelRun2_B
  dsimp only
  sl_unfold_words
  rw [View.canon_unit_zero (S := S128x1024) hz2]
  simp only [View.readAt_eq_ld, harg2.read_unread, harg3.read_unread, harg4.read_unread, harg5.read_unread, harg8.read_unread, View.ld_unit_zero (S := S1024x1024) hz2, View.ld_unit_zero (S := S128x1024) hz2, View.ld_unit_zero (S := S1024x1) hz2, View.ld_unit_zero (S := S1x1024) hz2]

/-- The scratch after case C: what the point before left plus `x_blk · (adj_blk + I_blk)`. -/
theorem sout2_C_0_eq (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) :
    sout2_C_0 c i arg2 harg2 arg3 harg3 arg4 harg4 arg5 harg5 arg6 harg6 arg7 harg7 arg8 harg8 hc0 hc1 x0 x1 x2 x3 xs0 = k2_pay6 i x0 x1 xs0 := by
  unfold sout2_C_0
  rw [View.read_writes_eq_canon _ _ _ (scover2_C_0 c i arg2 harg2 arg3 harg3 arg4 harg4 arg5 harg5 arg6 harg6 arg7 harg7 arg8 harg8 hc0 hc1 x0 x1 x2 x3 xs0)]
  unfold kernelRun2_C
  dsimp only
  sl_unfold_words
  rw [View.canon_unit_zero (S := S128x1024) hz2]
  simp only [View.readAt_eq_ld, harg2.read_unread, harg3.read_unread, harg4.read_unread, harg5.read_unread, harg8.read_unread, View.ld_unit_zero (S := S1024x1024) hz2, View.ld_unit_zero (S := S128x1024) hz2, View.ld_unit_zero (S := S1024x1) hz2, View.ld_unit_zero (S := S1x1024) hz2]

/-- Output 5 after case C: `max (acc * drow, 0)` of the accumulator the case has just completed. -/
theorem out2_C_5_eq (c : Dev nD) (i : grid2.Coords) (arg2 : Memref sig .tc .vmem S1024x1024 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S128x1024 .f32) (harg7 : arg7.IsWhole) (arg8 : Memref sig .tc .vmem S128x1024 .f32) (harg8 : arg8.IsWhole) (hc0 : ¬cond2_0 i) (hc1 : cond2_1 i)
    (x0 : Vec F S1024x1024 .f32) (x1 : Vec F S128x1024 .f32) (x2 : Vec F S1024x1 .f32) (x3 : Vec F S1x1024 .f32) (xs0 : Vec F S128x1024 .f32) :
    out2_C_5 c i arg2 harg2 arg3 harg3 arg4 harg4 arg5 harg5 arg6 harg6 arg7 harg7 arg8 harg8 hc0 hc1 x0 x1 x2 x3 xs0 = k2_pay1 (k2_pay3 x3) (k2_pay6 i x0 x1 xs0) := by
  unfold out2_C_5
  rw [View.read_writes_eq_canon _ _ _ (cover2_C_5 c i arg2 harg2 arg3 harg3 arg4 harg4 arg5 harg5 arg6 harg6 arg7 harg7 arg8 harg8 hc0 hc1 x0 x1 x2 x3 xs0)]
  unfold kernelRun2_C
  dsimp only
  sl_unfold_words
  rw [View.canon_unit_zero (S := S128x1024) hz2]
  simp only [View.readAt_eq_ld, harg2.read_unread, harg3.read_unread, harg4.read_unread, harg5.read_unread, harg8.read_unread, View.ld_unit_zero (S := S1024x1024) hz2, View.ld_unit_zero (S := S128x1024) hz2, View.ld_unit_zero (S := S1024x1) hz2, View.ld_unit_zero (S := S1x1024) hz2]
  rw [View.readCov_unit_zero (S := S128x1024) _ hz2]

end Cert.KernelIdeal.Hand

end
-- ==== Proof.KI_Val2.lean ====
/-
  The third launch's two results as whole arrays. A point of its 8 × 8 grid is a column run `j` and a row run `i`
  (1024 indices each). The first result's block at the point is the adjacency block with its part of the identity,
  scaled on both sides. The carried accumulator after the point holds, at `(o, n)`, the sum over the row runs up to
  `i` and over each run's 1024 positions `p` of `xs (o, p) · (adj + I) (p, j · 1024 + n)`; at the last row run this
  is the sum over all 8192 positions, and the second result's block is that sum scaled by the row vector and
  rectified. Every index of either array lies in exactly such a block, which gives the arrays.
-/
import proofs.«143146_j43112881717764_2_alg».proof.Proof.KI_R2Pieces
import proofs.«143146_j43112881717764_2_alg».proof.Proof.KI_Pay
import proofs.«143146_j43112881717764_2_alg».proof.Proof.Spec
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## Runs of 1024 positions -/

/-- Position `r` of run `b`. -/
def gpos (b : Fin 8) (r : Fin 1024) : Fin 8192 :=
  ⟨b.val * 1024 + r.val, by have := b.isLt; have := r.isLt; omega⟩

theorem gpos_val (b : Fin 8) (r : Fin 1024) : (gpos b r).val = b.val * 1024 + r.val := rfl

/-- The identity matrix at two such positions. -/
theorem eye_gpos (b b' : Fin 8) (r n : Fin 1024) :
    Cert.Spec.eye (gpos b r) (gpos b' n) = if b.val * 1024 + r.val = b'.val * 1024 + n.val then 1 else 0 := by
  unfold Cert.Spec.eye
  exact if_congr Fin.ext_iff rfl rfl

/-- Every position is a position of a run. -/
theorem exists_gpos (p : Fin 8192) : ∃ (b : Fin 8) (r : Fin 1024), p = gpos b r :=
  ⟨⟨p.val / 1024, by have := p.isLt; omega⟩, ⟨p.val % 1024, Nat.mod_lt _ (by norm_num)⟩,
    Fin.ext (by show p.val = p.val / 1024 * 1024 + p.val % 1024; omega)⟩

/-- A sum over all positions, run by run. -/
theorem sum_gpos {M : Type*} [AddCommMonoid M] (f : Fin 8192 → M) :
    ∑ p : Fin 8192, f p = ∑ b : Fin 8, ∑ r : Fin 1024, f (gpos b r) :=
  sum_8192_runs f

/-! ## Sums over the runs up to a given one -/

theorem sum_le_zero (T : Fin 8 → EReal) : (∑ b : Fin 8, if b.val ≤ 0 then T b else 0) = T 0 := by
  rw [Finset.sum_eq_single_of_mem (0 : Fin 8) (Finset.mem_univ _)]
  · exact if_pos (Nat.le_refl _)
  · intro b _ hb
    refine if_neg fun h => hb (Fin.ext ?_)
    show b.val = 0
    omega

theorem sum_le_succ (T : Fin 8 → EReal) (k : ℕ) (hk : k + 1 < 8) :
    (∑ b : Fin 8, if b.val ≤ k + 1 then T b else 0) = (∑ b : Fin 8, if b.val ≤ k then T b else 0) + T ⟨k + 1, hk⟩ := by
  have e : T ⟨k + 1, hk⟩ = ∑ b : Fin 8, if b = ⟨k + 1, hk⟩ then T b else 0 := by
    rw [Finset.sum_ite_eq' Finset.univ (⟨k + 1, hk⟩ : Fin 8) T, if_pos (Finset.mem_univ _)]
  rw [e, ← Finset.sum_add_distrib]
  refine Finset.sum_congr rfl fun b _ => ?_
  by_cases h1 : b.val ≤ k
  · have hne : b ≠ ⟨k + 1, hk⟩ := fun h => by
      have := congrArg Fin.val h
      simp only at this
      omega
    rw [if_pos (by omega), if_pos h1, if_neg hne, add_zero]
  · by_cases h2 : b.val = k + 1
    · rw [if_pos (by omega), if_neg h1, if_pos (Fin.ext h2), zero_add]
    · have hne : b ≠ ⟨k + 1, hk⟩ := fun h => h2 (congrArg Fin.val h)
      rw [if_neg (by omega), if_neg h1, if_neg hne, add_zero]

theorem sum_le_seven (T : Fin 8 → EReal) : (∑ b : Fin 8, if b.val ≤ 7 then T b else 0) = ∑ b : Fin 8, T b :=
  Finset.sum_congr rfl fun b _ => if_pos (by have := b.isLt; omega)

/-- One more run joins the sum. -/
theorem sum_le_step (T : Fin 8 → EReal) (k k' : ℕ) (bk : Fin 8) (hk : k' = k + 1) (hb : bk.val = k') :
    (∑ b : Fin 8, if b.val ≤ k then T b else 0) + T bk = ∑ b : Fin 8, if b.val ≤ k' then T b else 0 := by
  subst hk
  have h8 : k + 1 < 8 := hb ▸ bk.isLt
  obtain rfl : bk = ⟨k + 1, h8⟩ := Fin.ext hb
  exact (sum_le_succ T k h8).symm

/-- The first run alone. -/
theorem sum_le_base (T : Fin 8 → EReal) (k' : ℕ) (b0 : Fin 8) (hk : k' = 0) (hb : b0.val = 0) :
    0 + T b0 = ∑ b : Fin 8, if b.val ≤ k' then T b else 0 := by
  subst hk
  obtain rfl : b0 = 0 := Fin.ext hb
  rw [zero_add, sum_le_zero]

/-- With the last run the sum is over all of them. -/
theorem sum_le_last (T : Fin 8 → EReal) (b7 : Fin 8) (hb : b7.val = 7) :
    (∑ b : Fin 8, if b.val ≤ 6 then T b else 0) + T b7 = ∑ b : Fin 8, T b := by
  rw [sum_le_step T 6 7 b7 rfl hb, sum_le_seven]

/-! ## What one point adds, over variables -/

/-- Row run `b`'s contribution to entry `(o, n)` of column run `bj`'s block. -/
def termK (adj : FVec Ideal Cert.Spec.SAdj .f32) (xs : FVec Ideal Cert.Spec.SOut .f32) (bj b : Fin 8) (o : Fin 128)
    (n : Fin 1024) : EReal :=
  ∑ r : Fin 1024, xs (ix2 o (gpos b r)) * (adj (ix2 (gpos b r) (gpos bj n)) + Cert.Spec.eye (gpos b r) (gpos bj n))

/-- The adjacency block with its part of the identity, when the block is row run `bi`, column run `bj`. -/
theorem pay4_point (adj : FVec Ideal Cert.Spec.SAdj .f32) (i : grid2.Coords) (bi bj : Fin 8)
    (hi : (i 1).val = bi.val) (hj : (i 0).val = bj.val) (x0 : Vec Ideal S1024x1024 .f32)
    (h0 : ∀ r n : Fin 1024, x0 (ix2 r n) = adj (ix2 (gpos bi r) (gpos bj n))) (r n : Fin 1024) :
    k2_pay4 (F := Ideal) i x0 (ix2 r n)
      = adj (ix2 (gpos bi r) (gpos bj n)) + Cert.Spec.eye (gpos bi r) (gpos bj n) := by
  rw [pay4, h0, hi, hj, eye_gpos]

/-- The first result's block is the block of the scaled adjacency. -/
theorem pay5_point (adj : FVec Ideal Cert.Spec.SAdj .f32) (dcol : FVec Ideal Cert.Spec.SCol .f32)
    (drow : FVec Ideal Cert.Spec.SRow .f32) (i : grid2.Coords) (bi bj : Fin 8)
    (hi : (i 1).val = bi.val) (hj : (i 0).val = bj.val)
    (x0 : Vec Ideal S1024x1024 .f32) (x2 : Vec Ideal S1024x1 .f32) (x3 : Vec Ideal S1x1024 .f32)
    (h0 : ∀ r n : Fin 1024, x0 (ix2 r n) = adj (ix2 (gpos bi r) (gpos bj n)))
    (h2 : ∀ r : Fin 1024, x2 (ix2 r (0 : Fin 1)) = dcol (ix2 (gpos bi r) (0 : Fin 1)))
    (h3 : ∀ n : Fin 1024, x3 (ix2 (0 : Fin 1) n) = drow (ix2 (0 : Fin 1) (gpos bj n))) (r n : Fin 1024) :
    k2_pay5 (F := Ideal) i x2 x3 x0 (ix2 r n)
      = Cert.Spec.adjScaled adj dcol drow (ix2 (gpos bi r) (gpos bj n)) := by
  rw [pay5, pay4_point adj i bi bj hi hj x0 h0, h2, h3]
  rfl

/-- The accumulator after the point is the accumulator before it plus the point's row run's contribution. -/
theorem pay6_point (adj : FVec Ideal Cert.Spec.SAdj .f32) (xs : FVec Ideal Cert.Spec.SOut .f32) (i : grid2.Coords)
    (bi bj : Fin 8) (hi : (i 1).val = bi.val) (hj : (i 0).val = bj.val)
    (x0 : Vec Ideal S1024x1024 .f32) (x1 acc : Vec Ideal S128x1024 .f32)
    (h0 : ∀ r n : Fin 1024, x0 (ix2 r n) = adj (ix2 (gpos bi r) (gpos bj n)))
    (h1 : ∀ (o : Fin 128) (r : Fin 1024), x1 (ix2 o r) = xs (ix2 o (gpos bi r))) (o : Fin 128) (n : Fin 1024) :
    k2_pay6 (F := Ideal) i x0 x1 acc (ix2 o n) = acc (ix2 o n) + termK adj xs bj bi o n := by
  rw [pay6]
  refine congrArg (acc (ix2 o n) + ·) ?_
  unfold termK
  refine Finset.sum_congr rfl fun r _ => ?_
  rw [pay4_point adj i bi bj hi hj x0 h0, h1]

/-- The second result's block, once the accumulator holds every row run's contribution. -/
theorem pay1_point (adj : FVec Ideal Cert.Spec.SAdj .f32) (xs : FVec Ideal Cert.Spec.SOut .f32)
    (drow : FVec Ideal Cert.Spec.SRow .f32) (bj : Fin 8) (x3 : Vec Ideal S1x1024 .f32) (acc : Vec Ideal S128x1024 .f32)
    (h3 : ∀ n : Fin 1024, x3 (ix2 (0 : Fin 1) n) = drow (ix2 (0 : Fin 1) (gpos bj n)))
    (o : Fin 128) (n : Fin 1024) (hacc : acc (ix2 o n) = ∑ b : Fin 8, termK adj xs bj b o n) :
    k2_pay1 (F := Ideal) (k2_pay3 (F := Ideal) x3) acc (ix2 o n)
      = Cert.Spec.outScaled adj xs drow (ix2 o (gpos bj n)) := by
  rw [pay1', pay3, hacc, h3]
  unfold Cert.Spec.outScaled
  show _ = max ((∑ p : Fin 8192, xs (ix2 o p) * (adj (ix2 p (gpos bj n)) + Cert.Spec.eye p (gpos bj n)))
      * drow (ix2 (0 : Fin 1) (gpos bj n))) 0
  rw [sum_gpos]
  rfl

/-! ## A point's two runs, the index maps, and the blocks read off the arrays -/

variable (V : (c : Dev nD) → (b : Ref sig .tc) → Buf (Elt Ideal) ((c : Thread nD τ).loc b))

theorem lt64 (t : Fin cfg2.N) : t.val < 64 := by
  have h := t.isLt
  have hN : cfg2.N = 64 := N_2
  omega

/-- The point's row run and column run. -/
def pti (t : Fin cfg2.N) : Fin 8 := ⟨t.val % 8, Nat.mod_lt _ (by norm_num)⟩
def ptj (t : Fin cfg2.N) : Fin 8 := ⟨t.val / 8, by have := lt64 t; omega⟩

/-- The grid coordinates of a point: the column run first, the row run second. -/
theorem coords2_val : ∀ t : Fin cfg2.N, (grid2.coords t 0).val = t.val / 8 ∧ (grid2.coords t 1).val = t.val % 8 :=
  (by decide +kernel : ∀ t : Fin grid2.N, (grid2.coords t 0).val = t.val / 8 ∧ (grid2.coords t 1).val = t.val % 8)

/-- The six windows' block indices at a point. -/
theorem idx2_facts : ∀ t : Fin cfg2.N,
    win2_0.index t (0 : Fin 2) = t.val % 8 ∧ win2_0.index t (1 : Fin 2) = t.val / 8
    ∧ win2_1.index t (0 : Fin 2) = 0 ∧ win2_1.index t (1 : Fin 2) = t.val % 8
    ∧ win2_2.index t (0 : Fin 2) = t.val % 8 ∧ win2_2.index t (1 : Fin 2) = 0
    ∧ win2_3.index t (0 : Fin 2) = 0 ∧ win2_3.index t (1 : Fin 2) = t.val / 8
    ∧ win2_4.index t (0 : Fin 2) = t.val % 8 ∧ win2_4.index t (1 : Fin 2) = t.val / 8
    ∧ win2_5.index t (0 : Fin 2) = 0 ∧ win2_5.index t (1 : Fin 2) = t.val / 8 :=
  (by decide +kernel : ∀ t : Fin grid2.N,
    win2_0.index t (0 : Fin 2) = t.val % 8 ∧ win2_0.index t (1 : Fin 2) = t.val / 8
    ∧ win2_1.index t (0 : Fin 2) = 0 ∧ win2_1.index t (1 : Fin 2) = t.val % 8
    ∧ win2_2.index t (0 : Fin 2) = t.val % 8 ∧ win2_2.index t (1 : Fin 2) = 0
    ∧ win2_3.index t (0 : Fin 2) = 0 ∧ win2_3.index t (1 : Fin 2) = t.val / 8
    ∧ win2_4.index t (0 : Fin 2) = t.val % 8 ∧ win2_4.index t (1 : Fin 2) = t.val / 8
    ∧ win2_5.index t (0 : Fin 2) = 0 ∧ win2_5.index t (1 : Fin 2) = t.val / 8)

/-- The adjacency block at a point: rows of the row run, columns of the column run. -/
theorem blk0 (c : Dev nD) (t : Fin cfg2.N) (r n : Fin 1024) :
    (iblk2 V c 0 t : Vec Ideal S1024x1024 .f32) (ix2 r n)
      = V c main_arg1 (ix2 (gpos (pti t) r) (gpos (ptj t) n)) := by
  obtain ⟨e0, e1, -⟩ := idx2_facts t
  unfold iblk2
  rw [View.read_apply]
  show V c main_arg1 (((cfg2.win 0).blk t).view.emb (ix2 r n)) = _
  refine congrArg (V c main_arg1) ?_
  funext a
  apply Fin.ext
  match a with
  | ⟨0, _⟩ =>
    show win2_0.index t (0 : Fin 2) * 1024 + 1 * r.val = t.val % 8 * 1024 + r.val
    rw [e0]; omega
  | ⟨1, _⟩ =>
    show win2_0.index t (1 : Fin 2) * 1024 + 1 * n.val = t.val / 8 * 1024 + n.val
    rw [e1]; omega

/-- The feature block at a point: all 128 rows, columns of the row run. -/
theorem blk1 (c : Dev nD) (t : Fin cfg2.N) (o : Fin 128) (r : Fin 1024) :
    (iblk2 V c 1 t : Vec Ideal S128x1024 .f32) (ix2 o r) = V c main_v5 (ix2 o (gpos (pti t) r)) := by
  obtain ⟨-, -, e0, e1, -⟩ := idx2_facts t
  unfold iblk2
  rw [View.read_apply]
  show V c main_v5 (((cfg2.win 1).blk t).view.emb (ix2 o r)) = _
  refine congrArg (V c main_v5) ?_
  funext a
  apply Fin.ext
  match a with
  | ⟨0, _⟩ =>
    show win2_1.index t (0 : Fin 2) * 128 + 1 * o.val = o.val
    rw [e0]; omega
  | ⟨1, _⟩ =>
    show win2_1.index t (1 : Fin 2) * 1024 + 1 * r.val = t.val % 8 * 1024 + r.val
    rw [e1]; omega

/-- The column vector's block at a point: the row run's entries. -/
theorem blk2 (c : Dev nD) (t : Fin cfg2.N) (r : Fin 1024) :
    (iblk2 V c 2 t : Vec Ideal S1024x1 .f32) (ix2 r (0 : Fin 1)) = V c main_v3 (ix2 (gpos (pti t) r) (0 : Fin 1)) := by
  obtain ⟨-, -, -, -, e0, e1, -⟩ := idx2_facts t
  unfold iblk2
  rw [View.read_apply]
  show V c main_v3 (((cfg2.win 2).blk t).view.emb (ix2 r (0 : Fin 1))) = _
  refine congrArg (V c main_v3) ?_
  funext a
  apply Fin.ext
  match a with
  | ⟨0, _⟩ =>
    show win2_2.index t (0 : Fin 2) * 1024 + 1 * r.val = t.val % 8 * 1024 + r.val
    rw [e0]; omega
  | ⟨1, _⟩ =>
    show win2_2.index t (1 : Fin 2) * 1 + 1 * 0 = 0
    rw [e1]

/-- The row vector's block at a point: the column run's entries. -/
theorem blk3 (c : Dev nD) (t : Fin cfg2.N) (n : Fin 1024) :
    (iblk2 V c 3 t : Vec Ideal S1x1024 .f32) (ix2 (0 : Fin 1) n) = V c main_v4 (ix2 (0 : Fin 1) (gpos (ptj t) n)) := by
  obtain ⟨-, -, -, -, -, -, e0, e1, -⟩ := idx2_facts t
  unfold iblk2
  rw [View.read_apply]
  show V c main_v4 (((cfg2.win 3).blk t).view.emb (ix2 (0 : Fin 1) n)) = _
  refine congrArg (V c main_v4) ?_
  funext a
  apply Fin.ext
  match a with
  | ⟨0, _⟩ =>
    show win2_3.index t (0 : Fin 2) * 1 + 1 * 0 = 0
    rw [e0]
  | ⟨1, _⟩ =>
    show win2_3.index t (1 : Fin 2) * 1024 + 1 * n.val = t.val / 8 * 1024 + n.val
    rw [e1]; omega

/-- Where the first result's block at a point lies in its array. -/
theorem emb4 (t : Fin cfg2.N) (r n : Fin 1024) :
    ((cfg2.win 4).blk t).view.emb (ix2 r n) = ix2 (gpos (pti t) r) (gpos (ptj t) n) := by
  obtain ⟨-, -, -, -, -, -, -, -, e0, e1, -⟩ := idx2_facts t
  funext a
  apply Fin.ext
  match a with
  | ⟨0, _⟩ =>
    show win2_4.index t (0 : Fin 2) * 1024 + 1 * r.val = t.val % 8 * 1024 + r.val
    rw [e0]; omega
  | ⟨1, _⟩ =>
    show win2_4.index t (1 : Fin 2) * 1024 + 1 * n.val = t.val / 8 * 1024 + n.val
    rw [e1]; omega

/-- Where the second result's block at a point lies in its array. -/
theorem emb5 (t : Fin cfg2.N) (o : Fin 128) (n : Fin 1024) :
    ((cfg2.win 5).blk t).view.emb (ix2 o n) = ix2 o (gpos (ptj t) n) := by
  obtain ⟨-, -, -, -, -, -, -, -, -, -, e0, e1⟩ := idx2_facts t
  funext a
  apply Fin.ext
  match a with
  | ⟨0, _⟩ =>
    show win2_5.index t (0 : Fin 2) * 128 + 1 * o.val = o.val
    rw [e0]; omega
  | ⟨1, _⟩ =>
    show win2_5.index t (1 : Fin 2) * 1024 + 1 * n.val = t.val / 8 * 1024 + n.val
    rw [e1]; omega

/-! ## The blocks of the two results cover their arrays -/

/-- An index of the first result lies in a point's block iff each coordinate lies in the block's range. -/
theorem mem_blk4 (t : Fin cfg2.N) (i : S8192x8192.Idx) :
    i ∈ ((cfg2.win 4).blk t).view.set ↔ ∀ a : Fin 2, win2_4.index t a * S1024x1024.size a ≤ (i a).val
      ∧ (i a).val < win2_4.index t a * S1024x1024.size a + S1024x1024.size a := by
  show i ∈ ((View.whole main_v6_0).slice (win2_4.rect t)).set ↔ _
  rw [View.set_slice_whole, Rect.mem_set_unit]
  exact Iff.rfl

/-- Likewise for the second result. -/
theorem mem_blk5 (t : Fin cfg2.N) (i : S128x8192.Idx) :
    i ∈ ((cfg2.win 5).blk t).view.set ↔ ∀ a : Fin 2, win2_5.index t a * S128x1024.size a ≤ (i a).val
      ∧ (i a).val < win2_5.index t a * S128x1024.size a + S128x1024.size a := by
  show i ∈ ((View.whole main_v6_1).slice (win2_5.rect t)).set ↔ _
  rw [View.set_slice_whole, Rect.mem_set_unit]
  exact Iff.rfl

/-- Entry `(p, q)` of the first result is in the block of the point whose row run holds `p` and whose column run
    holds `q`; every point writes its block back. -/
theorem cover4 (i : S8192x8192.Idx) :
    ∃ t : Fin cfg2.N, (cfg2.win 4).flush t = true ∧ i ∈ ((cfg2.win 4).blk t).view.set := by
  have h0 : (i 0).val < 8192 := (i 0).isLt
  have h1 : (i 1).val < 8192 := (i 1).isLt
  have hN : cfg2.N = 64 := N_2
  have ht : (i 1).val / 1024 * 8 + (i 0).val / 1024 < cfg2.N := by omega
  obtain ⟨-, -, -, -, -, -, -, -, e0, e1, -⟩ := idx2_facts ⟨(i 1).val / 1024 * 8 + (i 0).val / 1024, ht⟩
  refine ⟨⟨(i 1).val / 1024 * 8 + (i 0).val / 1024, ht⟩, flush2_4 _, ?_⟩
  rw [mem_blk4]
  intro a
  match a with
  | ⟨0, _⟩ =>
    show win2_4.index ⟨(i 1).val / 1024 * 8 + (i 0).val / 1024, ht⟩ (0 : Fin 2) * 1024 ≤ (i 0).val
      ∧ (i 0).val < win2_4.index ⟨(i 1).val / 1024 * 8 + (i 0).val / 1024, ht⟩ (0 : Fin 2) * 1024 + 1024
    rw [e0]
    show ((i 1).val / 1024 * 8 + (i 0).val / 1024) % 8 * 1024 ≤ (i 0).val
      ∧ (i 0).val < ((i 1).val / 1024 * 8 + (i 0).val / 1024) % 8 * 1024 + 1024
    omega
  | ⟨1, _⟩ =>
    show win2_4.index ⟨(i 1).val / 1024 * 8 + (i 0).val / 1024, ht⟩ (1 : Fin 2) * 1024 ≤ (i 1).val
      ∧ (i 1).val < win2_4.index ⟨(i 1).val / 1024 * 8 + (i 0).val / 1024, ht⟩ (1 : Fin 2) * 1024 + 1024
    rw [e1]
    show ((i 1).val / 1024 * 8 + (i 0).val / 1024) / 8 * 1024 ≤ (i 1).val
      ∧ (i 1).val < ((i 1).val / 1024 * 8 + (i 0).val / 1024) / 8 * 1024 + 1024
    omega

/-- Entry `(o, q)` of the second result is in the block of the LAST point of the column run that holds `q`, the one
    point of that run that writes its block back. -/
theorem cover5 (i : S128x8192.Idx) :
    ∃ t : Fin cfg2.N, (cfg2.win 5).flush t = true ∧ i ∈ ((cfg2.win 5).blk t).view.set := by
  have h0 : (i 0).val < 128 := (i 0).isLt
  have h1 : (i 1).val < 8192 := (i 1).isLt
  have hN : cfg2.N = 64 := N_2
  have ht : (i 1).val / 1024 * 8 + 7 < cfg2.N := by omega
  obtain ⟨-, -, -, -, -, -, -, -, -, -, e0, e1⟩ := idx2_facts ⟨(i 1).val / 1024 * 8 + 7, ht⟩
  refine ⟨⟨(i 1).val / 1024 * 8 + 7, ht⟩, (flush2_5 _).mpr (by show ((i 1).val / 1024 * 8 + 7) % 8 = 7; omega), ?_⟩
  rw [mem_blk5]
  intro a
  match a with
  | ⟨0, _⟩ =>
    show win2_5.index ⟨(i 1).val / 1024 * 8 + 7, ht⟩ (0 : Fin 2) * 128 ≤ (i 0).val
      ∧ (i 0).val < win2_5.index ⟨(i 1).val / 1024 * 8 + 7, ht⟩ (0 : Fin 2) * 128 + 128
    rw [e0]
    omega
  | ⟨1, _⟩ =>
    show win2_5.index ⟨(i 1).val / 1024 * 8 + 7, ht⟩ (1 : Fin 2) * 1024 ≤ (i 1).val
      ∧ (i 1).val < win2_5.index ⟨(i 1).val / 1024 * 8 + 7, ht⟩ (1 : Fin 2) * 1024 + 1024
    rw [e1]
    show ((i 1).val / 1024 * 8 + 7) / 8 * 1024 ≤ (i 1).val ∧ (i 1).val < ((i 1).val / 1024 * 8 + 7) / 8 * 1024 + 1024
    omega

/-! ## What the outputs and the accumulator hold after a point, as payloads of the point's blocks -/

/-- The first result's staging buffer after any point. -/
theorem out4_eq (c : Dev nD) (t : Fin cfg2.N) :
    (outsAt2 V c t.val t.isLt).1
      = k2_pay5 (F := Ideal) (grid2.coords t) (iblk2 V c 2 t) (iblk2 V c 3 t) (iblk2 V c 0 t) := by
  have hprev : t.val - 1 < cfg2.N := by have := t.isLt; omega
  by_cases h0 : t.val % 8 = 0
  · have h1 : ¬t.val % 8 = 7 := by omega
    rw [outsAt2_A V c t h0 h1]
    dsimp only
    exact out2_A_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t)
  · by_cases h1 : t.val % 8 = 7
    · rw [outsAt2_C V c t h0 h1]
      dsimp only
      exact out2_C_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) hprev).2.2
    · rw [outsAt2_B V c t h0 h1]
      dsimp only
      exact out2_B_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) hprev).2.2

/-- The accumulator after the first point of a column run: started from zero. -/
theorem acc_zero (c : Dev nD) (t : Fin cfg2.N) (h0 : t.val % 8 = 0) :
    (outsAt2 V c t.val t.isLt).2.2
      = k2_pay6 (F := Ideal) (grid2.coords t) (iblk2 V c 0 t) (iblk2 V c 1 t) (k2_pay2 (F := Ideal)) := by
  have h1 : ¬t.val % 8 = 7 := by omega
  rw [outsAt2_A V c t h0 h1]
  dsimp only
  exact sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t)

/-- The accumulator after any other point: continued from what the point before left. -/
theorem acc_succ (c : Dev nD) (t : Fin cfg2.N) (h0 : ¬t.val % 8 = 0) (hprev : t.val - 1 < cfg2.N) :
    (outsAt2 V c t.val t.isLt).2.2
      = k2_pay6 (F := Ideal) (grid2.coords t) (iblk2 V c 0 t) (iblk2 V c 1 t) (outsAt2 V c (t.val - 1) hprev).2.2 := by
  by_cases h1 : t.val % 8 = 7
  · rw [outsAt2_C V c t h0 h1]
    dsimp only
    exact sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) hprev).2.2
  · rw [outsAt2_B V c t h0 h1]
    dsimp only
    exact sout2_B_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) hprev).2.2

/-- The second result's staging buffer after the last point of a column run. -/
theorem out5_eq (c : Dev nD) (t : Fin cfg2.N) (h1 : t.val % 8 = 7) (hprev : t.val - 1 < cfg2.N) :
    (outsAt2 V c t.val t.isLt).2.1
      = k2_pay1 (F := Ideal) (k2_pay3 (F := Ideal) (iblk2 V c 3 t))
          (k2_pay6 (F := Ideal) (grid2.coords t) (iblk2 V c 0 t) (iblk2 V c 1 t) (outsAt2 V c (t.val - 1) hprev).2.2) := by
  have h0 : ¬t.val % 8 = 0 := by omega
  rw [outsAt2_C V c t h0 h1]
  dsimp only
  exact out2_C_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) hprev).2.2

/-! ## The accumulator after each point -/

/-- After point `n` of column run `j` and row run `i` the accumulator holds the contributions of the row runs
    up to `i`: by induction on the point — the first point of a column run starts from zero, every other point adds
    its own row run's contribution to what the point before left. -/
theorem scratch_eq (c : Dev nD) : ∀ (n : ℕ) (hn : n < cfg2.N) (o : Fin 128) (m : Fin 1024),
    (outsAt2 V c n hn).2.2 (ix2 o m)
      = ∑ b : Fin 8, if b.val ≤ n % 8 then termK (V c main_arg1) (V c main_v5) (ptj ⟨n, hn⟩) b o m else 0 := by
  intro n
  induction n using Nat.strong_induction_on with
  | _ n ih =>
    intro hn o m
    have h64 : n < 64 := lt64 ⟨n, hn⟩
    by_cases h0 : n % 8 = 0
    · have e : (outsAt2 V c n hn).2.2
          = k2_pay6 (F := Ideal) (grid2.coords ⟨n, hn⟩) (iblk2 V c 0 ⟨n, hn⟩) (iblk2 V c 1 ⟨n, hn⟩) (k2_pay2 (F := Ideal)) :=
        acc_zero V c ⟨n, hn⟩ h0
      rw [e, pay6_point (V c main_arg1) (V c main_v5) (grid2.coords ⟨n, hn⟩) (pti ⟨n, hn⟩) (ptj ⟨n, hn⟩)
        (coords2_val ⟨n, hn⟩).2 (coords2_val ⟨n, hn⟩).1 (iblk2 V c 0 ⟨n, hn⟩) (iblk2 V c 1 ⟨n, hn⟩) (k2_pay2 (F := Ideal))
        (blk0 V c ⟨n, hn⟩) (blk1 V c ⟨n, hn⟩) o m, pay2]
      exact sum_le_base (fun b => termK (V c main_arg1) (V c main_v5) (ptj ⟨n, hn⟩) b o m) (n % 8) (pti ⟨n, hn⟩) h0 h0
    · have hprev : n - 1 < cfg2.N := by omega
      have ihp := ih (n - 1) (by omega) hprev o m
      have e : (outsAt2 V c n hn).2.2
          = k2_pay6 (F := Ideal) (grid2.coords ⟨n, hn⟩) (iblk2 V c 0 ⟨n, hn⟩) (iblk2 V c 1 ⟨n, hn⟩) (outsAt2 V c (n - 1) hprev).2.2 :=
        acc_succ V c ⟨n, hn⟩ h0 hprev
      have hj : ptj ⟨n - 1, hprev⟩ = ptj ⟨n, hn⟩ := Fin.ext (by show (n - 1) / 8 = n / 8; omega)
      rw [e, pay6_point (V c main_arg1) (V c main_v5) (grid2.coords ⟨n, hn⟩) (pti ⟨n, hn⟩) (ptj ⟨n, hn⟩)
        (coords2_val ⟨n, hn⟩).2 (coords2_val ⟨n, hn⟩).1 (iblk2 V c 0 ⟨n, hn⟩) (iblk2 V c 1 ⟨n, hn⟩) (outsAt2 V c (n - 1) hprev).2.2
        (blk0 V c ⟨n, hn⟩) (blk1 V c ⟨n, hn⟩) o m, ihp, hj]
      exact sum_le_step (fun b => termK (V c main_arg1) (V c main_v5) (ptj ⟨n, hn⟩) b o m) ((n - 1) % 8) (n % 8) (pti ⟨n, hn⟩)
        (by omega) rfl

/-! ## What each point writes back -/

/-- Every point writes back, as the first result's block, the block of the scaled adjacency. -/
theorem flushed4_eq (c : Dev nD) (t : Fin cfg2.N) :
    (dat2 V c).flushed 4 t = ((cfg2.win 4).blk t).view.read (Elt Ideal)
      (Cert.Spec.adjScaled (V c main_arg1) (V c main_v3) (V c main_v4)) := by
  show (cfg2.win 4).cut (grid2.coords t) ((dat2 V c).after 4 t) = _
  rw [after2_4, out4_eq V c t]
  funext y
  obtain ⟨r, n, rfl⟩ : ∃ (r n : Fin 1024), y = ix2 r n := ⟨y 0, y 1, eq_ix2 y⟩
  rw [View.read_apply, emb4]
  exact pay5_point (V c main_arg1) (V c main_v3) (V c main_v4) (grid2.coords t) (pti t) (ptj t)
    (coords2_val t).2 (coords2_val t).1 (iblk2 V c 0 t) (iblk2 V c 2 t) (iblk2 V c 3 t)
    (blk0 V c t) (blk2 V c t) (blk3 V c t) r n

/-- The last point of a column run writes back, as the second result's block, the block of the rectified scaled
    product: by then the accumulator holds every row run's contribution, which is the sum over all 8192 positions. -/
theorem flushed5_eq (c : Dev nD) (t : Fin cfg2.N) (hf : (cfg2.win 5).flush t = true) :
    (dat2 V c).flushed 5 t = ((cfg2.win 5).blk t).view.read (Elt Ideal)
      (Cert.Spec.outScaled (V c main_arg1) (V c main_v5) (V c main_v4)) := by
  have h1 : t.val % 8 = 7 := (flush2_5 t).mp hf
  have hprev : t.val - 1 < cfg2.N := by have := t.isLt; omega
  show (cfg2.win 5).cut (grid2.coords t) ((dat2 V c).after 5 t) = _
  rw [after2_5, out5_eq V c t h1 hprev]
  funext y
  obtain ⟨o, m, rfl⟩ : ∃ (o : Fin 128) (m : Fin 1024), y = ix2 o m := ⟨y 0, y 1, eq_ix2 y⟩
  rw [View.read_apply, emb5]
  refine pay1_point (V c main_arg1) (V c main_v5) (V c main_v4) (ptj t) (iblk2 V c 3 t)
    (k2_pay6 (F := Ideal) (grid2.coords t) (iblk2 V c 0 t) (iblk2 V c 1 t) (outsAt2 V c (t.val - 1) hprev).2.2)
    (blk3 V c t) o m ?_
  have hj : ptj ⟨t.val - 1, hprev⟩ = ptj t := Fin.ext (by show (t.val - 1) / 8 = t.val / 8; omega)
  have hk : (t.val - 1) % 8 = 6 := by omega
  rw [pay6_point (V c main_arg1) (V c main_v5) (grid2.coords t) (pti t) (ptj t)
    (coords2_val t).2 (coords2_val t).1 (iblk2 V c 0 t) (iblk2 V c 1 t) (outsAt2 V c (t.val - 1) hprev).2.2
    (blk0 V c t) (blk1 V c t) o m, scratch_eq V c (t.val - 1) hprev o m, hj, hk]
  exact sum_le_last (fun b => termK (V c main_arg1) (V c main_v5) (ptj t) b o m) (pti t) h1

/-! ## The two result arrays -/

/-- The first result array ends as the scaled adjacency. -/
theorem final2_adj (c : Dev nD) :
    (dat2 (F := Ideal) V c).arrAt 4 cfg2.N = Cert.Spec.adjScaled (V c main_arg1) (V c main_v3) (V c main_v4) :=
  (dat2 V c).arrAt_eq_of_cover 4 (Cert.Spec.adjScaled (V c main_arg1) (V c main_v3) (V c main_v4))
    (fun t _ => flushed4_eq V c t) cover4

/-- The second result array ends as the rectified scaled product. -/
theorem final2_out (c : Dev nD) :
    (dat2 (F := Ideal) V c).arrAt 5 cfg2.N = Cert.Spec.outScaled (V c main_arg1) (V c main_v5) (V c main_v4) :=
  (dat2 V c).arrAt_eq_of_cover 5 (Cert.Spec.outScaled (V c main_arg1) (V c main_v5) (V c main_v4))
    (fun t hf => flushed5_eq V c t hf) cover5

end Cert.KernelIdeal.HandVal

end
-- ==== Proof.SpecGlue.lean ====
/-
  The kernel's three launches composed: when the column and the row handed to the second and third launch hold the
  inverse square roots of the degrees (in the kernel's arrangement), the third launch's two results are the
  normalised adjacency and the rectified propagated features in the kernel's arrangement.
-/
import proofs.«143146_j43112881717764_2_alg».proof.Proof.Spec

noncomputable section

namespace Cert.Spec

open Idealize.ShloMosaic Idealize.ShloMosaic.ValueIdx

/-- `(adj + I)[i, j] · dcol[i] · drow[j]` with `dcol` and `drow` the inverse square roots of the degrees. -/
theorem adjScaled_eq (adj : FVec Ideal SAdj .f32) (dcol : FVec Ideal SCol .f32) (drow : FVec Ideal SRow .f32)
    (hc : ∀ i : Fin 8192, dcol (ix2 i (0 : Fin 1)) = dK adj i) (hr : ∀ j : Fin 8192, drow (ix2 (0 : Fin 1) j) = dK adj j) :
    adjScaled adj dcol drow = arrAdjK adj := by
  funext idx
  obtain ⟨p, q, rfl⟩ : ∃ (p : Fin 8192) (q : Fin 8192), idx = ix2 p q := ⟨idx 0, idx 1, eq_ix2 idx⟩
  show (adj (ix2 p q) + eye p q) * dcol (ix2 p (0 : Fin 1)) * drow (ix2 (0 : Fin 1) q) = adjK adj p q
  rw [hc, hr]; rfl

/-- The features scaled column by column first, the product's columns scaled afterwards. -/
theorem outScaled_eq (inp : FVec Ideal SInp .f32) (adj : FVec Ideal SAdj .f32) (w : FVec Ideal SW .f32) (drow : FVec Ideal SRow .f32)
    (hr : ∀ j : Fin 8192, drow (ix2 (0 : Fin 1) j) = dK adj j) :
    outScaled adj (xScaled w inp drow) drow = arrOutK inp adj w := by
  funext idx
  obtain ⟨o, q, rfl⟩ : ∃ (o : Fin 128) (q : Fin 8192), idx = ix2 o q := ⟨idx 0, idx 1, eq_ix2 idx⟩
  show max ((∑ i : Fin 8192, (xw w inp o i * drow (ix2 (0 : Fin 1) i)) * (adj (ix2 i q) + eye i q)) * drow (ix2 (0 : Fin 1) q)) 0
    = outK inp adj w o q
  simp only [hr]
  rfl

end Cert.Spec

end
-- ==== Proof.KI_Glue.lean ====
/-
  The idealized kernel's two result arrays as functions of the three argument arrays: the row sums left by the first
  launch go through the host stretch (plus one, inverse square root, transpose) into the column and the row of
  inverse square roots of the degrees; the second launch leaves the projected features scaled by the row; the
  third leaves the normalised adjacency and the rectified propagated features, in the kernel's arrangement.
-/
import proofs.«143146_j43112881717764_2_alg».proof.Proof.KI_Run
import proofs.«143146_j43112881717764_2_alg».proof.Proof.KI_Val0
import proofs.«143146_j43112881717764_2_alg».proof.Proof.KI_Val1
import proofs.«143146_j43112881717764_2_alg».proof.Proof.KI_Val2
import proofs.«143146_j43112881717764_2_alg».proof.Proof.SpecGlue
import Idealize.ShloMosaic.Lib.IdealHost
import Idealize.ShloMosaic.Lib.ValueLayout

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The three arguments on core `c`. -/
abbrev inpOf (c : Dev nD) : FVec Ideal Cert.Spec.SInp .f32 := m ((c : Thread nD τ).loc main_arg0)
abbrev adjOf (c : Dev nD) : FVec Ideal Cert.Spec.SAdj .f32 := m ((c : Thread nD τ).loc main_arg1)
abbrev wgtOf (c : Dev nD) : FVec Ideal Cert.Spec.SW .f32 := m ((c : Thread nD τ).loc main_arg2)

/-- The column the host stretch computes holds, in row `i`, the inverse square root of "row sum plus one". -/
theorem dcol_eq (c : Dev nD) (i : Fin 8192) :
    (V2 m ρ c main_v3 : FVec Ideal S8192x1 .f32) (ix2 i (0 : Fin 1)) = Cert.Spec.dK (adjOf m c) i := by
  rw [V2_main_v3, V1_main_v0, final0]
  show Ideal.rsqrt (Cert.Spec.rowSum (V0 m ρ c main_arg1) (ix2 i (0 : Fin 1))
      + broadcastInDim S8192x1 ![] bcast_S_S8192x1 (constant (F := Ideal) S_ .f32 0x3F800000#32) (ix2 i (0 : Fin 1))) = _
  rw [broadcastInDim_scalar_apply, constant_apply, Ideal.ofBits_one_f32]
  rfl

/-- The row is the column transposed. -/
theorem drow_eq (c : Dev nD) (j : Fin 8192) :
    (V2 m ρ c main_v4 : FVec Ideal S1x8192 .f32) (ix2 (0 : Fin 1) j) = Cert.Spec.dK (adjOf m c) j := by
  rw [V2_main_v4, transpose_ix2_apply]
  exact dcol_eq m ρ c j

/-- The first result: the normalised adjacency in the kernel's arrangement. -/
theorem result_adj (c : Dev nD) :
    W4 m ρ c (Proc.devRef .tc main_v6_0) = Cert.Spec.arrAdjK (adjOf m c) := by
  rw [W4_main_v6_0, final2_adj, V3_main_arg1, V3_main_v3, V3_main_v4]
  exact Cert.Spec.adjScaled_eq _ _ _ (dcol_eq m ρ c) (drow_eq m ρ c)

/-- The second result: the rectified propagated features in the kernel's arrangement. -/
theorem result_out (c : Dev nD) :
    W4 m ρ c (Proc.devRef .tc main_v6_1) = Cert.Spec.arrOutK (inpOf m c) (adjOf m c) (wgtOf m c) := by
  rw [W4_main_v6_1, final2_out, V3_main_arg1, V3_main_v5, V3_main_v4, final1, V2_main_arg2, V2_main_arg0]
  exact Cert.Spec.outScaled_eq _ _ _ _ (drow_eq m ρ c)

end Cert.KernelIdeal.HandVal

end
-- ==== Proof.Math.lean ====
/-
  The two arrangements of the graph-convolution layer agree.

  * The degree: the row sum of `adj + I` is the row sum of `adj` plus the row sum of `I`, and a row of the
    identity sums to one.  This needs only that the extended reals are a commutative additive monoid, so it
    holds with no hypothesis.  The inverse square roots, and with them the normalised adjacency, then agree.
  * The rectified product: scaling the features by `d i` before the product with `adj + I` and by `d j` after it
    is the same as multiplying the features by the normalised adjacency.  Multiplication does not distribute
    over addition on all of the extended reals, so this is proved in the reals: under the hypotheses every entry
    of the three arguments is real, every degree is a positive real, hence every inverse square root is real;
    the coercion is pushed out of the products and the finite sums and the law is distributivity in a
    commutative ring.
-/
import proofs.«143146_j43112881717764_2_alg».proof.Proof.Spec

noncomputable section

namespace Cert.Spec

open Idealize.ShloMosaic Idealize.ShloMosaic.ValueIdx

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row of the identity matrix sums to one. -/
theorem sum_eye (i : Fin 8192) : ∑ j : Fin 8192, eye i j = 1 := by
  unfold eye
  rw [Finset.sum_ite_eq]
  simp

/-- The identity matrix's entries are real. -/
theorem eye_coe (i j : Fin 8192) : eye i j = (((if i = j then 1 else 0 : ℝ)) : EReal) := by
  unfold eye
  split_ifs <;> simp

/-- "Row sum plus one" is the row sum of `adj + I`. -/
theorem degK_eq_degR (adj : FVec Ideal SAdj .f32) : degK adj = degR adj := by
  funext i
  unfold degK degR aP
  rw [Finset.sum_add_distrib, sum_eye]

/-- Hence the two inverse square roots agree. -/
theorem dK_eq_dR (adj : FVec Ideal SAdj .f32) : dK adj = dR adj := by
  funext i
  unfold dK dR
  rw [degK_eq_degR]

/-- Hence the two normalised adjacencies agree. -/
theorem arrAdjK_eq (adj : FVec Ideal SAdj .f32) : arrAdjK adj = arrAdjR adj := by
  funext idx
  unfold arrAdjK arrAdjR adjK adjR
  rw [dK_eq_dR]

/-- Distributivity, over an abstract finite index type and real entries: scaling by `d i` inside the sum and by
    `dj` outside it is multiplying by `a i * d i * dj` inside it. -/
theorem scale_law {ι : Type*} [Fintype ι] (x a d : ι → ℝ) (dj : ℝ) :
    (∑ i, ((x i : EReal) * (d i : EReal)) * (a i : EReal)) * (dj : EReal)
      = ∑ i, (x i : EReal) * ((a i : EReal) * (d i : EReal) * (dj : EReal)) := by
  simp only [← EReal.coe_mul]
  rw [← coe_sum, ← coe_sum, ← EReal.coe_mul]
  congr 1
  rw [Finset.sum_mul]
  exact Finset.sum_congr rfl (fun i _ => by ring)

/-- With real entries, `adj + I` is real. -/
theorem aP_coe (adj : FVec Ideal SAdj .f32) (fa : SAdj.Idx → ℝ) (hfa : ∀ i, adj i = (fa i : EReal))
    (i j : Fin 8192) : aP adj i j = ((fa (ix2 i j) + (if i = j then 1 else 0) : ℝ) : EReal) := by
  unfold aP
  rw [hfa, eye_coe, ← EReal.coe_add]

/-- With real entries, the degree is real. -/
theorem degR_coe (adj : FVec Ideal SAdj .f32) (fa : SAdj.Idx → ℝ) (hfa : ∀ i, adj i = (fa i : EReal))
    (i : Fin 8192) : degR adj i = ((∑ j : Fin 8192, (fa (ix2 i j) + (if i = j then 1 else 0)) : ℝ) : EReal) := by
  unfold degR
  rw [coe_sum]
  exact Finset.sum_congr rfl (fun j _ => aP_coe adj fa hfa i j)

/-- With real entries and a positive degree, the inverse square root of the degree is real. -/
theorem dR_coe (adj : FVec Ideal SAdj .f32) (fa : SAdj.Idx → ℝ) (hfa : ∀ i, adj i = (fa i : EReal))
    (hd : DegPos adj) (i : Fin 8192) :
    dR adj i = (((Real.sqrt (∑ j : Fin 8192, (fa (ix2 i j) + (if i = j then 1 else 0))))⁻¹ : ℝ) : EReal) := by
  have hpos := hd i
  unfold dR
  rw [degR_coe adj fa hfa i] at hpos ⊢
  have hp : (0 : ℝ) < ∑ j : Fin 8192, (fa (ix2 i j) + (if i = j then 1 else 0)) := by exact_mod_cast hpos
  rw [Ideal.rsqrt_coe, if_neg (not_lt.mpr hp.le), if_neg hp.ne']

/-- With real entries, the projected features are real. -/
theorem xw_coe (w : FVec Ideal SW .f32) (inp : FVec Ideal SInp .f32) (fw : SW.Idx → ℝ) (fi : SInp.Idx → ℝ)
    (hfw : ∀ i, w i = (fw i : EReal)) (hfi : ∀ i, inp i = (fi i : EReal)) (o : Fin 128) (n : Fin 8192) :
    xw w inp o n = ((∑ k : Fin 512, fw (ix2 k o) * fi (ix2 k n) : ℝ) : EReal) := by
  unfold xw
  rw [coe_sum]
  exact Finset.sum_congr rfl (fun k _ => by rw [hfw, hfi, ← EReal.coe_mul])

/-- The rectified product at one entry, in the two arrangements. -/
theorem outK_eq_outR (inp : FVec Ideal SInp .f32) (adj : FVec Ideal SAdj .f32) (w : FVec Ideal SW .f32)
    (hf : Finite inp adj w) (hd : DegPos adj) (o : Fin 128) (j : Fin 8192) :
    outK inp adj w o j = outR inp adj w o j := by
  obtain ⟨hi, ha, hw⟩ := hf
  choose fi hfi using hi
  choose fa hfa using ha
  choose fw hfw using hw
  unfold outK outR adjR
  rw [dK_eq_dR]
  simp only [xw_coe w inp fw fi hfw hfi, aP_coe adj fa hfa, dR_coe adj fa hfa hd]
  rw [scale_law]

/-- The rectified product, as whole arrays. -/
theorem arrOutK_eq (inp : FVec Ideal SInp .f32) (adj : FVec Ideal SAdj .f32) (w : FVec Ideal SW .f32)
    (hf : Finite inp adj w) (hd : DegPos adj) : arrOutK inp adj w = arrOutR inp adj w := by
  funext idx
  exact outK_eq_outR inp adj w hf hd (idx 0) (idx 1)

end Cert.Spec

end
-- ==== Proof.RefG.lean ====
/-
  The reference program's two results, read index by index, are the specification's reference arrangement.

  * The comparison of the row iota (plus a zero offset) with the column iota, converted to a float, is the
    identity matrix: two 32-bit words of numbers below 8192 are equal exactly when the numbers are, and the
    one-bit word converts to one or zero.
  * Adding it to the adjacency gives `adj + I`; the float sum along axis one from a zero start is the row
    degree; the host's inverse square root of it is `d`; the two broadcasts read `d` at the row and at the
    column; the two products give the normalised adjacency.
  * The first contraction is the projected features; the second contracts them with the normalised adjacency;
    the maximum with the broadcast zero is the rectification.
-/
import proofs.«143146_j43112881717764_2_alg».proof.Proof.Gen.ReferenceIdeal.Read
import proofs.«143146_j43112881717764_2_alg».proof.Proof.Spec

noncomputable section

namespace Cert.ReferenceIdeal.RefValue

open Cert.ReferenceIdeal Cert.ReferenceIdeal.Gen Cert.ReferenceIdeal.Read Idealize.ShloMosaic
  Idealize.ShloMosaic.ValueIdx

/-! ## The identity matrix, the degree and its inverse square root -/

/-- Two 32-bit words of numbers below 8192 are equal only when the numbers are. -/
theorem ofNat_inj (a b : Fin 8192) (e : BitVec.ofNat 32 a.val = BitVec.ofNat 32 b.val) : a = b := by
  have h := congrArg BitVec.toNat e
  simp only [BitVec.toNat_ofNat] at h
  have ha := a.isLt
  have hb := b.isLt
  exact Fin.ext (by omega)

/-- The compared iotas, converted to a float, are the identity matrix. -/
theorem stage_eye (a b : Fin 8192) : val_main_v5 (F := Ideal) (ix2 a b) = Cert.Spec.eye a b := by
  rw [val_main_v5_apply, val_main_v4_apply, val_main_v3_apply, val_main_v2_apply, val_main_c_apply,
    val_main_v0_apply, val_main_v1_apply]
  show FloatOps.uitofp (F := Ideal) .f32
      (IntOp.cmpi .eq (IntOp.addi (BitVec.ofNat 32 a.val) 0#32) (BitVec.ofNat 32 b.val)) = _
  have h0 : IntOp.addi (BitVec.ofNat 32 a.val) 0#32 = BitVec.ofNat 32 a.val := by
    unfold IntOp.addi
    exact BitVec.add_zero _
  rw [h0]
  unfold Cert.Spec.eye
  by_cases h : a = b
  · subst h
    rw [IntOp.cmpi_eq.mpr rfl, if_pos rfl]
    show (((1#1 : BitVec 1).toNat : ℝ) : EReal) = 1
    simp
  · have hc : IntOp.cmpi .eq (BitVec.ofNat 32 a.val) (BitVec.ofNat 32 b.val) = 0#1 := by
      rcases BitVec.eq_zero_or_eq_one (IntOp.cmpi .eq (BitVec.ofNat 32 a.val) (BitVec.ofNat 32 b.val)) with h0 | h1
      · exact h0
      · exact absurd (ofNat_inj a b (IntOp.cmpi_eq.mp h1)) h
    rw [hc, if_neg h]
    show (((0#1 : BitVec 1).toNat : ℝ) : EReal) = 0
    simp

/-- Adding it to the adjacency: `adj + I`. -/
theorem stage_aP (x1 : (⟨S8192x8192, .f32⟩ : BufTy).Contents (Elt Ideal)) (a b : Fin 8192) :
    val_main_v6 (F := Ideal) x1 (ix2 a b) = Cert.Spec.aP x1 a b := by
  rw [val_main_v6_apply, stage_eye]
  rfl

/-- The operand index of the float sum: row `a`, column `k`. -/
theorem idx7 (a k : Fin 8192) : idx_main_v7 (ix1 a) k = ix2 a k :=
  funext fun d => Fin.ext (by match d with | ⟨0, _⟩ => rfl | ⟨1, _⟩ => rfl)

/-- The float sum along axis one from a zero start: the row degree. -/
theorem stage_deg (x1 : (⟨S8192x8192, .f32⟩ : BufTy).Contents (Elt Ideal)) (a : Fin 8192) :
    val_main_v7 (F := Ideal) x1 (ix1 a) = Cert.Spec.degR x1 a := by
  rw [val_main_v7_apply, val_main_cst_apply]
  show Ideal.ofBits .f32 0x00000000#32 + _ = _
  rw [Ideal.ofBits_zero_f32, zero_add]
  unfold Cert.Spec.degR
  exact Finset.sum_congr rfl (fun k _ => by rw [idx7, stage_aP])

/-- The host's inverse square root of the degree. -/
theorem stage_d (x1 : (⟨S8192x8192, .f32⟩ : BufTy).Contents (Elt Ideal)) (a : Fin 8192) :
    val_main_v8 (F := Ideal) x1 (ix1 a) = Cert.Spec.dR x1 a := by
  rw [val_main_v8_apply, stage_deg]
  rfl

/-- The column broadcast reads `d` at the row, the row broadcast at the column. -/
theorem idx10 (a b : Fin 8192) : idx_main_v9 (idx_main_v10 (ix2 a b)) = ix1 a :=
  funext fun d => Fin.ext (by match d with | ⟨0, _⟩ => rfl)
theorem idx13 (a b : Fin 8192) : idx_main_v12 (idx_main_v13 (ix2 a b)) = ix1 b :=
  funext fun d => Fin.ext (by match d with | ⟨0, _⟩ => rfl)

theorem stage_col (x1 : (⟨S8192x8192, .f32⟩ : BufTy).Contents (Elt Ideal)) (a b : Fin 8192) :
    val_main_v10 (F := Ideal) x1 (ix2 a b) = Cert.Spec.dR x1 a := by
  rw [val_main_v10_apply, val_main_v9_apply, idx10, stage_d]
theorem stage_row (x1 : (⟨S8192x8192, .f32⟩ : BufTy).Contents (Elt Ideal)) (a b : Fin 8192) :
    val_main_v13 (F := Ideal) x1 (ix2 a b) = Cert.Spec.dR x1 b := by
  rw [val_main_v13_apply, val_main_v12_apply, idx13, stage_d]

/-! ## The normalised adjacency -/

theorem stage_adj (x1 : (⟨S8192x8192, .f32⟩ : BufTy).Contents (Elt Ideal)) (a b : Fin 8192) :
    val_main_v14 (F := Ideal) x1 (ix2 a b) = Cert.Spec.adjR x1 a b := by
  rw [val_main_v14_apply, val_main_v11_apply, stage_aP, stage_col, stage_row]
  rfl

/-- The reference's second result is the normalised adjacency. -/
theorem ref_adj (x1 : (⟨S8192x8192, .f32⟩ : BufTy).Contents (Elt Ideal)) :
    val_main_v14 (F := Ideal) x1 = Cert.Spec.arrAdjR x1 := by
  funext i
  obtain ⟨a, b, rfl⟩ : ∃ (a b : Fin 8192), i = ix2 a b := ⟨i 0, i 1, eq_ix2 i⟩
  exact stage_adj x1 a b

/-! ## The rectified product -/

/-- The operand indices of the two contractions. -/
theorem lidx15 (o : Fin 128) (n : Fin 8192) (k : Fin 512) : lidx_main_v15 (ix2 o n) k = ix2 k o :=
  funext fun d => Fin.ext (by match d with | ⟨0, _⟩ => rfl | ⟨1, _⟩ => rfl)
theorem ridx15 (o : Fin 128) (n : Fin 8192) (k : Fin 512) : ridx_main_v15 (ix2 o n) k = ix2 k n :=
  funext fun d => Fin.ext (by match d with | ⟨0, _⟩ => rfl | ⟨1, _⟩ => rfl)
theorem lidx16 (o : Fin 128) (j k : Fin 8192) : lidx_main_v16 (ix2 o j) k = ix2 o k :=
  funext fun d => Fin.ext (by match d with | ⟨0, _⟩ => rfl | ⟨1, _⟩ => rfl)
theorem ridx16 (o : Fin 128) (j k : Fin 8192) : ridx_main_v16 (ix2 o j) k = ix2 k j :=
  funext fun d => Fin.ext (by match d with | ⟨0, _⟩ => rfl | ⟨1, _⟩ => rfl)

/-- The first contraction: the projected features. -/
theorem stage_xw (x0 : (⟨S512x8192, .f32⟩ : BufTy).Contents (Elt Ideal))
    (x2 : (⟨S512x128, .f32⟩ : BufTy).Contents (Elt Ideal)) (o : Fin 128) (n : Fin 8192) :
    val_main_v15 (F := Ideal) x0 x2 (ix2 o n) = Cert.Spec.xw x2 x0 o n := by
  rw [val_main_v15_apply]
  unfold Cert.Spec.xw
  exact Finset.sum_congr rfl (fun k _ => by rw [lidx15, ridx15])

/-- The second contraction against the normalised adjacency, rectified. -/
theorem stage_out (x0 : (⟨S512x8192, .f32⟩ : BufTy).Contents (Elt Ideal))
    (x1 : (⟨S8192x8192, .f32⟩ : BufTy).Contents (Elt Ideal))
    (x2 : (⟨S512x128, .f32⟩ : BufTy).Contents (Elt Ideal)) (o : Fin 128) (j : Fin 8192) :
    val_main_v17 (F := Ideal) x0 x1 x2 (ix2 o j) = Cert.Spec.outR x0 x1 x2 o j := by
  rw [val_main_v17_apply, val_main_v16_apply, val_main_call0_v0_apply, val_main_call0_cst_apply]
  show max _ (Ideal.ofBits .f32 0x00000000#32) = _
  rw [Ideal.ofBits_zero_f32]
  unfold Cert.Spec.outR
  refine congrArg (max · 0) (Finset.sum_congr rfl (fun k _ => ?_))
  rw [lidx16, ridx16, stage_xw, stage_adj]

/-- The reference's first result is the rectified product. -/
theorem ref_out (x0 : (⟨S512x8192, .f32⟩ : BufTy).Contents (Elt Ideal))
    (x1 : (⟨S8192x8192, .f32⟩ : BufTy).Contents (Elt Ideal))
    (x2 : (⟨S512x128, .f32⟩ : BufTy).Contents (Elt Ideal)) :
    val_main_v17 (F := Ideal) x0 x1 x2 = Cert.Spec.arrOutR x0 x1 x2 := by
  funext i
  obtain ⟨o, j, rfl⟩ : ∃ (o : Fin 128) (j : Fin 8192), i = ix2 o j := ⟨i 0, i 1, eq_ix2 i⟩
  exact stage_out x0 x1 x2 o j

end Cert.ReferenceIdeal.RefValue

end
-- ==== Proof.PreDecode.lean ====
/-
  The precondition read back as mathematics. The precondition is one boolean: the conjunction of four
  "for all" tests, each a fold by `and` of a one-bit array. It being true says (1)–(3) every entry x of the
  three argument arrays satisfies |x| < +∞, that is, x is a real number; and (4) for every row i the sum over
  j of (adj + I)[i, j] exceeds 0, where the identity matrix is spelt as the 0/1 value of the test
  "row number = column number".
-/
import proofs.«143146_j43112881717764_2_alg».proof.Pre_finite_inputs
import proofs.«143146_j43112881717764_2_alg».proof.Proof.Gen.Pre_finite_inputs
import proofs.«143146_j43112881717764_2_alg».proof.Proof.Spec
import Idealize.ShloMosaic.Lib.ReduceAll
import Idealize.ShloMosaic.Lib.IdealHost

noncomputable section

namespace Cert.PreDecode

open Idealize.ShloMosaic Idealize.ShloMosaic.ValueIdx Cert.Spec

/-- The scalar shape has exactly one index. -/
instance subsingleton_scalarIdx : Subsingleton Cert.Pre_finite_inputs.S_.Idx :=
  ⟨fun a b => funext fun d => d.elim0⟩

/-- An extended real whose absolute value max(x, −x) lies strictly below +∞ (the pattern 0x7F800000) is a real
    number: the two infinities both have absolute value +∞. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- The comparison "a > b" answering 1 says b < a in the linear order of the extended reals. -/
theorem lt_of_cmp_ogt (a b : EReal) (h : Ideal.cmp .ogt a b = 1#1) : b < a := by
  by_contra hn
  simp [Ideal.cmp, hn] at h

/-- The identity matrix as the precondition spells it: the one-bit answer of "i + 0 = k" on 32-bit words, read
    as an unsigned number, is 1 when i = k and 0 otherwise; row and column numbers are below 8192 < 2³², so
    equality of the words is equality of the numbers. -/
theorem eye_mask (i k : Fin 8192) :
    (FloatOps.uitofp (F := Ideal) .f32
      (IntOp.cmpi .eq (IntOp.addi (BitVec.ofNat 32 i.val) 0#32) (BitVec.ofNat 32 k.val)) : EReal) = eye i k := by
  show (((IntOp.cmpi .eq (IntOp.addi (BitVec.ofNat 32 i.val) 0#32) (BitVec.ofNat 32 k.val)).toNat : ℝ) : EReal) = eye i k
  unfold eye IntOp.cmpi IntOp.addi
  rw [BitVec.add_zero]
  by_cases hik : i = k
  · subst hik; simp
  · have hne : ¬ (BitVec.ofNat 32 i.val = BitVec.ofNat 32 k.val) := by
      intro he
      apply hik
      have := congrArg BitVec.toNat he
      simp only [BitVec.toNat_ofNat] at this
      have hi := i.isLt; have hk := k.isLt
      exact Fin.ext (by omega)
    simp [hik, hne]

/-- Entry (i, k) of the array the precondition sums: adj[i, k] plus the identity's entry, that is (adj + I)[i, k]. -/
theorem adjPlusEye_apply (adj : FVec Ideal SAdj .f32)
    (hb : Cert.Pre_finite_inputs.S_.BroadcastsInDim SAdj (![] : Fin 0 → Fin SAdj.rank)) (i k : Fin 8192) :
    (addf adj (uitofp .f32 (cmpi .eq (addi (iotaInDim SAdj 32 0)
        (broadcastInDim SAdj ![] hb (constantI Cert.Pre_finite_inputs.S_ 32 0#32))) (iotaInDim SAdj 32 1)))) (ix2 i k)
      = aP adj i k := by
  show adj (ix2 i k) + FloatOps.uitofp (F := Ideal) .f32
      (IntOp.cmpi .eq (IntOp.addi (BitVec.ofNat 32 i.val) 0#32) (BitVec.ofNat 32 k.val)) = aP adj i k
  rw [eye_mask]; rfl

/-- The sum of a square array over its column axis, started from zero, at row i: 0 + ∑ₖ V[i, k] = ∑ₖ V[i, k].
    The summed index with k inserted on the column axis is the pair (i, k). -/
theorem hostRowSum (V : FVec Ideal SAdj .f32) (hR' : SAdj.ReducesTo [1] ⟨1, ![8192]⟩)
    (hu : 0 < Cert.Pre_finite_inputs.S_.numel) (i : Fin 8192) :
    Host.reduceAdd V (constant (F := Ideal) Cert.Pre_finite_inputs.S_ .f32 0#32) hR' hu (ix1 i)
      = ∑ k : Fin 8192, V (ix2 i k) := by
  have hR : SAdj.Reduces [1] ⟨1, ![8192]⟩ := ⟨hR'.1, Nat.one_pos, hR'.2⟩
  rw [hostReduceAdd_apply, Ideal.hostReduceAdd_single hR' hR]
  show Ideal.ofBits .f32 0#32 + _ = _
  rw [Ideal.ofBits_zero_f32, zero_add]
  refine Finset.sum_congr rfl (fun k _ => congrArg V (funext fun a => Fin.ext ?_))
  match a with
  | ⟨0, _⟩ => rfl
  | ⟨1, _⟩ => rfl

/-- So the row sum the precondition tests is the degree of row i: ∑ₖ (adj + I)[i, k]. -/
theorem rowSum_eq (adj : FVec Ideal SAdj .f32)
    (hb : Cert.Pre_finite_inputs.S_.BroadcastsInDim SAdj (![] : Fin 0 → Fin SAdj.rank))
    (hR' : SAdj.ReducesTo [1] ⟨1, ![8192]⟩) (hu : 0 < Cert.Pre_finite_inputs.S_.numel) (i : Fin 8192) :
    Host.reduceAdd (addf adj (uitofp .f32 (cmpi .eq (addi (iotaInDim SAdj 32 0)
        (broadcastInDim SAdj ![] hb (constantI Cert.Pre_finite_inputs.S_ 32 0#32))) (iotaInDim SAdj 32 1))))
      (constant (F := Ideal) Cert.Pre_finite_inputs.S_ .f32 0#32) hR' hu (ix1 i) = degR adj i := by
  rw [hostRowSum]
  exact Finset.sum_congr rfl (fun k _ => adjPlusEye_apply adj hb i k)

/-- The precondition holding says: every entry of the three arguments is a real number, and every row degree
    of adj + I is positive. The boolean is a four-fold conjunction; each conjunct is an `and`-fold equal to 1, so
    each of its one-bit entries is 1; the first three entries are the tests |x| < +∞, the fourth is the test
    0 < ∑ₖ (adj + I)[i, k]. -/
theorem pre_decode [Cert.Pre_finite_inputs.Facts] (inp : FVec Ideal SInp .f32) (adj : FVec Ideal SAdj .f32)
    (w : FVec Ideal SW .f32) (h : Cert.Pre_finite_inputs.fn (F := Ideal) inp adj w = (fun _ => 1#1)) :
    Cert.Spec.Finite inp adj w ∧ Cert.Spec.DegPos adj := by
  have h0 := congrFun h ix0
  dsimp only [Cert.Pre_finite_inputs.fn, Cert.Pre_finite_inputs.fn_part1, Idealize.ShloMosaic.andi] at h0
  obtain ⟨h123, h4⟩ := IntOp.andi_eq_one.1 h0
  obtain ⟨h12, h3⟩ := IntOp.andi_eq_one.1 h123
  obtain ⟨h1, h2⟩ := IntOp.andi_eq_one.1 h12
  refine ⟨⟨fun i => ?_, fun i => ?_, fun i => ?_⟩, fun i => ?_⟩
  · exact real_of_abs_lt_inf (inp i) (Host.reduce_andi_all _ _ _ _ ix0 h1 i)
  · exact real_of_abs_lt_inf (adj i) (Host.reduce_andi_all _ _ _ _ ix0 h2 i)
  · exact real_of_abs_lt_inf (w i) (Host.reduce_andi_all _ _ _ _ ix0 h3 i)
  · have e := Host.reduce_andi_all _ _ _ _ ix0 h4 (ix1 i)
    have e' := lt_of_cmp_ogt _ _ e
    rw [rowSum_eq] at e'
    refine lt_of_eq_of_lt ?_ e'
    show (0 : EReal) = Ideal.ofBits .f32 0#32
    rw [Ideal.ofBits_zero_f32]

end Cert.PreDecode

end
-- ==== Proof.lean ====
/-
  A graph-convolution layer: `relu (Wᵀ·X · D^(-1/2) (A + I) D^(-1/2))` together with the normalised adjacency
  `D^(-1/2) (A + I) D^(-1/2)`, where `D` is the diagonal of the row sums of `A + I`.

  The kernel computes it in three launches: the row sums of `A` (the self loop's one is added on the host, before the
  inverse square root); the projected features `Wᵀ·X` with column `n` already scaled by `d[n]`; then, tile by tile
  of `A`, the normalised tile `(A + I)[i, j]·d[i]·d[j]` and the running product of the scaled features with
  `A + I`, whose columns are scaled by `d[j]` and rectified once the last tile of a column block has been added.
  The reference forms `A + I`, sums its rows, normalises, and multiplies the unscaled features into the normalised
  matrix.

  Over the extended reals the two agree wherever every entry of the arguments is a real number and every row sum of
  `A + I` is positive (outside that domain the reference's inverse square root is infinite or undefined): the degree
  as "row sum plus one" is the row sum of `A + I` in any commutative monoid, and moving the factors `d[i]`, `d[j]`
  across the sum over `i` is distributivity in the reals, which is where finiteness and positivity are used.

  The frames of the two kernel programs (they run to the end, fault nowhere, leave the arguments unchanged) are the
  run of @main through its four segments; the reference's frame is its run with the results dropped; the idealized
  kernel is the kernel's text read at the ideal instance (nothing was rewritten).
-/
import proofs.«143146_j43112881717764_2_alg».proof.Defs
import proofs.«143146_j43112881717764_2_alg».proof.Proof.Gen.Kernel
import proofs.«143146_j43112881717764_2_alg».proof.Proof.Gen.KernelIdeal
import proofs.«143146_j43112881717764_2_alg».proof.Proof.Gen.ReferenceIdeal
import proofs.«143146_j43112881717764_2_alg».proof.Proof.Gen.ReferenceIdeal.Run
import proofs.«143146_j43112881717764_2_alg».proof.Proof.Gen.ReferenceIdeal.Read
import proofs.«143146_j43112881717764_2_alg».proof.Proof.Gen.Pre_finite_inputs
import proofs.«143146_j43112881717764_2_alg».proof.Proof.K_Run
import proofs.«143146_j43112881717764_2_alg».proof.Proof.KI_Run
import proofs.«143146_j43112881717764_2_alg».proof.Proof.KI_Glue
import proofs.«143146_j43112881717764_2_alg».proof.Proof.Math
import proofs.«143146_j43112881717764_2_alg».proof.Proof.RefG
import proofs.«143146_j43112881717764_2_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel's frame: the run of its four segments. -/
theorem frame_k : @Cert.frame_Kernel Cert.Kernel.Gen.facts Cert.Pre_finite_inputs.Gen.facts :=
  fun m ρ _ => Cert.Kernel.Hand.frame m ρ

/-- The idealized kernel's frame: the same run at the ideal instance. -/
theorem frame_ki : @Cert.frame_KernelIdeal Cert.KernelIdeal.Gen.facts Cert.Pre_finite_inputs.Gen.facts :=
  fun m ρ _ => Cert.KernelIdeal.Hand.frame m ρ

/-- The reference's frame: its run, the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- The two idealized programs end with equal results: the kernel's arrays are the layer in the kernel's arrangement,
    the reference's the layer in the reference's, and on finite arguments with positive degrees the arrangements agree. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.arrOutK (Cert.KernelIdeal.HandVal.inpOf m c) (Cert.KernelIdeal.HandVal.adjOf m c) (Cert.KernelIdeal.HandVal.wgtOf m c),
    fun c => Cert.Spec.arrAdjK (Cert.KernelIdeal.HandVal.adjOf m c), ?_, ?_⟩
  · exact (θ_run Cert.KernelIdeal.defs _ _).mono (fun r h c =>
      ⟨(h c _ (Cert.KernelIdeal.Hand.mem_uc Cert.KernelIdeal.main_v6_1 (by decide))).trans (Cert.KernelIdeal.HandVal.result_out m ρ c),
       (h c _ (Cert.KernelIdeal.Hand.mem_uc Cert.KernelIdeal.main_v6_0 (by decide))).trans (Cert.KernelIdeal.HandVal.result_adj m ρ c),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c)⟩)
      (Cert.KernelIdeal.Hand.run_all m ρ)
  · refine (θ_run Cert.ReferenceIdeal.defs _ _).mono (fun _ h c => ?_) (Cert.ReferenceIdeal.Value.run (F := Ideal) m' ρ')
    obtain ⟨hf, hd⟩ := Cert.PreDecode.pre_decode _ _ _ (hpre c)
    refine ⟨?_, ?_, (h c).2.2⟩
    · rw [(h c).1, Cert.ReferenceIdeal.Read.val_main_v17_eq, Cert.ReferenceIdeal.RefValue.ref_out, (hagree c).1, (hagree c).2.1, (hagree c).2.2]
      exact (Cert.Spec.arrOutK_eq _ _ _ hf hd).symm
    · rw [(h c).2.1, Cert.ReferenceIdeal.Read.val_main_v14_eq, Cert.ReferenceIdeal.RefValue.ref_adj, (hagree c).2.1]
      exact (Cert.Spec.arrAdjK_eq _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
